-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S7x128x64 : Shape := ⟨3, ![7, 128, 64]⟩
abbrev S7x64 : Shape := ⟨2, ![7, 64]⟩
abbrev S7x64x64 : Shape := ⟨3, ![7, 64, 64]⟩
abbrev S64x4 : Shape := ⟨2, ![64, 4]⟩
abbrev S4 : Shape := ⟨1, ![4]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S7x128x64 : S_.BroadcastsInDim S7x128x64 (![] : Fin 0 → Fin S7x128x64.rank)
  reducesTo_S7x128x64_S_d0_1_2 : S7x128x64.ReducesTo [0, 1, 2] S_
  bcast_S_S7x64 : S_.BroadcastsInDim S7x64 (![] : Fin 0 → Fin S7x64.rank)
  reducesTo_S7x64_S_d0_1 : S7x64.ReducesTo [0, 1] S_
  bcast_S_S7x64x64 : S_.BroadcastsInDim S7x64x64 (![] : Fin 0 → Fin S7x64x64.rank)
  reducesTo_S7x64x64_S_d0_1_2 : S7x64x64.ReducesTo [0, 1, 2] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S7x64 .f32) (main_arg12 : FVec F S64x4 .f32) (main_arg13 : FVec F S4 .f32) (main_v48 : IVec S_ 1) (main_v49 : FVec F S7x64x64 .f32) (main_v50 : FVec F S7x64x64 .f32) : IVec S_ 1 :=
  let main_v51 : IVec S7x64x64 1 := cmpf .olt main_v49 main_v50
  let main_c_19 : IVec S_ 1 := constantI S_ 1 1#1
  let main_v52 : IVec S_ 1 := (fun x v => Host.reduce IntOp.andi x v reducesTo_S7x64x64_S_d0_1_2 h_S_) main_v51 main_c_19
  let main_v53 : IVec S_ 1 := andi main_v48 main_v52
  let main_v54 : FVec F S7x64 .f32 := Host.absf main_arg11
  let main_cst_20 : FVec F S_ .f32 := constant S_ .f32 0x7F800000#32
  let main_v55 : FVec F S7x64 .f32 := broadcastInDim S7x64 ![] bcast_S_S7x64 main_cst_20
  let main_v56 : IVec S7x64 1 := cmpf .olt main_v54 main_v55
  let main_c_21 : IVec S_ 1 := constantI S_ 1 1#1
  let main_v57 : IVec S_ 1 := (fun x v => Host.reduce IntOp.andi x v reducesTo_S7x64_S_d0_1 h_S_) main_v56 main_c_21
  let main_v58 : IVec S_ 1 := andi main_v53 main_v57
  let main_v59 : FVec F S64x4 .f32 := Host.absf main_arg12
  let main_cst_22 : FVec F S_ .f32 := constant S_ .f32 0x7F800000#32
  let main_v60 : FVec F S64x4 .f32 := broadcastInDim S64x4 ![] bcast_S_S64x4 main_cst_22
  let main_v61 : IVec S64x4 1 := cmpf .olt main_v59 main_v60
  let main_c_23 : IVec S_ 1 := constantI S_ 1 1#1
  let main_v62 : IVec S_ 1 := (fun x v => Host.reduce IntOp.andi x v reducesTo_S64x4_S_d0_1 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg7 : FVec F S4096x4096 .f32) (main_arg8 : FVec F S7x128x64 .f32) (main_arg9 : FVec F S7x64 .f32) (main_arg10 : FVec F S7x64x64 .f32) (main_arg11 : FVec F S7x64 .f32) (main_arg12 : FVec F S64x4 .f32) (main_arg13 : FVec F S4 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S7x128x64 .f32 := Host.absf main_arg8
  let main_cst_14 : FVec F S_ .f32 := constant S_ .f32 0x7F800000#32
  let main_v40 : FVec F S7x128x64 .f32 := broadcastInDim S7x128x64 ![] bcast_S_S7x128x64 main_cst_14
  let main_v41 : IVec S7x128x64 1 := cmpf .olt main_v39 main_v40
  let main_c_15 : IVec S_ 1 := constantI S_ 1 1#1
  let main_v42 : IVec S_ 1 := (fun x v => Host.reduce IntOp.andi x v reducesTo_S7x128x64_S_d0_1_2 h_S_) main_v41 main_c_15
  let main_v43 : IVec S_ 1 := andi main_v38 main_v42
  let main_v44 : FVec F S7x64 .f32 := Host.absf main_arg9
  let main_cst_16 : FVec F S_ .f32 := constant S_ .f32 0x7F800000#32
  let main_v45 : FVec F S7x64 .f32 := broadcastInDim S7x64 ![] bcast_S_S7x64 main_cst_16
  let main_v46 : IVec S7x64 1 := cmpf .olt main_v44 main_v45
  let main_c_17 : IVec S_ 1 := constantI S_ 1 1#1
  let main_v47 : IVec S_ 1 := (fun x v => Host.reduce IntOp.andi x v reducesTo_S7x64_S_d0_1 h_S_) main_v46 main_c_17
  let main_v48 : IVec S_ 1 := andi main_v43 main_v47
  let main_v49 : FVec F S7x64x64 .f32 := Host.absf main_arg10
  let main_cst_18 : FVec F S_ .f32 := constant S_ .f32 0x7F800000#32
  let main_v50 : FVec F S7x64x64 .f32 := broadcastInDim S7x64x64 ![] bcast_S_S7x64x64 main_cst_18
  fn_part3 (F := F) main_arg11 main_arg12 main_arg13 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S7x128x64 .f32) (main_arg9 : FVec F S7x64 .f32) (main_arg10 : FVec F S7x64x64 .f32) (main_arg11 : FVec F S7x64 .f32) (main_arg12 : FVec F S64x4 .f32) (main_arg13 : FVec F S4 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x128 .f32) (main_arg1 : FVec F S4096x4096 .f32) (main_arg2 : FVec F S4096x4096 .f32) (main_arg3 : FVec F S4096x4096 .f32) (main_arg4 : FVec F S4096x4096 .f32) (main_arg5 : FVec F S4096x4096 .f32) (main_arg6 : FVec F S4096x4096 .f32) (main_arg7 : FVec F S4096x4096 .f32) (main_arg8 : FVec F S7x128x64 .f32) (main_arg9 : FVec F S7x64 .f32) (main_arg10 : FVec F S7x64x64 .f32) (main_arg11 : FVec F S7x64 .f32) (main_arg12 : FVec F S64x4 .f32) (main_arg13 : FVec F S4 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x128 : Shape := ⟨2, ![4096, 128]⟩
abbrev S4096x4096 : Shape := ⟨2, ![4096, 4096]⟩
abbrev S7x128x64 : Shape := ⟨3, ![7, 128, 64]⟩
abbrev S7x64 : Shape := ⟨2, ![7, 64]⟩
abbrev S7x64x64 : Shape := ⟨3, ![7, 64, 64]⟩
abbrev S64x4 : Shape := ⟨2, ![64, 4]⟩
abbrev S4 : Shape := ⟨1, ![4]⟩
abbrev S7 : Shape := ⟨1, ![7]⟩
abbrev S128x7x64 : Shape := ⟨3, ![128, 7, 64]⟩
abbrev S128x448 : Shape := ⟨2, ![128, 448]⟩
abbrev S_ : Shape := ⟨0, ![]⟩
abbrev S7x1 : Shape := ⟨2, ![7, 1]⟩
abbrev S64x7x64 : Shape := ⟨3, ![64, 7, 64]⟩
abbrev S64x448 : Shape := ⟨2, ![64, 448]⟩
abbrev S1x4 : Shape := ⟨2, ![1, 4]⟩
abbrev S4096x4 : Shape := ⟨2, ![4096, 4]⟩
abbrev S4096x64 : Shape := ⟨2, ![4096, 64]⟩
abbrev S128x4096 : Shape := ⟨2, ![128, 4096]⟩
abbrev S128x4 : Shape := ⟨2, ![128, 4]⟩
abbrev S128x64 : Shape := ⟨2, ![128, 64]⟩
abbrev S4096x448 : Shape := ⟨2, ![4096, 448]⟩
abbrev S1x64 : Shape := ⟨2, ![1, 64]⟩
abbrev S64 : Shape := ⟨1, ![64]⟩
abbrev S128 : Shape := ⟨1, ![128]⟩
abbrev S128x1 : Shape := ⟨2, ![128, 1]⟩

abbrev nBuf : Space → Nat
  | .hbm => 40
  | .vmem => 27
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S7x128x64, .f32⟩
  | .hbm, ⟨9, _⟩ => ⟨S7x64, .f32⟩
  | .hbm, ⟨10, _⟩ => ⟨S7x64x64, .f32⟩
  | .hbm, ⟨11, _⟩ => ⟨S7x64, .f32⟩
  | .hbm, ⟨12, _⟩ => ⟨S64x4, .f32⟩
  | .hbm, ⟨13, _⟩ => ⟨S4, .f32⟩
  | .hbm, ⟨14, _⟩ => ⟨S7, .i32⟩
  | .hbm, ⟨15, _⟩ => ⟨S128x7x64, .f32⟩
  | .hbm, ⟨16, _⟩ => ⟨S128x448, .f32⟩
  | .hbm, ⟨17, _⟩ => ⟨S_, .i32⟩
  | .hbm, ⟨18, _⟩ => ⟨S7, .i32⟩
  | .hbm, ⟨19, _⟩ => ⟨S7, .i1⟩
  | .hbm, ⟨20, _⟩ => ⟨S_, .i32⟩
  | .hbm, ⟨21, _⟩ => ⟨S7, .i32⟩
  | .hbm, ⟨22, _⟩ => ⟨S7, .i32⟩
  | .hbm, ⟨23, _⟩ => ⟨S7, .i32⟩
  | .hbm, ⟨24, _⟩ => ⟨S7x1, .i32⟩
  | .hbm, ⟨25, _⟩ => ⟨S7x64x64, .f32⟩
  | .hbm, ⟨26, _⟩ => ⟨S64x7x64, .f32⟩
  | .hbm, ⟨27, _⟩ => ⟨S64x448, .f32⟩
  | .hbm, ⟨28, _⟩ => ⟨S_, .i32⟩
  | .hbm, ⟨29, _⟩ => ⟨S7, .i32⟩
  | .hbm, ⟨30, _⟩ => ⟨S7, .i1⟩
  | .hbm, ⟨31, _⟩ => ⟨S_, .i32⟩
  | .hbm, ⟨32, _⟩ => ⟨S7, .i32⟩
  | .hbm, ⟨33, _⟩ => ⟨S7, .i32⟩
  | .hbm, ⟨34, _⟩ => ⟨S7, .i32⟩
  | .hbm, ⟨35, _⟩ => ⟨S7x1, .i32⟩
  | .hbm, ⟨36, _⟩ => ⟨S7x64, .f32⟩
  | .hbm, ⟨37, _⟩ => ⟨S1x4, .f32⟩
  | .hbm, ⟨38, _⟩ => ⟨S4096x4, .f32⟩
  | .hbm, ⟨39, _⟩ => ⟨S4096x64, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S4096x128, .f32⟩
  | .local _ .vmem, ⟨15, _⟩ => ⟨S128x448, .f32⟩
  | .local _ .vmem, ⟨16, _⟩ => ⟨S7x64, .f32⟩
  | .local _ .vmem, ⟨17, _⟩ => ⟨S64x448, .f32⟩
  | .local _ .vmem, ⟨18, _⟩ => ⟨S7x64, .f32⟩
  | .local _ .vmem, ⟨19, _⟩ => ⟨S64x4, .f32⟩
  | .local _ .vmem, ⟨20, _⟩ => ⟨S1x4, .f32⟩
  | .local _ .vmem, ⟨21, _⟩ => ⟨S128x4, .f32⟩
  | .local _ .vmem, ⟨22, _⟩ => ⟨S128x4, .f32⟩
  | .local _ .vmem, ⟨23, _⟩ => ⟨S128x64, .f32⟩
  | .local _ .vmem, ⟨24, _⟩ => ⟨S128x64, .f32⟩
  | .local _ .vmem, ⟨25, _⟩ => ⟨S4096x448, .f32⟩
  | .local _ .vmem, ⟨26, _⟩ => ⟨S4096x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg0 : BitVec 32 := BitVec.ofNat 32 (i 0).val
  let c0_i32_68 : BitVec 32 := 0#32
  let v116 : BitVec 1 := Scalar.cmpi .eq arg0 c0_i32_68
  let v117 : BitVec 32 := Scalar.extui v116
  let c0_i32_69 : BitVec 32 := 0#32
  let v118 : BitVec 1 := Scalar.cmpi .ne v117 c0_i32_69
  v118

def k0_off1 (i : grid0.Coords) : Fin 2 → Nat :=
  let arg1 : BitVec 32 := BitVec.ofNat 32 (i 1).val
  let c128_i32 : BitVec 32 := 128#32
  let v122 : BitVec 32 := Scalar.muli arg1 c128_i32
  let v123 : Index := Scalar.indexCast v122
  let c0_72 : Index := 0#32
  ![v123.toNat, 0]
def k0_cond4 (i : grid0.Coords) : BitVec 1 :=
  let arg0 : BitVec 32 := BitVec.ofNat 32 (i 0).val
  let c1_i32_70 : BitVec 32 := 1#32
  let v119 : BitVec 1 := Scalar.cmpi .eq arg0 c1_i32_70
  let v120 : BitVec 32 := Scalar.extui v119
  let c0_i32_71 : BitVec 32 := 0#32
  let v121 : BitVec 1 := Scalar.cmpi .ne v120 c0_i32_71
  v121

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x448 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S7x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x448 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S7x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  transposes_S7x128x64_S128x7x64_1_0_2 : S7x128x64.Transposes [1, 0, 2] S128x7x64
  shapeCasts_S128x7x64_S128x448 : S128x7x64.ShapeCasts S128x448
  bcast_S_S7 : S_.BroadcastsInDim S7 (![] : Fin 0 → Fin S7.rank)
  bcast_S7_S7x1_0 : S7.BroadcastsInDim S7x1 (![0] : Fin 1 → Fin S7x1.rank)
  transposes_S7x64x64_S64x7x64_1_0_2 : S7x64x64.Transposes [1, 0, 2] S64x7x64
  shapeCasts_S64x7x64_S64x448 : S64x7x64.ShapeCasts S64x448
  shapeCasts_S4_S1x4 : S4.ShapeCasts S1x4
  inb_S4096x128_S4096x128_0_0 : ∀ a, (![0, 0] : Fin 2 → Nat) a + S4096x128.size a ≤ S4096x128.size a
  h_S4096x128 : 0 < S4096x128.numel
  inb_S128x448_S128x448_0_0 : ∀ a, (![0, 0] : Fin 2 → Nat) a + S128x448.size a ≤ S128x448.size a
  h_S128x448 : 0 < S128x448.numel
  shapeCasts_S128x448_S128x448 : S128x448.ShapeCasts S128x448
  inb_S4096x448_S4096x448_0_0 : ∀ a, (![0, 0] : Fin 2 → Nat) a + S4096x448.size a ≤ S4096x448.size a
  h_S4096x448 : 0 < S4096x448.numel
  shapeCasts_S4096x448_S4096x448 : S4096x448.ShapeCasts S4096x448
  inb_S4096x64_S4096x64_0_0 : ∀ a, (![0, 0] : Fin 2 → Nat) a + S4096x64.size a ≤ S4096x64.size a
  h_S4096x64 : 0 < S4096x64.numel
  inb_S64x448_S64x448_0_0 : ∀ a, (![0, 0] : Fin 2 → Nat) a + S64x448.size a ≤ S64x448.size a
  h_S64x448 : 0 < S64x448.numel
  shapeCasts_S64x448_S64x448 : S64x448.ShapeCasts S64x448
  inb_S128x4096_S128x4096_0_0 : ∀ a, (![0, 0] : Fin 2 → Nat) a + S128x4096.size a ≤ S128x4096.size a
  h_S128x4096 : 0 < S128x4096.numel
  inb_S4096x448_S4096x64_0_0 : ∀ a, (![0, 0] : Fin 2 → Nat) a + S4096x64.size a ≤ S4096x448.size a
  inb_S7x64_S1x64_0_0 : ∀ a, (![0, 0] : Fin 2 → Nat) a + S1x64.size a ≤ S7x64.size a
  h_S1x64 : 0 < S1x64.numel
  shapeCasts_S1x64_S64 : S1x64.ShapeCasts S64
  shapeCasts_S64_S1x64 : S64.ShapeCasts S1x64
  broadcasts_S1x64_S128x64 : S1x64.Broadcasts S128x64
  inb_S4096x448_S4096x64_0_64 : ∀ a, (![0, 64] : Fin 2 → Nat) a + S4096x64.size a ≤ S4096x448.size a
  inb_S7x64_S1x64_1_0 : ∀ a, (![1, 0] : Fin 2 → Nat) a + S1x64.size a ≤ S7x64.size a
  inb_S4096x448_S4096x64_0_128 : ∀ a, (![0, 128] : Fin 2 → Nat) a + S4096x64.size a ≤ S4096x448.size a
  inb_S7x64_S1x64_2_0 : ∀ a, (![2, 0] : Fin 2 → Nat) a + S1x64.size a ≤ S7x64.size a
  inb_S4096x448_S4096x64_0_192 : ∀ a, (![0, 192] : Fin 2 → Nat) a + S4096x64.size a ≤ S4096x448.size a
  inb_S7x64_S1x64_3_0 : ∀ a, (![3, 0] : Fin 2 → Nat) a + S1x64.size a ≤ S7x64.size a
  inb_S4096x448_S4096x64_0_256 : ∀ a, (![0, 256] : Fin 2 → Nat) a + S4096x64.size a ≤ S4096x448.size a
  inb_S7x64_S1x64_4_0 : ∀ a, (![4, 0] : Fin 2 → Nat) a + S1x64.size a ≤ S7x64.size a
  inb_S4096x448_S4096x64_0_320 : ∀ a, (![0, 320] : Fin 2 → Nat) a + S4096x64.size a ≤ S4096x448.size a
  inb_S7x64_S1x64_5_0 : ∀ a, (![5, 0] : Fin 2 → Nat) a + S1x64.size a ≤ S7x64.size a
  inb_S4096x448_S4096x64_0_384 : ∀ a, (![0, 384] : Fin 2 → Nat) a + S4096x64.size a ≤ S4096x448.size a
  inb_S7x64_S1x64_6_0 : ∀ a, (![6, 0] : Fin 2 → Nat) a + S1x64.size a ≤ S7x64.size a
  h_S128x64 : 0 < S128x64.numel
  shapeCasts_S128x64_S128x64 : S128x64.ShapeCasts S128x64
  inb_S128x64_S128x64_0_0 : ∀ a, (![0, 0] : Fin 2 → Nat) a + S128x64.size a ≤ S128x64.size a
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S128x4 : S1x4.Broadcasts S128x4
  reduces_S128x4_S128 : S128x4.Reduces [1] S128
  shapeCasts_S128_S128x1 : S128.ShapeCasts S128x1
  broadcasts_S128x1_S128x4 : S128x1.Broadcasts S128x4
  inb_S128x4_S128x4_0_0 : ∀ a, (![0, 0] : Fin 2 → Nat) a + S128x4.size a ≤ S128x4.size a
  h_S128x4 : 0 < S128x4.numel
  gather_S7x64x64_S7x1_S7x64x64_12_0_n_n_0_1_16464_wf : GatherDims.WF S7x64x64 S7x1 S7x64x64 [1, 2] [0] [] [0] [] 1 ![1, 64, 64]
  gather_S7x64_S7x1_S7x64_1_0_n_n_0_1_164_wf : GatherDims.WF S7x64 S7x1 S7x64 [1] [0] [] [0] [] 1 ![1, 64]
  dot_S4096x128_S128x448_S4096x448_1_0_0_1_n_n_wf : DotDims.WF S4096x128 S128x448 S4096x448 [1] [0] [0] [1] [] []
  dot_S4096x64_S64x448_S4096x448_1_0_0_1_n_n_wf : DotDims.WF S4096x64 S64x448 S4096x448 [1] [0] [0] [1] [] []
  dot_S128x4096_S4096x64_S128x64_1_0_0_1_n_n_wf : DotDims.WF S128x4096 S4096x64 S128x64 [1] [0] [0] [1] [] []
  dot_S128x64_S64x4_S128x4_1_0_0_1_n_n_wf : DotDims.WF S128x64 S64x4 S128x4 [1] [0] [0] [1] [] []
  hrank0 : 0 < grid0.rank
  k0_off1_inb : ∀ i : grid0.Coords, ∀ (k0_h3 : k0_cond3 i = 1#1), ∀ a, (k0_off1 i) a + S128x64.size a ≤ S4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S4096x128.size a
  hwx0_7 : ∀ i : grid0.Coords, EltTy.bits .f32 = 32 ∨ (Rect.block (s := S4096x128) S4096x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x448.size a ≤ S128x448.size a
  hwx0_8 : ∀ i : grid0.Coords, EltTy.bits .f32 = 32 ∨ (Rect.block (s := S128x448) S128x448.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S7x64.size a ≤ S7x64.size a
  hwx0_9 : ∀ i : grid0.Coords, EltTy.bits .f32 = 32 ∨ (Rect.block (s := S7x64) S7x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x448.size a ≤ S64x448.size a
  hwx0_10 : ∀ i : grid0.Coords, EltTy.bits .f32 = 32 ∨ (Rect.block (s := S64x448) S64x448.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S7x64.size a ≤ S7x64.size a
  hwx0_11 : ∀ i : grid0.Coords, EltTy.bits .f32 = 32 ∨ (Rect.block (s := S7x64) S7x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x4.size a ≤ S64x4.size a
  hwx0_12 : ∀ i : grid0.Coords, EltTy.bits .f32 = 32 ∨ (Rect.block (s := S64x4) S64x4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x4.size a ≤ S1x4.size a
  hwx0_13 : ∀ i : grid0.Coords, EltTy.bits .f32 = 32 ∨ (Rect.block (s := S1x4) S1x4.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x4.size a ≤ S4096x4.size a
  hwx0_14 : ∀ i : grid0.Coords, EltTy.bits .f32 = 32 ∨ (Rect.block (s := S4096x4) S128x4.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x64.size a ≤ S4096x64.size a
  hwx0_15 : ∀ i : grid0.Coords, EltTy.bits .f32 = 32 ∨ (Rect.block (s := S4096x64) S128x64.size (cc0_transform_15 i) (hinb0_15 i)).WholeWords (EltTy.packing .f32)

variable [Facts₀]

def gather_S7x64x64_S7x1_S7x64x64_12_0_n_n_0_1_16464 : GatherDims S7x64x64 S7x1 S7x64x64 where
  offsetDims := [1, 2]
  collapsedSliceDims := [0]
  operandBatchingDims := []
  startIndicesBatchingDims := []
  startIndexMap := [0]
  indexVectorDim := 1
  sliceSizes := ![1, 64, 64]
  wf := gather_S7x64x64_S7x1_S7x64x64_12_0_n_n_0_1_16464_wf
def gather_S7x64_S7x1_S7x64_1_0_n_n_0_1_164 : GatherDims S7x64 S7x1 S7x64 where
  offsetDims := [1]
  collapsedSliceDims := [0]
  operandBatchingDims := []
  startIndicesBatchingDims := []
  startIndexMap := [0]
  indexVectorDim := 1
  sliceSizes := ![1, 64]
  wf := gather_S7x64_S7x1_S7x64_1_0_n_n_0_1_164_wf
def dot_S4096x128_S128x448_S4096x448_1_0_0_1_n_n : DotDims S4096x128 S128x448 S4096x448 where
  lhsContracting := [1]
  rhsContracting := [0]
  lhsNonContracting := [0]
  rhsNonContracting := [1]
  lhsBatch := []
  rhsBatch := []
  wf := dot_S4096x128_S128x448_S4096x448_1_0_0_1_n_n_wf
def dot_S4096x64_S64x448_S4096x448_1_0_0_1_n_n : DotDims S4096x64 S64x448 S4096x448 where
  lhsContracting := [1]
  rhsContracting := [0]
  lhsNonContracting := [0]
  rhsNonContracting := [1]
  lhsBatch := []
  rhsBatch := []
  wf := dot_S4096x64_S64x448_S4096x448_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf
def dot_S128x64_S64x4_S128x4_1_0_0_1_n_n : DotDims S128x64 S64x4 S128x4 where
  lhsContracting := [1]
  rhsContracting := [0]
  lhsNonContracting := [0]
  rhsNonContracting := [1]
  lhsBatch := []
  rhsBatch := []
  wf := dot_S128x64_S64x4_S128x4_1_0_0_1_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S4096x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S128x448.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S7x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S64x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S7x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64x4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x4.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19_0) S128x4.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v19_1) S128x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond4 i == 1#1) | 15 => fun i => !(k0_cond4 i == 1#1) | ⟨_ + 16, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S7x128x64 : Shape := ⟨3, ![7, 128, 64]⟩
abbrev S7x64 : Shape := ⟨2, ![7, 64]⟩
abbrev S7x64x64 : Shape := ⟨3, ![7, 64, 64]⟩
abbrev S64x4 : Shape := ⟨2, ![64, 4]⟩
abbrev S4 : Shape := ⟨1, ![4]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S4096x64 : Shape := ⟨2, ![4096, 64]⟩
abbrev S_ : Shape := ⟨0, ![]⟩
abbrev S1x4096x64 : Shape := ⟨3, ![1, 4096, 64]⟩
abbrev S7x4096x64 : Shape := ⟨3, ![7, 4096, 64]⟩
abbrev S1x64x64 : Shape := ⟨3, ![1, 64, 64]⟩
abbrev S64x64 : Shape := ⟨2, ![64, 64]⟩
abbrev S4096x4 : Shape := ⟨2, ![4096, 4]⟩
abbrev S1x4 : Shape := ⟨2, ![1, 4]⟩
abbrev S4096 : Shape := ⟨1, ![4096]⟩
abbrev S4096x1 : Shape := ⟨2, ![4096, 1]⟩

abbrev nBuf : Space → Nat
  | .hbm => 221
  | .vmem => 0
  | .smem => 0
  | _ => 0

abbrev hbmTy0_0 (i : Nat) : BufTy := match i % 128 with
  | 0 => ⟨S4096x128, .f32⟩
  | 1 => ⟨S4096x4096, .f32⟩
  | 2 => ⟨S4096x4096, .f32⟩
  | 3 => ⟨S4096x4096, .f32⟩
  | 4 => ⟨S4096x4096, .f32⟩
  | 5 => ⟨S4096x4096, .f32⟩
  | 6 => ⟨S4096x4096, .f32⟩
  | 7 => ⟨S4096x4096, .f32⟩
  | 8 => ⟨S7x128x64, .f32⟩
  | 9 => ⟨S7x64, .f32⟩
  | 10 => ⟨S7x64x64, .f32⟩
  | 11 => ⟨S7x64, .f32⟩
  | 12 => ⟨S64x4, .f32⟩
  | 13 => ⟨S4, .f32⟩
  | 14 => ⟨S1x128x64, .f32⟩
  | 15 => ⟨S128x64, .f32⟩
  | 16 => ⟨S1x64, .f32⟩
  | 17 => ⟨S64, .f32⟩
  | 18 => ⟨S4096x64, .f32⟩
  | 19 => ⟨S4096x64, .f32⟩
  | 20 => ⟨S1x64, .f32⟩
  | 21 => ⟨S4096x64, .f32⟩
  | 22 => ⟨S4096x64, .f32⟩
  | 23 => ⟨S_, .f32⟩
  | 24 => ⟨S4096x64, .f32⟩
  | 25 => ⟨S4096x64, .f32⟩
  | 26 => ⟨S1x128x64, .f32⟩
  | 27 => ⟨S128x64, .f32⟩
  | 28 => ⟨S1x64, .f32⟩
  | 29 => ⟨S64, .f32⟩
  | 30 => ⟨S4096x64, .f32⟩
  | 31 => ⟨S4096x64, .f32⟩
  | 32 => ⟨S1x64, .f32⟩
  | 33 => ⟨S4096x64, .f32⟩
  | 34 => ⟨S4096x64, .f32⟩
  | 35 => ⟨S_, .f32⟩
  | 36 => ⟨S4096x64, .f32⟩
  | 37 => ⟨S4096x64, .f32⟩
  | 38 => ⟨S1x128x64, .f32⟩
  | 39 => ⟨S128x64, .f32⟩
  | 40 => ⟨S1x64, .f32⟩
  | 41 => ⟨S64, .f32⟩
  | 42 => ⟨S4096x64, .f32⟩
  | 43 => ⟨S4096x64, .f32⟩
  | 44 => ⟨S1x64, .f32⟩
  | 45 => ⟨S4096x64, .f32⟩
  | 46 => ⟨S4096x64, .f32⟩
  | 47 => ⟨S_, .f32⟩
  | 48 => ⟨S4096x64, .f32⟩
  | 49 => ⟨S4096x64, .f32⟩
  | 50 => ⟨S1x128x64, .f32⟩
  | 51 => ⟨S128x64, .f32⟩
  | 52 => ⟨S1x64, .f32⟩
  | 53 => ⟨S64, .f32⟩
  | 54 => ⟨S4096x64, .f32⟩
  | 55 => ⟨S4096x64, .f32⟩
  | 56 => ⟨S1x64, .f32⟩
  | 57 => ⟨S4096x64, .f32⟩
  | 58 => ⟨S4096x64, .f32⟩
  | 59 => ⟨S_, .f32⟩
  | 60 => ⟨S4096x64, .f32⟩
  | 61 => ⟨S4096x64, .f32⟩
  | 62 => ⟨S1x128x64, .f32⟩
  | 63 => ⟨S128x64, .f32⟩
  | 64 => ⟨S1x64, .f32⟩
  | 65 => ⟨S64, .f32⟩
  | 66 => ⟨S4096x64, .f32⟩
  | 67 => ⟨S4096x64, .f32⟩
  | 68 => ⟨S1x64, .f32⟩
  | 69 => ⟨S4096x64, .f32⟩
  | 70 => ⟨S4096x64, .f32⟩
  | 71 => ⟨S_, .f32⟩
  | 72 => ⟨S4096x64, .f32⟩
  | 73 => ⟨S4096x64, .f32⟩
  | 74 => ⟨S1x128x64, .f32⟩
  | 75 => ⟨S128x64, .f32⟩
  | 76 => ⟨S1x64, .f32⟩
  | 77 => ⟨S64, .f32⟩
  | 78 => ⟨S4096x64, .f32⟩
  | 79 => ⟨S4096x64, .f32⟩
  | 80 => ⟨S1x64, .f32⟩
  | 81 => ⟨S4096x64, .f32⟩
  | 82 => ⟨S4096x64, .f32⟩
  | 83 => ⟨S_, .f32⟩
  | 84 => ⟨S4096x64, .f32⟩
  | 85 => ⟨S4096x64, .f32⟩
  | 86 => ⟨S1x128x64, .f32⟩
  | 87 => ⟨S128x64, .f32⟩
  | 88 => ⟨S1x64, .f32⟩
  | 89 => ⟨S64, .f32⟩
  | 90 => ⟨S4096x64, .f32⟩
  | 91 => ⟨S4096x64, .f32⟩
  | 92 => ⟨S1x64, .f32⟩
  | 93 => ⟨S4096x64, .f32⟩
  | 94 => ⟨S4096x64, .f32⟩
  | 95 => ⟨S_, .f32⟩
  | 96 => ⟨S4096x64, .f32⟩
  | 97 => ⟨S4096x64, .f32⟩
  | 98 => ⟨S1x4096x64, .f32⟩
  | 99 => ⟨S1x4096x64, .f32⟩
  | 100 => ⟨S1x4096x64, .f32⟩
  | 101 => ⟨S1x4096x64, .f32⟩
  | 102 => ⟨S1x4096x64, .f32⟩
  | 103 => ⟨S1x4096x64, .f32⟩
  | 104 => ⟨S1x4096x64, .f32⟩
  | 105 => ⟨S7x4096x64, .f32⟩
  | 106 => ⟨S_, .f32⟩
  | 107 => ⟨S4096x64, .f32⟩
  | 108 => ⟨S1x64x64, .f32⟩
  | 109 => ⟨S64x64, .f32⟩
  | 110 => ⟨S1x64, .f32⟩
  | 111 => ⟨S64, .f32⟩
  | 112 => ⟨S4096x64, .f32⟩
  | 113 => ⟨S4096x64, .f32⟩
  | 114 => ⟨S1x64, .f32⟩
  | 115 => ⟨S4096x64, .f32⟩
  | 116 => ⟨S4096x64, .f32⟩
  | 117 => ⟨S_, .f32⟩
  | 118 => ⟨S4096x64, .f32⟩
  | 119 => ⟨S4096x64, .f32⟩
  | 120 => ⟨S1x64x64, .f32⟩
  | 121 => ⟨S64x64, .f32⟩
  | 122 => ⟨S1x64, .f32⟩
  | 123 => ⟨S64, .f32⟩
  | 124 => ⟨S4096x64, .f32⟩
  | 125 => ⟨S4096x64, .f32⟩
  | 126 => ⟨S1x64, .f32⟩
  | 127 => ⟨S4096x64, .f32⟩
  | _ => ⟨S4096x128, .f32⟩

abbrev hbmTy0_1 (i : Nat) : BufTy := match i % 128 with
  | 0 => ⟨S4096x64, .f32⟩
  | 1 => ⟨S_, .f32⟩
  | 2 => ⟨S4096x64, .f32⟩
  | 3 => ⟨S4096x64, .f32⟩
  | 4 => ⟨S1x64x64, .f32⟩
  | 5 => ⟨S64x64, .f32⟩
  | 6 => ⟨S1x64, .f32⟩
  | 7 => ⟨S64, .f32⟩
  | 8 => ⟨S4096x64, .f32⟩
  | 9 => ⟨S4096x64, .f32⟩
  | 10 => ⟨S1x64, .f32⟩
  | 11 => ⟨S4096x64, .f32⟩
  | 12 => ⟨S4096x64, .f32⟩
  | 13 => ⟨S_, .f32⟩
  | 14 => ⟨S4096x64, .f32⟩
  | 15 => ⟨S4096x64, .f32⟩
  | 16 => ⟨S1x64x64, .f32⟩
  | 17 => ⟨S64x64, .f32⟩
  | 18 => ⟨S1x64, .f32⟩
  | 19 => ⟨S64, .f32⟩
  | 20 => ⟨S4096x64, .f32⟩
  | 21 => ⟨S4096x64, .f32⟩
  | 22 => ⟨S1x64, .f32⟩
  | 23 => ⟨S4096x64, .f32⟩
  | 24 => ⟨S4096x64, .f32⟩
  | 25 => ⟨S_, .f32⟩
  | 26 => ⟨S4096x64, .f32⟩
  | 27 => ⟨S4096x64, .f32⟩
  | 28 => ⟨S1x64x64, .f32⟩
  | 29 => ⟨S64x64, .f32⟩
  | 30 => ⟨S1x64, .f32⟩
  | 31 => ⟨S64, .f32⟩
  | 32 => ⟨S4096x64, .f32⟩
  | 33 => ⟨S4096x64, .f32⟩
  | 34 => ⟨S1x64, .f32⟩
  | 35 => ⟨S4096x64, .f32⟩
  | 36 => ⟨S4096x64, .f32⟩
  | 37 => ⟨S_, .f32⟩
  | 38 => ⟨S4096x64, .f32⟩
  | 39 => ⟨S4096x64, .f32⟩
  | 40 => ⟨S1x64x64, .f32⟩
  | 41 => ⟨S64x64, .f32⟩
  | 42 => ⟨S1x64, .f32⟩
  | 43 => ⟨S64, .f32⟩
  | 44 => ⟨S4096x64, .f32⟩
  | 45 => ⟨S4096x64, .f32⟩
  | 46 => ⟨S1x64, .f32⟩
  | 47 => ⟨S4096x64, .f32⟩
  | 48 => ⟨S4096x64, .f32⟩
  | 49 => ⟨S_, .f32⟩
  | 50 => ⟨S4096x64, .f32⟩
  | 51 => ⟨S4096x64, .f32⟩
  | 52 => ⟨S1x64x64, .f32⟩
  | 53 => ⟨S64x64, .f32⟩
  | 54 => ⟨S1x64, .f32⟩
  | 55 => ⟨S64, .f32⟩
  | 56 => ⟨S4096x64, .f32⟩
  | 57 => ⟨S4096x64, .f32⟩
  | 58 => ⟨S1x64, .f32⟩
  | 59 => ⟨S4096x64, .f32⟩
  | 60 => ⟨S4096x64, .f32⟩
  | 61 => ⟨S_, .f32⟩
  | 62 => ⟨S4096x64, .f32⟩
  | 63 => ⟨S4096x64, .f32⟩
  | 64 => ⟨S1x4096x64, .f32⟩
  | 65 => ⟨S1x4096x64, .f32⟩
  | 66 => ⟨S1x4096x64, .f32⟩
  | 67 => ⟨S1x4096x64, .f32⟩
  | 68 => ⟨S1x4096x64, .f32⟩
  | 69 => ⟨S1x4096x64, .f32⟩
  | 70 => ⟨S1x4096x64, .f32⟩
  | 71 => ⟨S7x4096x64, .f32⟩
  | 72 => ⟨S_, .f32⟩
  | 73 => ⟨S4096x64, .f32⟩
  | 74 => ⟨S4096x4, .f32⟩
  | 75 => ⟨S1x4, .f32⟩
  | 76 => ⟨S4096x4, .f32⟩
  | 77 => ⟨S4096x4, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1, .f32⟩
  | 84 => ⟨S4096x4, .f32⟩
  | 85 => ⟨S4096x4, .f32⟩
  | 86 => ⟨S4096x4, .f32⟩
  | 87 => ⟨S_, .f32⟩
  | 88 => ⟨S4096, .f32⟩
  | 89 => ⟨S4096x1, .f32⟩
  | 90 => ⟨S4096x1, .f32⟩
  | 91 => ⟨S4096x4, .f32⟩
  | 92 => ⟨S4096x4, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_cst : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_cst : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call2_cst : Ref sig .tc := ⟨.hbm, 47, rfl⟩
abbrev main_call2_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call3_cst : Ref sig .tc := ⟨.hbm, 59, rfl⟩
abbrev main_call3_v0 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call4_cst : Ref sig .tc := ⟨.hbm, 71, rfl⟩
abbrev main_call4_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call5_cst : Ref sig .tc := ⟨.hbm, 83, rfl⟩
abbrev main_call5_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call6_cst : Ref sig .tc := ⟨.hbm, 95, rfl⟩
abbrev main_call6_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_call7_cst : Ref sig .tc := ⟨.hbm, 117, rfl⟩
abbrev main_call7_v0 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call8_cst : Ref sig .tc := ⟨.hbm, 129, rfl⟩
abbrev main_call8_v0 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_call9_cst : Ref sig .tc := ⟨.hbm, 141, rfl⟩
abbrev main_call9_v0 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_call10_cst : Ref sig .tc := ⟨.hbm, 153, rfl⟩
abbrev main_call10_v0 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_call11_cst : Ref sig .tc := ⟨.hbm, 165, rfl⟩
abbrev main_call11_v0 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_call12_cst : Ref sig .tc := ⟨.hbm, 177, rfl⟩
abbrev main_call12_v0 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_call13_cst : Ref sig .tc := ⟨.hbm, 189, rfl⟩
abbrev main_call13_v0 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_0 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_call14_cst : Ref sig .tc := ⟨.hbm, 206, rfl⟩
abbrev main_call14_v0 : Ref sig .tc := ⟨.hbm, 207, rfl⟩
abbrev main_call14_cst_0 : Ref sig .tc := ⟨.hbm, 208, rfl⟩
abbrev main_call14_v1 : Ref sig .tc := ⟨.hbm, 209, rfl⟩
abbrev main_call14_v2 : Ref sig .tc := ⟨.hbm, 210, rfl⟩
abbrev main_call14_v3 : Ref sig .tc := ⟨.hbm, 211, rfl⟩
abbrev main_call14_v4 : Ref sig .tc := ⟨.hbm, 212, rfl⟩
abbrev main_call14_v5 : Ref sig .tc := ⟨.hbm, 213, rfl⟩
abbrev main_call14_v6 : Ref sig .tc := ⟨.hbm, 214, rfl⟩
abbrev main_call14_cst_1 : Ref sig .tc := ⟨.hbm, 215, rfl⟩
abbrev main_call14_v7 : Ref sig .tc := ⟨.hbm, 216, rfl⟩
abbrev main_call14_v8 : Ref sig .tc := ⟨.hbm, 217, rfl⟩
abbrev main_call14_v9 : Ref sig .tc := ⟨.hbm, 218, rfl⟩
abbrev main_call14_v10 : Ref sig .tc := ⟨.hbm, 219, rfl⟩
abbrev main_v162 : Ref sig .tc := ⟨.hbm, 220, rfl⟩

abbrev nD : Nat := 1
abbrev τ : Topo := Topo.v7x

variable {F : FTy → Type} [FloatOps F]

class Facts₀ : Prop where
  slices_S7x128x64_S1x128x64_0_0_0 : S7x128x64.Slices ![0, 0, 0] S1x128x64
  shapeCasts_S1x128x64_S128x64 : S1x128x64.ShapeCasts S128x64
  slices_S7x64_S1x64_0_0 : S7x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  slices_S7x128x64_S1x128x64_1_0_0 : S7x128x64.Slices ![1, 0, 0] S1x128x64
  slices_S7x64_S1x64_1_0 : S7x64.Slices ![1, 0] S1x64
  slices_S7x128x64_S1x128x64_2_0_0 : S7x128x64.Slices ![2, 0, 0] S1x128x64
  slices_S7x64_S1x64_2_0 : S7x64.Slices ![2, 0] S1x64
  slices_S7x128x64_S1x128x64_3_0_0 : S7x128x64.Slices ![3, 0, 0] S1x128x64
  slices_S7x64_S1x64_3_0 : S7x64.Slices ![3, 0] S1x64
  slices_S7x128x64_S1x128x64_4_0_0 : S7x128x64.Slices ![4, 0, 0] S1x128x64
  slices_S7x64_S1x64_4_0 : S7x64.Slices ![4, 0] S1x64
  slices_S7x128x64_S1x128x64_5_0_0 : S7x128x64.Slices ![5, 0, 0] S1x128x64
  slices_S7x64_S1x64_5_0 : S7x64.Slices ![5, 0] S1x64
  slices_S7x128x64_S1x128x64_6_0_0 : S7x128x64.Slices ![6, 0, 0] S1x128x64
  slices_S7x64_S1x64_6_0 : S7x64.Slices ![6, 0] S1x64
  bcast_S4096x64_S1x4096x64_1_2 : S4096x64.BroadcastsInDim S1x4096x64 (![1, 2] : Fin 2 → Fin S1x4096x64.rank)
  concatenates_S1x4096x64_S1x4096x64_S1x4096x64_S1x4096x64_S1x4096x64_S1x4096x64_S1x4096x64_S7x4096x64_d0 : Shape.Concatenates [S1x4096x64, S1x4096x64, S1x4096x64, S1x4096x64, S1x4096x64, S1x4096x64, S1x4096x64] S7x4096x64 0
  reducesTo_S7x4096x64_S4096x64_d0 : S7x4096x64.ReducesTo [0] S4096x64
  h_S_ : 0 < S_.numel
  slices_S7x64x64_S1x64x64_0_0_0 : S7x64x64.Slices ![0, 0, 0] S1x64x64
  shapeCasts_S1x64x64_S64x64 : S1x64x64.ShapeCasts S64x64
  slices_S7x64x64_S1x64x64_1_0_0 : S7x64x64.Slices ![1, 0, 0] S1x64x64
  slices_S7x64x64_S1x64x64_2_0_0 : S7x64x64.Slices ![2, 0, 0] S1x64x64
  slices_S7x64x64_S1x64x64_3_0_0 : S7x64x64.Slices ![3, 0, 0] S1x64x64
  slices_S7x64x64_S1x64x64_5_0_0 : S7x64x64.Slices ![5, 0, 0] S1x64x64
  slices_S7x64x64_S1x64x64_6_0_0 : S7x64x64.Slices ![6, 0, 0] S1x64x64
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  reducesTo_S4096x4_S4096_d1 : S4096x4.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []
  dot_S4096x64_S64x4_S4096x4_1_0_0_1_n_n_wf : DotDims.WF S4096x64 S64x4 S4096x4 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x4_S4096x4_1_0_0_1_n_n : DotDims S4096x64 S64x4 S4096x4 where
  lhsContracting := [1]
  rhsContracting := [0]
  lhsNonContracting := [0]
  rhsNonContracting := [1]
  lhsBatch := []
  rhsBatch := []
  wf := dot_S4096x64_S64x4_S4096x4_1_0_0_1_n_n_wf

class Facts : Prop extends Facts₀ where

variable [Facts]
-- ==== Proof.KIRuns.lean ====
/-
# The kernel body's branches over the grid, and where its outputs rest

The grid has 2 × 32 points: the first coordinate is the layer, the second the block of 128 rows. The body has four
branches: the first point of layer 0 (fill the scratch with features · weights), the first point of layer 1 (fill it
with the first layer's output · weights), every point of layer 0 (store the block's 128 rows of the first layer's output
into the second scratch), every point of layer 1 (store the block of the second layer's output and its read-out into the
two output windows). Here each condition is decided over the 64 points in closed form, and the output windows are shown
to rest (nothing stored, nothing written back) throughout layer 0 and to be live and written back throughout layer 1.
-/
import proofs.«132769_g22127671509052_cont_8to1_1196_24_alg».proof.Proof.Gen.KernelIdeal.Frame
import proofs.«132769_g22127671509052_cont_8to1_1196_24_alg».proof.Proof.Gen.KernelIdeal.Skeleton
import proofs.«132769_g22127671509052_cont_8to1_1196_24_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (layer 0 and row block 0), as the body computes it from the grid coordinates. -/
abbrev condA (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition (layer 1 and row block 0). -/
abbrev condC (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- The third branch's condition (layer 0). -/
abbrev cond3 (i : grid0.Coords) : Prop := k0_cond3 i = 1#1
/-- The fourth branch's condition (layer 1). -/
abbrev cond4 (i : grid0.Coords) : Prop := k0_cond4 i = 1#1

theorem hcondA : ∀ t : Fin cfg0.N, condA (grid0.coords t) ↔ t.val = 0 :=
  (by decide +kernel : ∀ t : Fin grid0.N, condA (grid0.coords t) ↔ t.val = 0)
theorem hcondC : ∀ t : Fin cfg0.N, condC (grid0.coords t) ↔ t.val = 32 :=
  (by decide +kernel : ∀ t : Fin grid0.N, condC (grid0.coords t) ↔ t.val = 32)
theorem hcond3 : ∀ t : Fin cfg0.N, cond3 (grid0.coords t) ↔ t.val < 32 :=
  (by decide +kernel : ∀ t : Fin grid0.N, cond3 (grid0.coords t) ↔ t.val < 32)
theorem hcond4 : ∀ t : Fin cfg0.N, cond4 (grid0.coords t) ↔ 32 ≤ t.val :=
  (by decide +kernel : ∀ t : Fin grid0.N, cond4 (grid0.coords t) ↔ 32 ≤ t.val)

/-- The layer of a point, as the 32-bit word the body compares: 0 below point 32, 1 from it on. -/
theorem layer_lo : ∀ t : Fin cfg0.N, t.val < 32 → (grid0.coords t 0).val = 0 :=
  (by decide +kernel : ∀ t : Fin grid0.N, t.val < 32 → (grid0.coords t 0).val = 0)
theorem layer_hi : ∀ t : Fin cfg0.N, 32 ≤ t.val → (grid0.coords t 0).val = 1 :=
  (by decide +kernel : ∀ t : Fin grid0.N, 32 ≤ t.val → (grid0.coords t 0).val = 1)
/-- The row block of a point. -/
theorem row_eq : ∀ t : Fin cfg0.N, (grid0.coords t 1).val = t.val % 32 :=
  (by decide +kernel : ∀ t : Fin grid0.N, (grid0.coords t 1).val = t.val % 32)

/-- Inputs are never idle. -/
theorem live_in : ∀ (w : Fin 16), w.val < 14 → ∀ t : Fin cfg0.N, cfg0.idle w (grid0.coords t) = false := by decide +kernel
/-- Through layer 0 the two output windows rest: nothing is stored into them and nothing is written back. -/
theorem idle14 : ∀ t : Fin cfg0.N, t.val < 32 → cfg0.idle 14 (grid0.coords t) = true := by decide +kernel
theorem idle15 : ∀ t : Fin cfg0.N, t.val < 32 → cfg0.idle 15 (grid0.coords t) = true := by decide +kernel
theorem noFlush14 : ∀ t : Fin cfg0.N, t.val < 32 → (cfg0.win 14).flush t = false := by decide +kernel
theorem noFlush15 : ∀ t : Fin cfg0.N, t.val < 32 → (cfg0.win 15).flush t = false := by decide +kernel
/-- Through layer 1 they are live, and every point writes its block back. -/
theorem live14 : ∀ t : Fin cfg0.N, 32 ≤ t.val → cfg0.idle 14 (grid0.coords t) = false := by decide +kernel
theorem live15 : ∀ t : Fin cfg0.N, 32 ≤ t.val → cfg0.idle 15 (grid0.coords t) = false := by decide +kernel
theorem flush14 : ∀ t : Fin cfg0.N, (cfg0.win 14).flush t = true ↔ 32 ≤ t.val := by decide +kernel
theorem flush15 : ∀ t : Fin cfg0.N, (cfg0.win 15).flush t = true ↔ 32 ≤ t.val := by decide +kernel

/-- The two scratch operands as memrefs. -/
abbrev scS : Memref sig .tc .vmem S4096x448 .f32 := Memref.whole cc0_scratch0
abbrev scH : Memref sig .tc .vmem S4096x64 .f32 := Memref.whole cc0_scratch1

/-- The region's invariant with the two scratch buffers as memrefs owned at some contents. -/
theorem PhiA_eq (c : Dev nD) :
    (Pipeline.ΦA spec0 c : sProp 𝕄)
      = iprop(iprop((∃ d, owns (c : Thread nD τ) scS fullShare d) ∗ (∃ d, owns (c : Thread nD τ) scH fullShare d)) ∗ (∃ r, prngReg c r)) := by
  unfold Pipeline.ΦA; rw [scopedRest0_eq]; simp only [scS, scH, owns_whole]; try rfl

end Cert.KernelIdeal.Hand

end
-- ==== Proof.KIRunA.lean ====
/-
# The kernel body run whole, at the first point of the first layer
At grid point (0, 0) the body fills the first scratch with features · weights, reads it back in seven column slices,
accumulates the block's 128 rows of the first layer's output and stores them into rows 0..127 of the second scratch.
The output windows are left as they were handed over.
-/
import proofs.«132769_g22127671509052_cont_8to1_1196_24_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers at the first point of layer 0, with the proof that the body runs to the continuation holding them: the inputs and the resting output windows as they were, the first scratch with its pieces written, the second with its pieces written over what it held. -/
noncomputable def runA (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    Σ' (LS0 : List (View.Piece (Elt F) S4096x448 .f32)), { LS1 : List (View.Piece (Elt F) S4096x64 .f32) //
      ∀ (xi14 : Vec F S128x4 .f32) (xi15 : Vec F S128x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare xi14
            ∗ owns (c : Thread nD τ) arg17 fullShare xi15
            ∗ (∃ d, owns (c : Thread nD τ) arg18 fullShare d)
            ∗ owns (c : Thread nD τ) arg19 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ owns (c : Thread nD τ) arg16 fullShare xi14
                ∗ owns (c : Thread nD τ) arg17 fullShare xi15
                ∗ (∃ f, arg18.view.loc (c : Thread nD τ) ↦[arg18.view.set]{fullShare} arg18.view.writes (Elt F) f LS0)
                ∗ (arg19.view.loc (c : Thread nD τ) ↦[arg19.view.set]{fullShare} arg19.view.writes (Elt F) (harg19.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg16.eq_unread hf14; obtain rfl := harg17.eq_unread hf15; obtain rfl := harg19.eq_unread hfs1
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]
    · iexists _; iexact HS0
    iexact HS1

end Cert.KernelIdeal.Hand

end
-- ==== Proof.KIVals.lean ====
/-
# What the kernel's buffers hold, point by point, as explicit functions of the argument arrays

The first scratch holds `features · weights` through layer 0 and `(first layer's output) · weights` through layer 1; the body
reads it in seven slices of 64 columns, one per relation. The second scratch is filled, 128 rows per point, with the first
layer's output. At a point of layer 1 the two output windows receive the block's rows of the second layer's output and of
the log-softmax of its read-out. All of these are written here through the body's own pure arithmetic (the skeleton's
payload functions), over the windows' blocks as the region finds them.
-/
import proofs.«132769_g22127671509052_cont_8to1_1196_24_alg».proof.Proof.KIRuns
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The seven 64-column slices of the first scratch's contents, one per relation. -/
def colS (s : Vec F S4096x448 .f32) : Fin 7 → Vec F S4096x64 .f32 :=
  ![View.ld s (Rect.unit (s := S4096x448) ![0, 0] S4096x64.size inb_S4096x448_S4096x64_0_0),
    View.ld s (Rect.unit (s := S4096x448) ![0, 64] S4096x64.size inb_S4096x448_S4096x64_0_64),
    View.ld s (Rect.unit (s := S4096x448) ![0, 128] S4096x64.size inb_S4096x448_S4096x64_0_128),
    View.ld s (Rect.unit (s := S4096x448) ![0, 192] S4096x64.size inb_S4096x448_S4096x64_0_192),
    View.ld s (Rect.unit (s := S4096x448) ![0, 256] S4096x64.size inb_S4096x448_S4096x64_0_256),
    View.ld s (Rect.unit (s := S4096x448) ![0, 320] S4096x64.size inb_S4096x448_S4096x64_0_320),
    View.ld s (Rect.unit (s := S4096x448) ![0, 384] S4096x64.size inb_S4096x448_S4096x64_0_384)]

/-- The seven rows of a [7, 64] bias array, one per relation, each as a [1, 64] vector. -/
def rowB (b : Vec F S7x64 .f32) : Fin 7 → Vec F S1x64 .f32 :=
  ![View.ld b (Rect.unit (s := S7x64) ![0, 0] S1x64.size inb_S7x64_S1x64_0_0),
    View.ld b (Rect.unit (s := S7x64) ![1, 0] S1x64.size inb_S7x64_S1x64_1_0),
    View.ld b (Rect.unit (s := S7x64) ![2, 0] S1x64.size inb_S7x64_S1x64_2_0),
    View.ld b (Rect.unit (s := S7x64) ![3, 0] S1x64.size inb_S7x64_S1x64_3_0),
    View.ld b (Rect.unit (s := S7x64) ![4, 0] S1x64.size inb_S7x64_S1x64_4_0),
    View.ld b (Rect.unit (s := S7x64) ![5, 0] S1x64.size inb_S7x64_S1x64_5_0),
    View.ld b (Rect.unit (s := S7x64) ![6, 0] S1x64.size inb_S7x64_S1x64_6_0)]

/-- The running sum after the sixth relation: what the seventh is added to. -/
def accSix (i : grid0.Coords) (A : Fin 7 → Vec F S128x4096 .f32) (s : Fin 7 → Vec F S4096x64 .f32)
    (bA bB : Fin 7 → Vec F S1x64 .f32) : FVec F S128x64 .f32 :=
  k0_pay11 (BitVec.ofNat 32 (i 0).val)
    (k0_pay8 (BitVec.ofNat 32 (i 0).val) (k0_pay6 i (A 0) (s 0) (bA 0) (bB 0)) (k0_pay7 (A 1) (s 1))
      (Scalar.cmpi .eq (BitVec.ofNat 32 (i 0).val) 0#32) (bA 1) (bB 1) (A 2) (s 2) (bA 2) (bB 2))
    (k0_pay9 (A 3) (s 3)) (k0_pay10 (BitVec.ofNat 32 (i 0).val) (bA 3) (bB 3))
    (A 4) (s 4) (bA 4) (bB 4) (A 5) (s 5) (bA 5) (bB 5)

/-- One block of a layer's output: over the seven relations, (adjacency block · scratch slice + bias row) rectified, summed
    in relation order from zero. The bias row is the first layer's or the second's by the point's layer. -/
def accG (i : grid0.Coords) (A : Fin 7 → Vec F S128x4096 .f32) (s : Fin 7 → Vec F S4096x64 .f32)
    (bA bB : Fin 7 → Vec F S1x64 .f32) : FVec F S128x64 .f32 :=
  k0_pay1 (BitVec.ofNat 32 (i 0).val) (accSix i A s bA bB) (A 6) (s 6) (bA 6) (bB 6)

/-- The block's read-out (· W_ro + b_ro) followed by the max-subtracting log-softmax of its four classes. -/
def logpG (i : grid0.Coords) (A : Fin 7 → Vec F S128x4096 .f32) (s : Fin 7 → Vec F S4096x64 .f32)
    (bA bB : Fin 7 → Vec F S1x64 .f32) (wro : Vec F S64x4 .f32) (bro : Vec F S1x4 .f32) : FVec F S128x4 .f32 :=
  k0_pay3 (BitVec.ofNat 32 (i 0).val) (accSix i A s bA bB) (A 6) (s 6) (bA 6) (bB 6) wro bro

variable (c : Dev nD)

/-- The first point of each layer. -/
abbrev tFirst : Fin cfg0.N := ⟨0, by decide⟩
abbrev tSecond : Fin cfg0.N := ⟨32, by decide⟩

/-- The seven adjacency blocks at a point. -/
def blkA (t : Fin cfg0.N) : Fin 7 → Vec F S128x4096 .f32 :=
  ![iblk m c 0 t, iblk m c 1 t, iblk m c 2 t, iblk m c 3 t, iblk m c 4 t, iblk m c 5 t, iblk m c 6 t]

/-- A layer's block at point `t`, over contents `s` of the first scratch. -/
def accAt (t : Fin cfg0.N) (s : Vec F S4096x448 .f32) : FVec F S128x64 .f32 :=
  accG (grid0.coords t) (blkA m c t) (colS s) (rowB (iblk m c 9 t)) (rowB (iblk m c 11 t))

/-- The first scratch through layer 0: features · (first-layer weights side by side). -/
def S1val : Vec F S4096x448 .f32 := k0_pay4 (iblk m c 7 tFirst) (iblk m c 8 tFirst)

/-- The point of layer 0 that fills row `n` of the second scratch, and the row inside its block. -/
abbrev ptOfRow (n : Fin 4096) : Fin cfg0.N := ⟨n.val / 128, by have := n.isLt; show n.val / 128 < 64; omega⟩
abbrev inBlk (n : Fin 4096) : Fin 128 := ⟨n.val % 128, Nat.mod_lt _ (by decide)⟩

/-- The first layer's output, whole: row `n` comes from the point `n / 128` of layer 0. -/
def H1val : Vec F S4096x64 .f32 := fun y =>
  accAt m c (ptOfRow (y 0)) (S1val m c) (Idealize.ShloMosaic.ValueIdx.ix2 (inBlk (y 0)) (y 1))

/-- The first scratch through layer 1: (first layer's output) · (second-layer weights side by side). -/
def S2val : Vec F S4096x448 .f32 := k0_pay5 (H1val m c) (iblk m c 10 tSecond)

/-- What a point of layer 1 stores into the second output window: its block of the second layer's output. -/
def O15 (t : Fin cfg0.N) : FVec F S128x64 .f32 := accAt m c t (S2val m c)

/-- What a point of layer 1 stores into the first output window: the block's log-softmax. -/
def O14 (t : Fin cfg0.N) : FVec F S128x4 .f32 :=
  logpG (grid0.coords t) (blkA m c t) (colS (S2val m c)) (rowB (iblk m c 9 t)) (rowB (iblk m c 11 t)) (iblk m c 12 t) (iblk m c 13 t)

/-- The point of layer 1 that writes row `n` of the results. -/
abbrev ptOfRow2 (n : Fin 4096) : Fin cfg0.N := ⟨32 + n.val / 128, by have := n.isLt; show 32 + n.val / 128 < 64; omega⟩

/-- The second result array, whole: the second layer's output. -/
def KH2 : Vec F S4096x64 .f32 := fun y => O15 m c (ptOfRow2 (y 0)) (Idealize.ShloMosaic.ValueIdx.ix2 (inBlk (y 0)) (y 1))
/-- The first result array, whole: the log-softmax of the read-out. -/
def KLogp : Vec F S4096x4 .f32 := fun y => O14 m c (ptOfRow2 (y 0)) (Idealize.ShloMosaic.ValueIdx.ix2 (inBlk (y 0)) (y 1))

end Cert.KernelIdeal.Hand

end
-- ==== Proof.KIValA.lean ====
/-
# What the body leaves, at the first point of the first layer: the found pieces read back
The first scratch receives ONE store of its whole extent, features · weights; the seven slices read back after it are
slices of that product. The second scratch receives one store of 128 rows: the block of the first layer's output.
-/
import proofs.«132769_g22127671509052_cont_8to1_1196_24_alg».proof.Proof.KIRunA
import proofs.«132769_g22127671509052_cont_8to1_1196_24_alg».proof.Proof.KIVals
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem scover_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S4096x448.Idx) :
    ∃ pc ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1, y ∈ pc.1.set :=
  View.cover_of_tiledL (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1 S4096x448.size (by sl_kernel_rfl) y

/-- The first scratch after the first point of layer 0: features · weights. -/
theorem sS_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    scS.view.read (Elt F) (scS.view.writes (Elt F) scS.view.junk (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1) = k0_pay4 x7 x8 := by
  rw [View.read_writes_eq_canon _ _ _ (scover_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runA
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]

/-- The one store into the second scratch at the first point of layer 0: the block's 128 rows of the first layer's
    output, at the rows the point names. -/
theorem pieces_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1
      = [⟨Rect.unit (s := S4096x64) (k0_off1 i) S128x64.size (k0_off1_inb i h3),
          accG i ![x0, x1, x2, x3, x4, x5, x6] (colS (k0_pay4 x7 x8)) (rowB x9) (rowB x11)⟩] := by
  unfold runA
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  unfold k0_pay2
  simp only [shapeCast_self]
  rfl

end Cert.KernelIdeal.Hand

end
-- ==== Proof.KIRunB.lean ====
/-
# The kernel body run whole, at a later point of the first layer
At grid point (0, r), r > 0, the first scratch already holds features · weights; the body reads its seven column slices,
accumulates block r's 128 rows of the first layer's output and stores them into rows 128r .. 128r+127 of the second scratch.
The output windows are left as they were handed over.
-/
import proofs.«132769_g22127671509052_cont_8to1_1196_24_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's store leaves in the second scratch at a later point of layer 0, with the proof that the body runs to the continuation holding them: everything else as it was. -/
noncomputable def runB (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (xs1 : Vec F S4096x64 .f32) :
    { LS1 : List (View.Piece (Elt F) S4096x64 .f32) //
      ∀ (xi14 : Vec F S128x4 .f32) (xi15 : Vec F S128x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare xi14
            ∗ owns (c : Thread nD τ) arg17 fullShare xi15
            ∗ owns (c : Thread nD τ) arg18 fullShare xs0
            ∗ owns (c : Thread nD τ) arg19 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ owns (c : Thread nD τ) arg16 fullShare xi14
                ∗ owns (c : Thread nD τ) arg17 fullShare xi15
                ∗ owns (c : Thread nD τ) arg18 fullShare xs0
                ∗ (arg19.view.loc (c : Thread nD τ) ↦[arg19.view.set]{fullShare} arg19.view.writes (Elt F) (harg19.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun xi14 xi15 E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg16.eq_unread hf14; obtain rfl := harg17.eq_unread hf15; obtain rfl := harg18.eq_unread hfs0; obtain rfl := harg19.eq_unread hfs1
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]
    · iexists _; isplitr; · ipureintro; exact harg18.read_unread _
      iexact HS0
    iexact HS1

end Cert.KernelIdeal.Hand

end
-- ==== Proof.KIValB.lean ====
/-
# What the body leaves, at a later point of the first layer: the found pieces read back
The second scratch receives one store of 128 rows: the block of the first layer's output, over the seven slices of
the first scratch as it was handed over.
-/
import proofs.«132769_g22127671509052_cont_8to1_1196_24_alg».proof.Proof.KIRunB
import proofs.«132769_g22127671509052_cont_8to1_1196_24_alg».proof.Proof.KIVals
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The one store into the second scratch at a later point of layer 0. -/
theorem pieces_B (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (xs1 : Vec F S4096x64 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0 xs1).1
      = [⟨Rect.unit (s := S4096x64) (k0_off1 i) S128x64.size (k0_off1_inb i h3),
          accG i ![x0, x1, x2, x3, x4, x5, x6] (colS xs0) (rowB x9) (rowB x11)⟩] := by
  unfold runB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  unfold k0_pay2
  simp only [shapeCast_self]
  rfl

end Cert.KernelIdeal.Hand

end
-- ==== Proof.KIRunC.lean ====
/-
# The kernel body run whole, at the first point of the second layer
At grid point (1, 0) the second scratch holds the whole first layer's output; the body fills the first scratch with
that output · weights, reads it back in seven column slices, accumulates block 0's 128 rows of the second layer's output,
and stores them and their read-out's log-softmax into the two output windows.
-/
import proofs.«132769_g22127671509052_cont_8to1_1196_24_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two output windows and the first scratch at the first point of layer 1, with the proof that the body runs to the continuation holding them: the inputs and the second scratch as they were. -/
noncomputable def runC (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    Σ' (L14 : List (View.Piece (Elt F) S128x4 .f32)), Σ' (L15 : List (View.Piece (Elt F) S128x64 .f32)), { LS0 : List (View.Piece (Elt F) S4096x448 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ (∃ d, owns (c : Thread nD τ) arg16 fullShare d)
            ∗ (∃ d, owns (c : Thread nD τ) arg17 fullShare d)
            ∗ (∃ d, owns (c : Thread nD τ) arg18 fullShare d)
            ∗ owns (c : Thread nD τ) arg19 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ (∃ f, arg16.view.loc (c : Thread nD τ) ↦[arg16.view.set]{fullShare} arg16.view.writes (Elt F) f L14)
                ∗ (∃ f, arg17.view.loc (c : Thread nD τ) ↦[arg17.view.set]{fullShare} arg17.view.writes (Elt F) f L15)
                ∗ (∃ f, arg18.view.loc (c : Thread nD τ) ↦[arg18.view.set]{fullShare} arg18.view.writes (Elt F) f LS0)
                ∗ owns (c : Thread nD τ) arg19 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun  E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg19.eq_unread hfs1
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexact H15
    isplitl [HS0]
    · iexists _; iexact HS0
    iexists _; isplitr; · ipureintro; exact harg19.read_unread _
    iexact HS1

end Cert.KernelIdeal.Hand

end
-- ==== Proof.KIValC.lean ====
/-
# What the body leaves, at the first point of the second layer: the found pieces read back
The first scratch receives ONE store of its whole extent, (first layer's output) · weights; the seven slices read back
after it are slices of that product. Each output window receives one store covering its block.
-/
import proofs.«132769_g22127671509052_cont_8to1_1196_24_alg».proof.Proof.KIRunC
import proofs.«132769_g22127671509052_cont_8to1_1196_24_alg».proof.Proof.KIVals
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev VO14c : View sig .tc .vmem S128x4 .f32 := (Memref.whole cc0_stg14_0 : Memref sig .tc .vmem S128x4 .f32).view
abbrev VO15c : View sig .tc .vmem S128x64 .f32 := (Memref.whole cc0_stg15_0 : Memref sig .tc .vmem S128x64 .f32).view

theorem cover14_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S128x4.Idx) :
    ∃ pc ∈ (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1, y ∈ pc.1.set :=
  View.cover_of_tiledL (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1 S128x4.size (by sl_kernel_rfl) y
theorem cover15_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S128x64.Idx) :
    ∃ pc ∈ (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1, y ∈ pc.1.set :=
  View.cover_of_tiledL (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1 S128x64.size (by sl_kernel_rfl) y
theorem scover_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S4096x448.Idx) :
    ∃ pc ∈ (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.2.1, y ∈ pc.1.set :=
  View.cover_of_tiledL (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.2.1 S4096x448.size (by sl_kernel_rfl) y

/-- The first scratch after the first point of layer 1: (first layer's output) · weights. -/
theorem sS_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    scS.view.read (Elt F) (scS.view.writes (Elt F) scS.view.junk (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.2.1) = k0_pay5 xs1 x10 := by
  rw [View.read_writes_eq_canon _ _ _ (scover_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]

/-- The second output window after the first point of layer 1. -/
theorem out15_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    VO15c.read (Elt F) (VO15c.writes (Elt F) VO15c.junk (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1)
      = accG i ![x0, x1, x2, x3, x4, x5, x6] (colS (k0_pay5 xs1 x10)) (rowB x9) (rowB x11) := by
  rw [View.read_writes_eq_canon _ _ _ (cover15_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  rfl

/-- The first output window after the first point of layer 1. -/
theorem out14_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    VO14c.read (Elt F) (VO14c.writes (Elt F) VO14c.junk (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1)
      = logpG i ![x0, x1, x2, x3, x4, x5, x6] (colS (k0_pay5 xs1 x10)) (rowB x9) (rowB x11) x12 x13 := by
  rw [View.read_writes_eq_canon _ _ _ (cover14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  rfl

end Cert.KernelIdeal.Hand

end
-- ==== Proof.KIRunD.lean ====
/-
# The kernel body run whole, at a later point of the second layer
At grid point (1, r), r > 0, the first scratch already holds the first layer's output · weights; the body reads its seven
column slices, accumulates block r's 128 rows of the second layer's output, and stores them and their read-out's log-softmax
into the two output windows.
-/
import proofs.«132769_g22127671509052_cont_8to1_1196_24_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two output windows at a later point of layer 1, with the proof that the body runs to the continuation holding them: the inputs and the first scratch as they were, the second scratch at some contents. -/
noncomputable def runD (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) :
    Σ' (L14 : List (View.Piece (Elt F) S128x4 .f32)), { L15 : List (View.Piece (Elt F) S128x64 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ (∃ d, owns (c : Thread nD τ) arg16 fullShare d)
            ∗ (∃ d, owns (c : Thread nD τ) arg17 fullShare d)
            ∗ owns (c : Thread nD τ) arg18 fullShare xs0
            ∗ (∃ d, owns (c : Thread nD τ) arg19 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ (∃ f, arg16.view.loc (c : Thread nD τ) ↦[arg16.view.set]{fullShare} arg16.view.writes (Elt F) f L14)
                ∗ (∃ f, arg17.view.loc (c : Thread nD τ) ↦[arg17.view.set]{fullShare} arg17.view.writes (Elt F) f L15)
                ∗ owns (c : Thread nD τ) arg18 fullShare xs0
                ∗ (∃ d, owns (c : Thread nD τ) arg19 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun  E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%ds1, %fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg18.eq_unread hfs0
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexact H15
    isplitl [HS0]
    · iexists _; isplitr; · ipureintro; exact harg18.read_unread _
      iexact HS0
    iexists _; iexists _; isplitr; · ipureintro; exact hfs1
    iexact HS1

end Cert.KernelIdeal.Hand

end
-- ==== Proof.KIValD.lean ====
/-
# What the body leaves, at a later point of the second layer: the found pieces read back
Each output window receives ONE store covering its whole block, so what its staging buffer holds afterwards is that store's
payload: the block of the layer's output, and its read-out's log-softmax, over the adjacency blocks, the seven slices of the
first scratch and the bias rows.
-/
import proofs.«132769_g22127671509052_cont_8to1_1196_24_alg».proof.Proof.KIRunD
import proofs.«132769_g22127671509052_cont_8to1_1196_24_alg».proof.Proof.KIVals
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One staging buffer of each output window, through which its contents are stated. -/
abbrev VO14 : View sig .tc .vmem S128x4 .f32 := (Memref.whole cc0_stg14_0 : Memref sig .tc .vmem S128x4 .f32).view
abbrev VO15 : View sig .tc .vmem S128x64 .f32 := (Memref.whole cc0_stg15_0 : Memref sig .tc .vmem S128x64 .f32).view

theorem cover14_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (y : S128x4.Idx) :
    ∃ pc ∈ (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).1, y ∈ pc.1.set :=
  View.cover_of_tiledL (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).1 S128x4.size (by sl_kernel_rfl) y
theorem cover15_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (y : S128x64.Idx) :
    ∃ pc ∈ (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).2.1, y ∈ pc.1.set :=
  View.cover_of_tiledL (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).2.1 S128x64.size (by sl_kernel_rfl) y

/-- The second output window after a later point of layer 1: the block of the layer's output. -/
theorem out15_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) :
    VO15.read (Elt F) (VO15.writes (Elt F) VO15.junk (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).2.1)
      = accG i ![x0, x1, x2, x3, x4, x5, x6] (colS xs0) (rowB x9) (rowB x11) := by
  rw [View.read_writes_eq_canon _ _ _ (cover15_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0)]
  unfold runD
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2]
  rfl

/-- The first output window after a later point of layer 1: the block's log-softmax. -/
theorem out14_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) :
    VO14.read (Elt F) (VO14.writes (Elt F) VO14.junk (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).1)
      = logpG i ![x0, x1, x2, x3, x4, x5, x6] (colS xs0) (rowB x9) (rowB x11) x12 x13 := by
  rw [View.read_writes_eq_canon _ _ _ (cover14_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0)]
  unfold runD
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2]
  rfl

end Cert.KernelIdeal.Hand

end
-- ==== Proof.KIUpd.lean ====
/-
# The second scratch after a point of layer 0 holds the first layer's output through that point's rows

At point `t` of layer 0 the body stores its block — 128 rows of the first layer's output — into the second scratch through
one rectangle of 128 × 64 entries at row offset `128 · t`. If the scratch held the first layer's output on all rows below
`128 · t` before the store, it holds it on all rows below `128 · (t + 1)` after: a row below the rectangle is not touched,
and a row inside it reads the stored block at its own place, which is how the whole first-layer output was defined.
-/
import proofs.«132769_g22127671509052_cont_8to1_1196_24_alg».proof.Proof.KIRuns
import proofs.«132769_g22127671509052_cont_8to1_1196_24_alg».proof.Proof.KIVals
import Idealize.ShloMosaic.Lib.ValueIdx
import Idealize.ShloMosaic.Lib.Writes

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-- The store's offsets at a point of layer 0: row `128 · t`, column 0. -/
theorem off1_eq : ∀ t : Fin cfg0.N, t.val < 32 → k0_off1 (grid0.coords t) = ![128 * t.val, 0] :=
  (by decide +kernel : ∀ t : Fin grid0.N, t.val < 32 → k0_off1 (grid0.coords t) = ![128 * t.val, 0])

/-- One store of layer 0 extends the rows on which the second scratch holds the first layer's output by the
    point's 128 rows. -/
theorem upd_inv (m : (ℓ : Loc nD τ sig) → Buf (Elt F) ℓ) (c : Dev nD) (t : Fin cfg0.N) (ht : t.val < 32)
    (h : Vec F S4096x64 .f32) (hprev : ∀ y : S4096x64.Idx, (y 0).val < 128 * t.val → h y = H1val m c y)
    (inb : ∀ a, k0_off1 (grid0.coords t) a + S128x64.size a ≤ S4096x64.size a) (hw : scH.IsWhole)
    (y : S4096x64.Idx) (hy : (y 0).val < 128 * (t.val + 1)) :
    scH.view.read (Elt F) (scH.view.writes (Elt F) (hw.unread h)
        [⟨Rect.unit (s := S4096x64) (k0_off1 (grid0.coords t)) S128x64.size inb, accAt m c t (S1val m c)⟩]) y
      = H1val m c y := by
  have hoff := off1_eq t ht
  have hoff0 : k0_off1 (grid0.coords t) 0 = 128 * t.val := by rw [hoff]; rfl
  have hoff1 : k0_off1 (grid0.coords t) 1 = 0 := by rw [hoff]; rfl
  by_cases hlt : (y 0).val < 128 * t.val
  · rw [View.read_writes_apply_of_forall_not_mem, Memref.IsWhole.read_unread]
    · exact hprev y hlt
    · intro p hp
      rw [List.mem_singleton] at hp
      subst hp
      show y ∉ (Rect.unit (s := S4096x64) (k0_off1 (grid0.coords t)) S128x64.size inb).set
      rw [Rect.mem_set_unit]
      intro hall
      have h0 := (hall 0).1
      rw [hoff0] at h0
      exact absurd hlt (Nat.not_lt.mpr h0)
  · have hge : 128 * t.val ≤ (y 0).val := Nat.le_of_not_lt hlt
    have hy1 : (y 1).val < 64 := (y 1).isLt
    obtain ⟨x, hyx, hx0, hx1⟩ : ∃ x : S128x64.Idx,
        y = (Rect.unit (s := S4096x64) (k0_off1 (grid0.coords t)) S128x64.size inb).emb x
          ∧ (x 0).val = (y 0).val - 128 * t.val ∧ (x 1).val = (y 1).val := by
      refine ⟨ix2 (⟨(y 0).val - 128 * t.val, by omega⟩ : Fin 128) (⟨(y 1).val, hy1⟩ : Fin 64), ?_, rfl, rfl⟩
      funext a
      apply Fin.ext
      rw [Rect.emb_apply, Rect.off_unit, Rect.stride_unit]
      match a with
      | ⟨0, _⟩ =>
        show (y 0).val = k0_off1 (grid0.coords t) 0 + 1 * ((y 0).val - 128 * t.val)
        rw [hoff0]
        omega
      | ⟨1, _⟩ =>
        show (y 1).val = k0_off1 (grid0.coords t) 1 + 1 * (y 1).val
        rw [hoff1]
        omega
    have hp : ptOfRow (y 0) = t := Fin.ext (by show (y 0).val / 128 = t.val; omega)
    have hx : ix2 (inBlk (y 0)) (y 1) = x := by
      funext a
      apply Fin.ext
      match a with
      | ⟨0, _⟩ => show (y 0).val % 128 = (x 0).val; omega
      | ⟨1, _⟩ => show (y 1).val = (x 1).val; omega
    have key : H1val m c y = accAt m c t (S1val m c) x := by
      show accAt m c (ptOfRow (y 0)) (S1val m c) (ix2 (inBlk (y 0)) (y 1)) = _
      rw [hp]
      exact congrArg (accAt m c t (S1val m c)) hx
    rw [key, hyx]
    exact View.read_writes_cons_emb _ _ _ _ _ _

/-- Contents that agree with the first layer's output on every row below `128 · 32` are the first layer's output. -/
theorem full_of_inv (m : (ℓ : Loc nD τ sig) → Buf (Elt F) ℓ) (c : Dev nD) (h : Vec F S4096x64 .f32)
    (hall : ∀ y : S4096x64.Idx, (y 0).val < 128 * 32 → h y = H1val m c y) : h = H1val m c :=
  funext fun y => hall y (by have h0 : (y 0).val < 4096 := (y 0).isLt; omega)

end Cert.KernelIdeal.Hand

end
-- ==== Proof.KIBody.lean ====
/-
# The kernel body at every grid point: the proof data and the body obligation

The proof data names what every window's staging buffer holds after the body at each point: an input its block; an output
window, at a point of layer 1, the block of the second layer's output and of its read-out's log-softmax (through layer 0 the
output windows rest and are not consulted). Between points the region's invariant holds the two scratch buffers at contents
`s`, `h` with: through layer 0 after its first point, `s` = features · weights and the rows of `h` below 128 · (points done)
are the first layer's output; through layer 1 after its first point, `s` = (first layer's output) · weights.
-/
import proofs.«132769_g22127671509052_cont_8to1_1196_24_alg».proof.Proof.KIValA
import proofs.«132769_g22127671509052_cont_8to1_1196_24_alg».proof.Proof.KIValB
import proofs.«132769_g22127671509052_cont_8to1_1196_24_alg».proof.Proof.KIValC
import proofs.«132769_g22127671509052_cont_8to1_1196_24_alg».proof.Proof.KIValD
import proofs.«132769_g22127671509052_cont_8to1_1196_24_alg».proof.Proof.KIUpd

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at a point, as the pipeline passes it, and its wholeness. -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x448 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S7x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S64x448 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S7x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S64x4 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x4 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x4 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S128x64 .f32 := win0_15.stage (cfg0.slots t 15)
abbrev hs15 (t : Fin cfg0.N) : (ms15 t).IsWhole := hstage0_15 ((cfg0.slots t 15).cast nbuf0_15)

theorem N_64 : cfg0.N = 64 := N_0

/-- What the two scratch buffers hold before point `n` (after point `n - 1`). -/
def Inv (c : Dev nD) (n : ℕ) (s : Vec F S4096x448 .f32) (h : Vec F S4096x64 .f32) : Prop :=
  (1 ≤ n → n ≤ 32 → s = S1val m c ∧ ∀ y : S4096x64.Idx, (y 0).val < 128 * n → h y = H1val m c y)
    ∧ (33 ≤ n → s = S2val m c)

/-- The region's invariant before point `n`: the two scratch buffers at contents the relation above describes, and the
    generator register at some state. -/
def PhiS (c : Dev nD) (n : ℕ) : sProp 𝕄 :=
  iprop(∃ s h, ⌜Inv m c n s h⌝ ∗ owns (c : Thread nD τ) scS fullShare s ∗ owns (c : Thread nD τ) scH fullShare h ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => O14 m c t
    | ⟨15, _⟩ => O15 m c t
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = O14 m c t := by dsimp only [dats]
theorem after15 (c : Dev nD) (t : Fin cfg0.N) : (dats m 0 c).after 15 t = O15 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem tFirst_of (t : Fin cfg0.N) (h : t.val = 0) : t = tFirst := Fin.ext h
theorem tSecond_of (t : Fin cfg0.N) (h : t.val = 32) : t = tSecond := Fin.ext h

set_option maxHeartbeats 8000000 in
/-- The body at any point: the closed forms say which of the four branches' combinations the point is in; the matching
    whole-body run applies; what its stores leave is read back by the value lemmas, which re-establishes the scratch
    relation at the next point and gives the output windows their named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) from rfl, show (dats m 0 c).Φ t.castSucc = PhiS m c t.val from by dsimp only [dats]; simp only [Fin.coe_castSucc]]
  have hN : t.val < 64 := lt_of_lt_of_eq t.isLt N_64
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  rw [show (dats m 0 c).leavesExact 6 t = owns (c : Thread nD τ) (ms6 t) fullShare ((dats m 0 c).after 6 t) from by
    unfold Dat.leavesExact; rw [live_in 6 (by decide) t], after6]
  rw [show (dats m 0 c).leavesExact 7 t = owns (c : Thread nD τ) (ms7 t) fullShare ((dats m 0 c).after 7 t) from by
    unfold Dat.leavesExact; rw [live_in 7 (by decide) t], after7]
  rw [show (dats m 0 c).leavesExact 8 t = owns (c : Thread nD τ) (ms8 t) fullShare ((dats m 0 c).after 8 t) from by
    unfold Dat.leavesExact; rw [live_in 8 (by decide) t], after8]
  rw [show (dats m 0 c).leavesExact 9 t = owns (c : Thread nD τ) (ms9 t) fullShare ((dats m 0 c).after 9 t) from by
    unfold Dat.leavesExact; rw [live_in 9 (by decide) t], after9]
  rw [show (dats m 0 c).leavesExact 10 t = owns (c : Thread nD τ) (ms10 t) fullShare ((dats m 0 c).after 10 t) from by
    unfold Dat.leavesExact; rw [live_in 10 (by decide) t], after10]
  rw [show (dats m 0 c).leavesExact 11 t = owns (c : Thread nD τ) (ms11 t) fullShare ((dats m 0 c).after 11 t) from by
    unfold Dat.leavesExact; rw [live_in 11 (by decide) t], after11]
  rw [show (dats m 0 c).leavesExact 12 t = owns (c : Thread nD τ) (ms12 t) fullShare ((dats m 0 c).after 12 t) from by
    unfold Dat.leavesExact; rw [live_in 12 (by decide) t], after12]
  rw [show (dats m 0 c).leavesExact 13 t = owns (c : Thread nD τ) (ms13 t) fullShare ((dats m 0 c).after 13 t) from by
    unfold Dat.leavesExact; rw [live_in 13 (by decide) t], after13]
  by_cases h32 : t.val < 32
  · rw [Dat.leavesExact_idle (dats m 0 c) 14 t (idle14 t h32) (noFlush14 t h32),
      Dat.leavesExact_idle (dats m 0 c) 15 t (idle15 t h32) (noFlush15 t h32)]
    unfold PhiS
    by_cases hz : t.val = 0
    · iintro ⟨⟨%s, %h, -, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexists _; iexact HS
      isplitl [HH]; · iexact HH
      iintro ⟨H0, H1, H2, H3, H4, H5, H6, H7, H8, H9, H10, H11, H12, H13, H14, H15, ⟨%es, HS⟩, HH⟩
      isplitl [HS HH Hg]
      · iexists _, _
        isplitr
        swap
        · isplitl [HS]
          · unfold owns; iexists _; isplitr
            swap; · iexact HS
            ipureintro; rfl
          isplitl [HH]
          · unfold owns; iexists _; isplitr
            swap; · iexact HH
            ipureintro; rfl
          iexact Hg
        · ipureintro
          refine ⟨fun _ _ => ⟨?_, fun y hy => ?_⟩, fun h33 => by omega⟩
          · rw [View.read_writes_of_cover _ _ scS.view scS.view.junk _ (scover_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h), sS_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h]
            obtain rfl := tFirst_of t hz
            rfl
          · rw [pieces_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h]
            have e := upd_inv m c t h32 h (fun y hy => by rw [hz] at hy; omega) (k0_off1_inb (grid0.coords t) ((hcond3 t).mpr h32)) (Memref.isWhole_whole _) y hy
            rw [← e]
            have hs : k0_pay4 (iblk m c 7 t) (iblk m c 8 t) = S1val m c := by obtain rfl := tFirst_of t hz; rfl
            rw [hs]
            rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · iintro ⟨⟨%s, %h, %hinv, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      obtain ⟨hs, hh⟩ := hinv.1 (by omega) (by omega)
      subst hs
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => hz ((hcondA t).mp h)) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S1val m c) h).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      isplitl [HH]; · iexact HH
      iintro ⟨H0, H1, H2, H3, H4, H5, H6, H7, H8, H9, H10, H11, H12, H13, H14, H15, HS, HH⟩
      isplitl [HS HH Hg]
      · iexists _, _
        isplitr
        swap
        · isplitl [HS]; · iexact HS
          isplitl [HH]
          · unfold owns; iexists _; isplitr
            swap; · iexact HH
            ipureintro; rfl
          iexact Hg
        · ipureintro
          refine ⟨fun _ _ => ⟨rfl, fun y hy => ?_⟩, fun h33 => by omega⟩
          rw [pieces_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => hz ((hcondA t).mp h)) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S1val m c) h]
          exact upd_inv m c t h32 h hh (k0_off1_inb (grid0.coords t) ((hcond3 t).mpr h32)) (Memref.isWhole_whole _) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · rw [show (dats m 0 c).leavesExact 14 t = owns (c : Thread nD τ) (ms14 t) fullShare ((dats m 0 c).after 14 t) from by
      unfold Dat.leavesExact; rw [live14 t (by omega)], after14]
    rw [show (dats m 0 c).leavesExact 15 t = owns (c : Thread nD τ) (ms15 t) fullShare ((dats m 0 c).after 15 t) from by
      unfold Dat.leavesExact; rw [live15 t (by omega)], after15]
    unfold PhiS
    by_cases h0 : t.val = 32
    · iintro ⟨⟨%s, %h, %hinv, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      obtain ⟨-, hh⟩ := hinv.1 (by omega) (by omega)
      obtain rfl : h = H1val m c := full_of_inv m c h (fun y hy => hh y (by rw [h0]; exact hy))
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS]; · iexists _; iexact HS
      isplitl [HH]; · iexact HH
      iintro ⟨H0, H1, H2, H3, H4, H5, H6, H7, H8, H9, H10, H11, H12, H13, ⟨%e14, H14⟩, ⟨%e15, H15⟩, ⟨%es, HS⟩, HH⟩
      have hS2 : k0_pay5 (H1val m c) (iblk m c 10 t) = S2val m c := by obtain rfl := tSecond_of t h0; rfl
      isplitl [HS HH Hg]
      · iexists _, _
        isplitr
        swap
        · isplitl [HS]
          · unfold owns; iexists _; isplitr
            swap; · iexact HS
            ipureintro; rfl
          isplitl [HH]; · iexact HH
          iexact Hg
        · ipureintro
          refine ⟨fun _ h32' => by omega, fun _ => ?_⟩
          rw [View.read_writes_of_cover _ _ scS.view scS.view.junk _ (scover_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)), sS_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)]
          exact hS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        refine (View.read_writes_of_cover _ _ VO14c VO14c.junk _ (cover14_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c))).trans ((out14_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)).trans ?_)
        rw [hS2]; rfl
      unfold owns; iexists _; isplitr
      swap; · iexact H15
      ipureintro
      refine (View.read_writes_of_cover _ _ VO15c VO15c.junk _ (cover15_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c))).trans ((out15_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)).trans ?_)
      rw [hS2]; rfl
    · iintro ⟨⟨%s, %h, %hinv, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      obtain rfl : s = S2val m c := hinv.2 (by omega)
      iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS]; · iexact HS
      isplitl [HH]; · iexists _; iexact HH
      iintro ⟨H0, H1, H2, H3, H4, H5, H6, H7, H8, H9, H10, H11, H12, H13, ⟨%e14, H14⟩, ⟨%e15, H15⟩, HS, ⟨%dh, HH⟩⟩
      isplitl [HS HH Hg]
      · iexists _, _
        isplitr
        swap
        · isplitl [HS]; · iexact HS
          isplitl [HH]; · iexact HH
          iexact Hg
        · ipureintro
          exact ⟨fun _ h32' => by omega, fun _ => rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        exact (View.read_writes_of_cover _ _ VO14 VO14.junk _ (cover14_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))).trans (out14_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))
      unfold owns; iexists _; isplitr
      swap; · iexact H15
      ipureintro
      exact (View.read_writes_of_cover _ _ VO15 VO15.junk _ (cover15_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))).trans (out15_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%s, HS⟩, ⟨%h, HH⟩⟩, Hg⟩
  iexists s, h
  isplitr
  · ipureintro; exact ⟨fun h1 => by omega, fun h33 => by omega⟩
  isplitl [HS]; · iexact HS
  isplitl [HH]; · iexact HH
  iexact Hg

/-- After the last point the invariant gives the class's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%s, %h, -, HS, HH, Hg⟩
  isplitr [Hg]
  · isplitl [HS]
    · iexists _; iexact HS
    iexists _; iexact HH
  iexact Hg

set_option backward.isDefEq.respectTransparency.types false in
/-- At the compiled mesh, from any memory with zero counters: every weakly fair execution of @main terminates, nothing
    faulting, every array of the pipeline ending at what the library computes from the proof data and every other
    unscoped buffer as it was at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Hand

end
-- ==== Proof.KIBlocks.lean ====
/-
# From blocks to the arrays: the two results as whole arrays

Over the second layer's 32 points the two output windows are written back, one block of 128 rows per point: point
`t` (32 ≤ t) writes rows `128·(t − 32) … 128·(t − 32) + 127`. The 32 blocks tile the 4096 rows, so each result array ends
holding, at row `n`, row `n mod 128` of what point `32 + n / 128` stored. This module has the arithmetic of that tiling:
the block index of a point, a row of the whole array read inside its block, what a point writes back as a block of the
whole array, membership in a block, and the cover.
-/
import proofs.«132769_g22127671509052_cont_8to1_1196_24_alg».proof.Proof.KIVals
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Output window 15: blocks [128, 64] of the [4096, 64] array -/

/-- Over layer 1 the window's block index is (row block, 0): point `t` writes rows `128·(t − 32) …`. -/
theorem idx_facts15 : ∀ t : Fin cfg0.N, 32 ≤ t.val →
    win0_15.index t (0 : Fin 2) = t.val - 32 ∧ win0_15.index t (1 : Fin 2) = 0 :=
  (by decide +kernel : ∀ t : Fin grid0.N, 32 ≤ t.val →
    win0_15.index t (0 : Fin 2) = t.val - 32 ∧ win0_15.index t (1 : Fin 2) = 0)

/-- Row `128·(t − 32) + y₀` of the whole array is row `y₀` of what point `t` of layer 1 stores. -/
theorem KH2_block (c : Dev nD) (t : Fin cfg0.N) (ht : 32 ≤ t.val) (y : S128x64.Idx) (n : Fin 4096)
    (hn : n.val = 128 * (t.val - 32) + (y 0).val) :
    KH2 m c (Idealize.ShloMosaic.ValueIdx.ix2 n (y 1)) = O15 m c t y := by
  have hy : (y 0).val < 128 := (y 0).isLt
  have hN : t.val < 64 := t.isLt
  have hp : ptOfRow2 n = t := Fin.ext (by show 32 + n.val / 128 = t.val; omega)
  have hb : (Idealize.ShloMosaic.ValueIdx.ix2 (inBlk n) (y 1) : S128x64.Idx) = y := by
    funext a
    match a with
    | ⟨0, _⟩ => exact Fin.ext (by show n.val % 128 = (y 0).val; omega)
    | ⟨1, _⟩ => rfl
  show O15 m c (ptOfRow2 n) (Idealize.ShloMosaic.ValueIdx.ix2 (inBlk n) (y 1)) = _
  rw [hp, hb]

/-- WHAT POINT `t` OF LAYER 1 WRITES BACK is block `t` of the whole array. -/
theorem cut15_eq (c : Dev nD) (t : Fin cfg0.N) (ht : 32 ≤ t.val) :
    (cfg0.win 15).cut (grid0.coords t) (O15 m c t) = ((cfg0.win 15).blk t).view.read (Elt F) (KH2 m c) := by
  obtain ⟨e0, e1⟩ := idx_facts15 t ht
  have hN : t.val < 64 := t.isLt
  funext y
  show O15 m c t y = KH2 m c (((cfg0.win 15).blk t).view.emb y)
  have hy : (y 0).val < 128 := (y 0).isLt
  have hemb : ((cfg0.win 15).blk t).view.emb y
      = Idealize.ShloMosaic.ValueIdx.ix2 (⟨128 * (t.val - 32) + (y 0).val, by omega⟩ : Fin 4096) (y 1) := by
    funext a; apply Fin.ext
    match a with
    | ⟨0, _⟩ => show win0_15.index t (0 : Fin 2) * 128 + 1 * (y 0).val = 128 * (t.val - 32) + (y 0).val; omega
    | ⟨1, _⟩ => show win0_15.index t (1 : Fin 2) * 64 + 1 * (y 1).val = (y 1).val; omega
  rw [hemb]
  exact (KH2_block m c t ht y _ rfl).symm

/-- An index of the array is in point `t`'s block iff each coordinate is in the block's range on its axis. -/
theorem mem_blk15 (t : Fin cfg0.N) (i : S4096x64.Idx) :
    i ∈ ((cfg0.win 15).blk t).view.set ↔ ∀ a : Fin 2, win0_15.index t a * S128x64.size a ≤ (i a).val ∧ (i a).val < win0_15.index t a * S128x64.size a + S128x64.size a := by
  show i ∈ ((View.whole main_v19_1).slice (win0_15.rect t)).set ↔ _
  rw [View.set_slice_whole, Rect.mem_set_unit]
  exact Iff.rfl

/-- The blocks written back over layer 1 tile the array: row `i₀` is in the block of point `32 + i₀ / 128`. -/
theorem cover15 (i : S4096x64.Idx) :
    ∃ t : Fin cfg0.N, (cfg0.win 15).flush t = true ∧ i ∈ ((cfg0.win 15).blk t).view.set := by
  have hi0 : (i 0).val < 4096 := (i 0).isLt
  have hi1 : (i 1).val < 64 := (i 1).isLt
  have ht : 32 ≤ (ptOfRow2 (i 0)).val := by show 32 ≤ 32 + (i 0).val / 128; omega
  obtain ⟨e0, e1⟩ := idx_facts15 (ptOfRow2 (i 0)) ht
  have e0' : win0_15.index (ptOfRow2 (i 0)) (0 : Fin 2) = (i 0).val / 128 := by
    rw [e0]; show 32 + (i 0).val / 128 - 32 = (i 0).val / 128; omega
  refine ⟨ptOfRow2 (i 0), (flush15 _).mpr ht, ?_⟩
  rw [mem_blk15]
  intro a
  match a with
  | ⟨0, _⟩ =>
    show win0_15.index (ptOfRow2 (i 0)) (0 : Fin 2) * 128 ≤ (i 0).val ∧ (i 0).val < win0_15.index (ptOfRow2 (i 0)) (0 : Fin 2) * 128 + 128
    rw [e0']; omega
  | ⟨1, _⟩ =>
    show win0_15.index (ptOfRow2 (i 0)) (1 : Fin 2) * 64 ≤ (i 1).val ∧ (i 1).val < win0_15.index (ptOfRow2 (i 0)) (1 : Fin 2) * 64 + 64
    rw [e1]; omega

/-! ## Output window 14: blocks [128, 4] of the [4096, 4] array -/

/-- Over layer 1 the window's block index is (row block, 0): point `t` writes rows `128·(t − 32) …`. -/
theorem idx_facts14 : ∀ t : Fin cfg0.N, 32 ≤ t.val →
    win0_14.index t (0 : Fin 2) = t.val - 32 ∧ win0_14.index t (1 : Fin 2) = 0 :=
  (by decide +kernel : ∀ t : Fin grid0.N, 32 ≤ t.val →
    win0_14.index t (0 : Fin 2) = t.val - 32 ∧ win0_14.index t (1 : Fin 2) = 0)

/-- Row `128·(t − 32) + y₀` of the whole array is row `y₀` of what point `t` of layer 1 stores. -/
theorem KLogp_block (c : Dev nD) (t : Fin cfg0.N) (ht : 32 ≤ t.val) (y : S128x4.Idx) (n : Fin 4096)
    (hn : n.val = 128 * (t.val - 32) + (y 0).val) :
    KLogp m c (Idealize.ShloMosaic.ValueIdx.ix2 n (y 1)) = O14 m c t y := by
  have hy : (y 0).val < 128 := (y 0).isLt
  have hN : t.val < 64 := t.isLt
  have hp : ptOfRow2 n = t := Fin.ext (by show 32 + n.val / 128 = t.val; omega)
  have hb : (Idealize.ShloMosaic.ValueIdx.ix2 (inBlk n) (y 1) : S128x4.Idx) = y := by
    funext a
    match a with
    | ⟨0, _⟩ => exact Fin.ext (by show n.val % 128 = (y 0).val; omega)
    | ⟨1, _⟩ => rfl
  show O14 m c (ptOfRow2 n) (Idealize.ShloMosaic.ValueIdx.ix2 (inBlk n) (y 1)) = _
  rw [hp, hb]

/-- WHAT POINT `t` OF LAYER 1 WRITES BACK is block `t` of the whole array. -/
theorem cut14_eq (c : Dev nD) (t : Fin cfg0.N) (ht : 32 ≤ t.val) :
    (cfg0.win 14).cut (grid0.coords t) (O14 m c t) = ((cfg0.win 14).blk t).view.read (Elt F) (KLogp m c) := by
  obtain ⟨e0, e1⟩ := idx_facts14 t ht
  have hN : t.val < 64 := t.isLt
  funext y
  show O14 m c t y = KLogp m c (((cfg0.win 14).blk t).view.emb y)
  have hy : (y 0).val < 128 := (y 0).isLt
  have hemb : ((cfg0.win 14).blk t).view.emb y
      = Idealize.ShloMosaic.ValueIdx.ix2 (⟨128 * (t.val - 32) + (y 0).val, by omega⟩ : Fin 4096) (y 1) := by
    funext a; apply Fin.ext
    match a with
    | ⟨0, _⟩ => show win0_14.index t (0 : Fin 2) * 128 + 1 * (y 0).val = 128 * (t.val - 32) + (y 0).val; omega
    | ⟨1, _⟩ => show win0_14.index t (1 : Fin 2) * 4 + 1 * (y 1).val = (y 1).val; omega
  rw [hemb]
  exact (KLogp_block m c t ht y _ rfl).symm

/-- An index of the array is in point `t`'s block iff each coordinate is in the block's range on its axis. -/
theorem mem_blk14 (t : Fin cfg0.N) (i : S4096x4.Idx) :
    i ∈ ((cfg0.win 14).blk t).view.set ↔ ∀ a : Fin 2, win0_14.index t a * S128x4.size a ≤ (i a).val ∧ (i a).val < win0_14.index t a * S128x4.size a + S128x4.size a := by
  show i ∈ ((View.whole main_v19_0).slice (win0_14.rect t)).set ↔ _
  rw [View.set_slice_whole, Rect.mem_set_unit]
  exact Iff.rfl

/-- The blocks written back over layer 1 tile the array: row `i₀` is in the block of point `32 + i₀ / 128`. -/
theorem cover14 (i : S4096x4.Idx) :
    ∃ t : Fin cfg0.N, (cfg0.win 14).flush t = true ∧ i ∈ ((cfg0.win 14).blk t).view.set := by
  have hi0 : (i 0).val < 4096 := (i 0).isLt
  have hi1 : (i 1).val < 4 := (i 1).isLt
  have ht : 32 ≤ (ptOfRow2 (i 0)).val := by show 32 ≤ 32 + (i 0).val / 128; omega
  obtain ⟨e0, e1⟩ := idx_facts14 (ptOfRow2 (i 0)) ht
  have e0' : win0_14.index (ptOfRow2 (i 0)) (0 : Fin 2) = (i 0).val / 128 := by
    rw [e0]; show 32 + (i 0).val / 128 - 32 = (i 0).val / 128; omega
  refine ⟨ptOfRow2 (i 0), (flush14 _).mpr ht, ?_⟩
  rw [mem_blk14]
  intro a
  match a with
  | ⟨0, _⟩ =>
    show win0_14.index (ptOfRow2 (i 0)) (0 : Fin 2) * 128 ≤ (i 0).val ∧ (i 0).val < win0_14.index (ptOfRow2 (i 0)) (0 : Fin 2) * 128 + 128
    rw [e0']; omega
  | ⟨1, _⟩ =>
    show win0_14.index (ptOfRow2 (i 0)) (1 : Fin 2) * 4 ≤ (i 1).val ∧ (i 1).val < win0_14.index (ptOfRow2 (i 0)) (1 : Fin 2) * 4 + 4
    rw [e1]; omega

end Cert.KernelIdeal.Hand

end
-- ==== Proof.KIFinal.lean ====
/-
# The two result arrays after the run

Each point of the second layer writes its block of 128 rows back into the two result arrays, and the 32 blocks tile
the 4096 rows; so after the last point the second result array is the whole second-layer output and the first is
the whole log-softmax of its read-out, row `n` coming from point `32 + n / 128`.
-/
import proofs.«132769_g22127671509052_cont_8to1_1196_24_alg».proof.Proof.KIBody
import proofs.«132769_g22127671509052_cont_8to1_1196_24_alg».proof.Proof.KIBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What a flushing point writes back into the second result array is its block of the whole second-layer output. -/
theorem flushed15_eq (c : Dev nD) (t : Fin cfg0.N) (hf : (cfg0.win 15).flush t = true) :
    (dats m 0 c).flushed 15 t = ((cfg0.win 15).blk t).view.read (Elt F) (KH2 m c) := by
  show (cfg0.win 15).cut (grid0.coords t) ((dats m 0 c).after 15 t) = _
  rw [after15]
  exact cut15_eq m c t ((flush15 t).mp hf)

/-- What a flushing point writes back into the first result array is its block of the whole log-softmax. -/
theorem flushed14_eq (c : Dev nD) (t : Fin cfg0.N) (hf : (cfg0.win 14).flush t = true) :
    (dats m 0 c).flushed 14 t = ((cfg0.win 14).blk t).view.read (Elt F) (KLogp m c) := by
  show (cfg0.win 14).cut (grid0.coords t) ((dats m 0 c).after 14 t) = _
  rw [after14]
  exact cut14_eq m c t ((flush14 t).mp hf)

/-- The second result array after the run: the second layer's output, whole. -/
theorem final15 (m : (ℓ : Loc nD τ sig) → Buf (Elt F) ℓ) (c : Dev nD) : (dats m 0 c).arrAt 15 cfg0.N = KH2 m c :=
  (dats m 0 c).arrAt_eq_of_cover 15 (KH2 m c) (fun t hf => flushed15_eq m c t hf) (fun i => cover15 i)

/-- The first result array after the run: the log-softmax of the read-out, whole. -/
theorem final14 (m : (ℓ : Loc nD τ sig) → Buf (Elt F) ℓ) (c : Dev nD) : (dats m 0 c).arrAt 14 cfg0.N = KLogp m c :=
  (dats m 0 c).arrAt_eq_of_cover 14 (KLogp m c) (fun t hf => flushed14_eq m c t hf) (fun i => cover14 i)

end Cert.KernelIdeal.Hand

end
-- ==== Proof.KBRuns.lean ====
/-
# The kernel body's branches over the grid, and where its outputs rest

The grid has 2 × 32 points: the first coordinate is the layer, the second the block of 128 rows. The body has four
branches: the first point of layer 0 (fill the scratch with features · weights), the first point of layer 1 (fill it
with the first layer's output · weights), every point of layer 0 (store the block's 128 rows of the first layer's output
into the second scratch), every point of layer 1 (store the block of the second layer's output and its read-out into the
two output windows). Here each condition is decided over the 64 points in closed form, and the output windows are shown
to rest (nothing stored, nothing written back) throughout layer 0 and to be live and written back throughout layer 1.
-/
import proofs.«132769_g22127671509052_cont_8to1_1196_24_alg».proof.Proof.Gen.Kernel.Frame
import proofs.«132769_g22127671509052_cont_8to1_1196_24_alg».proof.Proof.Gen.Kernel.Skeleton
import proofs.«132769_g22127671509052_cont_8to1_1196_24_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition (layer 0 and row block 0), as the body computes it from the grid coordinates. -/
abbrev condA (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition (layer 1 and row block 0). -/
abbrev condC (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
/-- The third branch's condition (layer 0). -/
abbrev cond3 (i : grid0.Coords) : Prop := k0_cond3 i = 1#1
/-- The fourth branch's condition (layer 1). -/
abbrev cond4 (i : grid0.Coords) : Prop := k0_cond4 i = 1#1

theorem hcondA : ∀ t : Fin cfg0.N, condA (grid0.coords t) ↔ t.val = 0 :=
  (by decide +kernel : ∀ t : Fin grid0.N, condA (grid0.coords t) ↔ t.val = 0)
theorem hcondC : ∀ t : Fin cfg0.N, condC (grid0.coords t) ↔ t.val = 32 :=
  (by decide +kernel : ∀ t : Fin grid0.N, condC (grid0.coords t) ↔ t.val = 32)
theorem hcond3 : ∀ t : Fin cfg0.N, cond3 (grid0.coords t) ↔ t.val < 32 :=
  (by decide +kernel : ∀ t : Fin grid0.N, cond3 (grid0.coords t) ↔ t.val < 32)
theorem hcond4 : ∀ t : Fin cfg0.N, cond4 (grid0.coords t) ↔ 32 ≤ t.val :=
  (by decide +kernel : ∀ t : Fin grid0.N, cond4 (grid0.coords t) ↔ 32 ≤ t.val)

/-- The layer of a point, as the 32-bit word the body compares: 0 below point 32, 1 from it on. -/
theorem layer_lo : ∀ t : Fin cfg0.N, t.val < 32 → (grid0.coords t 0).val = 0 :=
  (by decide +kernel : ∀ t : Fin grid0.N, t.val < 32 → (grid0.coords t 0).val = 0)
theorem layer_hi : ∀ t : Fin cfg0.N, 32 ≤ t.val → (grid0.coords t 0).val = 1 :=
  (by decide +kernel : ∀ t : Fin grid0.N, 32 ≤ t.val → (grid0.coords t 0).val = 1)
/-- The row block of a point. -/
theorem row_eq : ∀ t : Fin cfg0.N, (grid0.coords t 1).val = t.val % 32 :=
  (by decide +kernel : ∀ t : Fin grid0.N, (grid0.coords t 1).val = t.val % 32)

/-- Inputs are never idle. -/
theorem live_in : ∀ (w : Fin 16), w.val < 14 → ∀ t : Fin cfg0.N, cfg0.idle w (grid0.coords t) = false := by decide +kernel
/-- Through layer 0 the two output windows rest: nothing is stored into them and nothing is written back. -/
theorem idle14 : ∀ t : Fin cfg0.N, t.val < 32 → cfg0.idle 14 (grid0.coords t) = true := by decide +kernel
theorem idle15 : ∀ t : Fin cfg0.N, t.val < 32 → cfg0.idle 15 (grid0.coords t) = true := by decide +kernel
theorem noFlush14 : ∀ t : Fin cfg0.N, t.val < 32 → (cfg0.win 14).flush t = false := by decide +kernel
theorem noFlush15 : ∀ t : Fin cfg0.N, t.val < 32 → (cfg0.win 15).flush t = false := by decide +kernel
/-- Through layer 1 they are live, and every point writes its block back. -/
theorem live14 : ∀ t : Fin cfg0.N, 32 ≤ t.val → cfg0.idle 14 (grid0.coords t) = false := by decide +kernel
theorem live15 : ∀ t : Fin cfg0.N, 32 ≤ t.val → cfg0.idle 15 (grid0.coords t) = false := by decide +kernel
theorem flush14 : ∀ t : Fin cfg0.N, (cfg0.win 14).flush t = true ↔ 32 ≤ t.val := by decide +kernel
theorem flush15 : ∀ t : Fin cfg0.N, (cfg0.win 15).flush t = true ↔ 32 ≤ t.val := by decide +kernel

/-- The two scratch operands as memrefs. -/
abbrev scS : Memref sig .tc .vmem S4096x448 .f32 := Memref.whole cc0_scratch0
abbrev scH : Memref sig .tc .vmem S4096x64 .f32 := Memref.whole cc0_scratch1

/-- The region's invariant with the two scratch buffers as memrefs owned at some contents. -/
theorem PhiA_eq (c : Dev nD) :
    (Pipeline.ΦA spec0 c : sProp 𝕄)
      = iprop(iprop((∃ d, owns (c : Thread nD τ) scS fullShare d) ∗ (∃ d, owns (c : Thread nD τ) scH fullShare d)) ∗ (∃ r, prngReg c r)) := by
  unfold Pipeline.ΦA; rw [scopedRest0_eq]; simp only [scS, scH, owns_whole]; try rfl

end Cert.Kernel.Hand

end
-- ==== Proof.KBRunA.lean ====
/-
# The kernel body run whole, at the first point of the first layer
At grid point (0, 0) the body fills the first scratch with features · weights, reads it back in seven column slices,
accumulates the block's 128 rows of the first layer's output and stores them into rows 0..127 of the second scratch.
The output windows are left as they were handed over.
-/
import proofs.«132769_g22127671509052_cont_8to1_1196_24_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers at the first point of layer 0, with the proof that the body runs to the continuation holding them: the inputs and the resting output windows as they were, the first scratch with its pieces written, the second with its pieces written over what it held. -/
noncomputable def runA (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    Σ' (LS0 : List (View.Piece (Elt F) S4096x448 .f32)), { LS1 : List (View.Piece (Elt F) S4096x64 .f32) //
      ∀ (xi14 : Vec F S128x4 .f32) (xi15 : Vec F S128x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare xi14
            ∗ owns (c : Thread nD τ) arg17 fullShare xi15
            ∗ (∃ d, owns (c : Thread nD τ) arg18 fullShare d)
            ∗ owns (c : Thread nD τ) arg19 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ owns (c : Thread nD τ) arg16 fullShare xi14
                ∗ owns (c : Thread nD τ) arg17 fullShare xi15
                ∗ (∃ f, arg18.view.loc (c : Thread nD τ) ↦[arg18.view.set]{fullShare} arg18.view.writes (Elt F) f LS0)
                ∗ (arg19.view.loc (c : Thread nD τ) ↦[arg19.view.set]{fullShare} arg19.view.writes (Elt F) (harg19.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg16.eq_unread hf14; obtain rfl := harg17.eq_unread hf15; obtain rfl := harg19.eq_unread hfs1
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]
    · iexists _; iexact HS0
    iexact HS1

end Cert.Kernel.Hand

end
-- ==== Proof.KBVals.lean ====
/-
# What the kernel's buffers hold, point by point, as explicit functions of the argument arrays

The first scratch holds `features · weights` through layer 0 and `(first layer's output) · weights` through layer 1; the body
reads it in seven slices of 64 columns, one per relation. The second scratch is filled, 128 rows per point, with the first
layer's output. At a point of layer 1 the two output windows receive the block's rows of the second layer's output and of
the log-softmax of its read-out. All of these are written here through the body's own pure arithmetic (the skeleton's
payload functions), over the windows' blocks as the region finds them.
-/
import proofs.«132769_g22127671509052_cont_8to1_1196_24_alg».proof.Proof.KBRuns
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The seven 64-column slices of the first scratch's contents, one per relation. -/
def colS (s : Vec F S4096x448 .f32) : Fin 7 → Vec F S4096x64 .f32 :=
  ![View.ld s (Rect.unit (s := S4096x448) ![0, 0] S4096x64.size inb_S4096x448_S4096x64_0_0),
    View.ld s (Rect.unit (s := S4096x448) ![0, 64] S4096x64.size inb_S4096x448_S4096x64_0_64),
    View.ld s (Rect.unit (s := S4096x448) ![0, 128] S4096x64.size inb_S4096x448_S4096x64_0_128),
    View.ld s (Rect.unit (s := S4096x448) ![0, 192] S4096x64.size inb_S4096x448_S4096x64_0_192),
    View.ld s (Rect.unit (s := S4096x448) ![0, 256] S4096x64.size inb_S4096x448_S4096x64_0_256),
    View.ld s (Rect.unit (s := S4096x448) ![0, 320] S4096x64.size inb_S4096x448_S4096x64_0_320),
    View.ld s (Rect.unit (s := S4096x448) ![0, 384] S4096x64.size inb_S4096x448_S4096x64_0_384)]

/-- The seven rows of a [7, 64] bias array, one per relation, each as a [1, 64] vector. -/
def rowB (b : Vec F S7x64 .f32) : Fin 7 → Vec F S1x64 .f32 :=
  ![View.ld b (Rect.unit (s := S7x64) ![0, 0] S1x64.size inb_S7x64_S1x64_0_0),
    View.ld b (Rect.unit (s := S7x64) ![1, 0] S1x64.size inb_S7x64_S1x64_1_0),
    View.ld b (Rect.unit (s := S7x64) ![2, 0] S1x64.size inb_S7x64_S1x64_2_0),
    View.ld b (Rect.unit (s := S7x64) ![3, 0] S1x64.size inb_S7x64_S1x64_3_0),
    View.ld b (Rect.unit (s := S7x64) ![4, 0] S1x64.size inb_S7x64_S1x64_4_0),
    View.ld b (Rect.unit (s := S7x64) ![5, 0] S1x64.size inb_S7x64_S1x64_5_0),
    View.ld b (Rect.unit (s := S7x64) ![6, 0] S1x64.size inb_S7x64_S1x64_6_0)]

/-- The running sum after the sixth relation: what the seventh is added to. -/
def accSix (i : grid0.Coords) (A : Fin 7 → Vec F S128x4096 .f32) (s : Fin 7 → Vec F S4096x64 .f32)
    (bA bB : Fin 7 → Vec F S1x64 .f32) : FVec F S128x64 .f32 :=
  k0_pay11 (BitVec.ofNat 32 (i 0).val)
    (k0_pay8 (BitVec.ofNat 32 (i 0).val) (k0_pay6 i (A 0) (s 0) (bA 0) (bB 0)) (k0_pay7 (A 1) (s 1))
      (Scalar.cmpi .eq (BitVec.ofNat 32 (i 0).val) 0#32) (bA 1) (bB 1) (A 2) (s 2) (bA 2) (bB 2))
    (k0_pay9 (A 3) (s 3)) (k0_pay10 (BitVec.ofNat 32 (i 0).val) (bA 3) (bB 3))
    (A 4) (s 4) (bA 4) (bB 4) (A 5) (s 5) (bA 5) (bB 5)

/-- One block of a layer's output: over the seven relations, (adjacency block · scratch slice + bias row) rectified, summed
    in relation order from zero. The bias row is the first layer's or the second's by the point's layer. -/
def accG (i : grid0.Coords) (A : Fin 7 → Vec F S128x4096 .f32) (s : Fin 7 → Vec F S4096x64 .f32)
    (bA bB : Fin 7 → Vec F S1x64 .f32) : FVec F S128x64 .f32 :=
  k0_pay1 (BitVec.ofNat 32 (i 0).val) (accSix i A s bA bB) (A 6) (s 6) (bA 6) (bB 6)

/-- The block's read-out (· W_ro + b_ro) followed by the max-subtracting log-softmax of its four classes. -/
def logpG (i : grid0.Coords) (A : Fin 7 → Vec F S128x4096 .f32) (s : Fin 7 → Vec F S4096x64 .f32)
    (bA bB : Fin 7 → Vec F S1x64 .f32) (wro : Vec F S64x4 .f32) (bro : Vec F S1x4 .f32) : FVec F S128x4 .f32 :=
  k0_pay3 (BitVec.ofNat 32 (i 0).val) (accSix i A s bA bB) (A 6) (s 6) (bA 6) (bB 6) wro bro

variable (c : Dev nD)

/-- The first point of each layer. -/
abbrev tFirst : Fin cfg0.N := ⟨0, by decide⟩
abbrev tSecond : Fin cfg0.N := ⟨32, by decide⟩

/-- The seven adjacency blocks at a point. -/
def blkA (t : Fin cfg0.N) : Fin 7 → Vec F S128x4096 .f32 :=
  ![iblk m c 0 t, iblk m c 1 t, iblk m c 2 t, iblk m c 3 t, iblk m c 4 t, iblk m c 5 t, iblk m c 6 t]

/-- A layer's block at point `t`, over contents `s` of the first scratch. -/
def accAt (t : Fin cfg0.N) (s : Vec F S4096x448 .f32) : FVec F S128x64 .f32 :=
  accG (grid0.coords t) (blkA m c t) (colS s) (rowB (iblk m c 9 t)) (rowB (iblk m c 11 t))

/-- The first scratch through layer 0: features · (first-layer weights side by side). -/
def S1val : Vec F S4096x448 .f32 := k0_pay4 (iblk m c 7 tFirst) (iblk m c 8 tFirst)

/-- The point of layer 0 that fills row `n` of the second scratch, and the row inside its block. -/
abbrev ptOfRow (n : Fin 4096) : Fin cfg0.N := ⟨n.val / 128, by have := n.isLt; show n.val / 128 < 64; omega⟩
abbrev inBlk (n : Fin 4096) : Fin 128 := ⟨n.val % 128, Nat.mod_lt _ (by decide)⟩

/-- The first layer's output, whole: row `n` comes from the point `n / 128` of layer 0. -/
def H1val : Vec F S4096x64 .f32 := fun y =>
  accAt m c (ptOfRow (y 0)) (S1val m c) (Idealize.ShloMosaic.ValueIdx.ix2 (inBlk (y 0)) (y 1))

/-- The first scratch through layer 1: (first layer's output) · (second-layer weights side by side). -/
def S2val : Vec F S4096x448 .f32 := k0_pay5 (H1val m c) (iblk m c 10 tSecond)

/-- What a point of layer 1 stores into the second output window: its block of the second layer's output. -/
def O15 (t : Fin cfg0.N) : FVec F S128x64 .f32 := accAt m c t (S2val m c)

/-- What a point of layer 1 stores into the first output window: the block's log-softmax. -/
def O14 (t : Fin cfg0.N) : FVec F S128x4 .f32 :=
  logpG (grid0.coords t) (blkA m c t) (colS (S2val m c)) (rowB (iblk m c 9 t)) (rowB (iblk m c 11 t)) (iblk m c 12 t) (iblk m c 13 t)

/-- The point of layer 1 that writes row `n` of the results. -/
abbrev ptOfRow2 (n : Fin 4096) : Fin cfg0.N := ⟨32 + n.val / 128, by have := n.isLt; show 32 + n.val / 128 < 64; omega⟩

/-- The second result array, whole: the second layer's output. -/
def KH2 : Vec F S4096x64 .f32 := fun y => O15 m c (ptOfRow2 (y 0)) (Idealize.ShloMosaic.ValueIdx.ix2 (inBlk (y 0)) (y 1))
/-- The first result array, whole: the log-softmax of the read-out. -/
def KLogp : Vec F S4096x4 .f32 := fun y => O14 m c (ptOfRow2 (y 0)) (Idealize.ShloMosaic.ValueIdx.ix2 (inBlk (y 0)) (y 1))

end Cert.Kernel.Hand

end
-- ==== Proof.KBValA.lean ====
/-
# What the body leaves, at the first point of the first layer: the found pieces read back
The first scratch receives ONE store of its whole extent, features · weights; the seven slices read back after it are
slices of that product. The second scratch receives one store of 128 rows: the block of the first layer's output.
-/
import proofs.«132769_g22127671509052_cont_8to1_1196_24_alg».proof.Proof.KBRunA
import proofs.«132769_g22127671509052_cont_8to1_1196_24_alg».proof.Proof.KBVals
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem scover_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S4096x448.Idx) :
    ∃ pc ∈ (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1, y ∈ pc.1.set :=
  View.cover_of_tiledL (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1 S4096x448.size (by sl_kernel_rfl) y

/-- The first scratch after the first point of layer 0: features · weights. -/
theorem sS_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    scS.view.read (Elt F) (scS.view.writes (Elt F) scS.view.junk (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1) = k0_pay4 x7 x8 := by
  rw [View.read_writes_eq_canon _ _ _ (scover_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runA
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]

/-- The one store into the second scratch at the first point of layer 0: the block's 128 rows of the first layer's
    output, at the rows the point names. -/
theorem pieces_A (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1
      = [⟨Rect.unit (s := S4096x64) (k0_off1 i) S128x64.size (k0_off1_inb i h3),
          accG i ![x0, x1, x2, x3, x4, x5, x6] (colS (k0_pay4 x7 x8)) (rowB x9) (rowB x11)⟩] := by
  unfold runA
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  unfold k0_pay2
  simp only [shapeCast_self]
  rfl

end Cert.Kernel.Hand

end
-- ==== Proof.KBRunB.lean ====
/-
# The kernel body run whole, at a later point of the first layer
At grid point (0, r), r > 0, the first scratch already holds features · weights; the body reads its seven column slices,
accumulates block r's 128 rows of the first layer's output and stores them into rows 128r .. 128r+127 of the second scratch.
The output windows are left as they were handed over.
-/
import proofs.«132769_g22127671509052_cont_8to1_1196_24_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's store leaves in the second scratch at a later point of layer 0, with the proof that the body runs to the continuation holding them: everything else as it was. -/
noncomputable def runB (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (xs1 : Vec F S4096x64 .f32) :
    { LS1 : List (View.Piece (Elt F) S4096x64 .f32) //
      ∀ (xi14 : Vec F S128x4 .f32) (xi15 : Vec F S128x64 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ owns (c : Thread nD τ) arg16 fullShare xi14
            ∗ owns (c : Thread nD τ) arg17 fullShare xi15
            ∗ owns (c : Thread nD τ) arg18 fullShare xs0
            ∗ owns (c : Thread nD τ) arg19 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ owns (c : Thread nD τ) arg16 fullShare xi14
                ∗ owns (c : Thread nD τ) arg17 fullShare xi15
                ∗ owns (c : Thread nD τ) arg18 fullShare xs0
                ∗ (arg19.view.loc (c : Thread nD τ) ↦[arg19.view.set]{fullShare} arg19.view.writes (Elt F) (harg19.unread xs1) LS1)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun xi14 xi15 E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg16.eq_unread hf14; obtain rfl := harg17.eq_unread hf15; obtain rfl := harg18.eq_unread hfs0; obtain rfl := harg19.eq_unread hfs1
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]
    · iexists _; isplitr; · ipureintro; exact harg18.read_unread _
      iexact HS0
    iexact HS1

end Cert.Kernel.Hand

end
-- ==== Proof.KBValB.lean ====
/-
# What the body leaves, at a later point of the first layer: the found pieces read back
The second scratch receives one store of 128 rows: the block of the first layer's output, over the seven slices of
the first scratch as it was handed over.
-/
import proofs.«132769_g22127671509052_cont_8to1_1196_24_alg».proof.Proof.KBRunB
import proofs.«132769_g22127671509052_cont_8to1_1196_24_alg».proof.Proof.KBVals
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The one store into the second scratch at a later point of layer 0. -/
theorem pieces_B (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : cond3 i) (h4 : ¬cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (xs1 : Vec F S4096x64 .f32) :
    (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0 xs1).1
      = [⟨Rect.unit (s := S4096x64) (k0_off1 i) S128x64.size (k0_off1_inb i h3),
          accG i ![x0, x1, x2, x3, x4, x5, x6] (colS xs0) (rowB x9) (rowB x11)⟩] := by
  unfold runB
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  unfold k0_pay2
  simp only [shapeCast_self]
  rfl

end Cert.Kernel.Hand

end
-- ==== Proof.KBRunC.lean ====
/-
# The kernel body run whole, at the first point of the second layer
At grid point (1, 0) the second scratch holds the whole first layer's output; the body fills the first scratch with
that output · weights, reads it back in seven column slices, accumulates block 0's 128 rows of the second layer's output,
and stores them and their read-out's log-softmax into the two output windows.
-/
import proofs.«132769_g22127671509052_cont_8to1_1196_24_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two output windows and the first scratch at the first point of layer 1, with the proof that the body runs to the continuation holding them: the inputs and the second scratch as they were. -/
noncomputable def runC (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    Σ' (L14 : List (View.Piece (Elt F) S128x4 .f32)), Σ' (L15 : List (View.Piece (Elt F) S128x64 .f32)), { LS0 : List (View.Piece (Elt F) S4096x448 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ (∃ d, owns (c : Thread nD τ) arg16 fullShare d)
            ∗ (∃ d, owns (c : Thread nD τ) arg17 fullShare d)
            ∗ (∃ d, owns (c : Thread nD τ) arg18 fullShare d)
            ∗ owns (c : Thread nD τ) arg19 fullShare xs1
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ (∃ f, arg16.view.loc (c : Thread nD τ) ↦[arg16.view.set]{fullShare} arg16.view.writes (Elt F) f L14)
                ∗ (∃ f, arg17.view.loc (c : Thread nD τ) ↦[arg17.view.set]{fullShare} arg17.view.writes (Elt F) f L15)
                ∗ (∃ f, arg18.view.loc (c : Thread nD τ) ↦[arg18.view.set]{fullShare} arg18.view.writes (Elt F) f LS0)
                ∗ owns (c : Thread nD τ) arg19 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun  E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg19.eq_unread hfs1
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexact H15
    isplitl [HS0]
    · iexists _; iexact HS0
    iexists _; isplitr; · ipureintro; exact harg19.read_unread _
    iexact HS1

end Cert.Kernel.Hand

end
-- ==== Proof.KBValC.lean ====
/-
# What the body leaves, at the first point of the second layer: the found pieces read back
The first scratch receives ONE store of its whole extent, (first layer's output) · weights; the seven slices read back
after it are slices of that product. Each output window receives one store covering its block.
-/
import proofs.«132769_g22127671509052_cont_8to1_1196_24_alg».proof.Proof.KBRunC
import proofs.«132769_g22127671509052_cont_8to1_1196_24_alg».proof.Proof.KBVals
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev VO14c : View sig .tc .vmem S128x4 .f32 := (Memref.whole cc0_stg14_0 : Memref sig .tc .vmem S128x4 .f32).view
abbrev VO15c : View sig .tc .vmem S128x64 .f32 := (Memref.whole cc0_stg15_0 : Memref sig .tc .vmem S128x64 .f32).view

theorem cover14_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S128x4.Idx) :
    ∃ pc ∈ (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1, y ∈ pc.1.set :=
  View.cover_of_tiledL (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1 S128x4.size (by sl_kernel_rfl) y
theorem cover15_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S128x64.Idx) :
    ∃ pc ∈ (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1, y ∈ pc.1.set :=
  View.cover_of_tiledL (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1 S128x64.size (by sl_kernel_rfl) y
theorem scover_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) (y : S4096x448.Idx) :
    ∃ pc ∈ (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.2.1, y ∈ pc.1.set :=
  View.cover_of_tiledL (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.2.1 S4096x448.size (by sl_kernel_rfl) y

/-- The first scratch after the first point of layer 1: (first layer's output) · weights. -/
theorem sS_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    scS.view.read (Elt F) (scS.view.writes (Elt F) scS.view.junk (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.2.1) = k0_pay5 xs1 x10 := by
  rw [View.read_writes_eq_canon _ _ _ (scover_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]

/-- The second output window after the first point of layer 1. -/
theorem out15_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    VO15c.read (Elt F) (VO15c.writes (Elt F) VO15c.junk (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).2.1)
      = accG i ![x0, x1, x2, x3, x4, x5, x6] (colS (k0_pay5 xs1 x10)) (rowB x9) (rowB x11) := by
  rw [View.read_writes_eq_canon _ _ _ (cover15_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  rfl

/-- The first output window after the first point of layer 1. -/
theorem out14_C (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs1 : Vec F S4096x64 .f32) :
    VO14c.read (Elt F) (VO14c.writes (Elt F) VO14c.junk (runC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1).1)
      = logpG i ![x0, x1, x2, x3, x4, x5, x6] (colS (k0_pay5 xs1 x10)) (rowB x9) (rowB x11) x12 x13 := by
  rw [View.read_writes_eq_canon _ _ _ (cover14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs1)]
  unfold runC
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2, View.readCov_eq_canon', View.canon_unit_zero (S := S4096x448) hz2]
  rfl

end Cert.Kernel.Hand

end
-- ==== Proof.KBRunD.lean ====
/-
# The kernel body run whole, at a later point of the second layer
At grid point (1, r), r > 0, the first scratch already holds the first layer's output · weights; the body reads its seven
column slices, accumulates block r's 128 rows of the second layer's output, and stores them and their read-out's log-softmax
into the two output windows.
-/
import proofs.«132769_g22127671509052_cont_8to1_1196_24_alg».proof.Proof.KBRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two output windows at a later point of layer 1, with the proof that the body runs to the continuation holding them: the inputs and the first scratch as they were, the second scratch at some contents. -/
noncomputable def runD (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) :
    Σ' (L14 : List (View.Piece (Elt F) S128x4 .f32)), { L15 : List (View.Piece (Elt F) S128x64 .f32) //
      ∀  (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ owns (c : Thread nD τ) arg10 fullShare x8
            ∗ owns (c : Thread nD τ) arg11 fullShare x9
            ∗ owns (c : Thread nD τ) arg12 fullShare x10
            ∗ owns (c : Thread nD τ) arg13 fullShare x11
            ∗ owns (c : Thread nD τ) arg14 fullShare x12
            ∗ owns (c : Thread nD τ) arg15 fullShare x13
            ∗ (∃ d, owns (c : Thread nD τ) arg16 fullShare d)
            ∗ (∃ d, owns (c : Thread nD τ) arg17 fullShare d)
            ∗ owns (c : Thread nD τ) arg18 fullShare xs0
            ∗ (∃ d, owns (c : Thread nD τ) arg19 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ owns (c : Thread nD τ) arg10 fullShare x8
                ∗ owns (c : Thread nD τ) arg11 fullShare x9
                ∗ owns (c : Thread nD τ) arg12 fullShare x10
                ∗ owns (c : Thread nD τ) arg13 fullShare x11
                ∗ owns (c : Thread nD τ) arg14 fullShare x12
                ∗ owns (c : Thread nD τ) arg15 fullShare x13
                ∗ (∃ f, arg16.view.loc (c : Thread nD τ) ↦[arg16.view.set]{fullShare} arg16.view.writes (Elt F) f L14)
                ∗ (∃ f, arg17.view.loc (c : Thread nD τ) ↦[arg17.view.set]{fullShare} arg17.view.writes (Elt F) f L15)
                ∗ owns (c : Thread nD τ) arg18 fullShare xs0
                ∗ (∃ d, owns (c : Thread nD τ) arg19 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun  E K => ?run⟩
  case run =>
    simp only [cc0__body_eq_skeleton]; unfold cc0__body_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%ds1, %fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg18.eq_unread hfs0
    sl_exec (disch := first | exact hA | exact hC | exact h3 | exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; iexact H14
    isplitl [H15]
    · iexists _; iexact H15
    isplitl [HS0]
    · iexists _; isplitr; · ipureintro; exact harg18.read_unread _
      iexact HS0
    iexists _; iexists _; isplitr; · ipureintro; exact hfs1
    iexact HS1

end Cert.Kernel.Hand

end
-- ==== Proof.KBValD.lean ====
/-
# What the body leaves, at a later point of the second layer: the found pieces read back
Each output window receives ONE store covering its whole block, so what its staging buffer holds afterwards is that store's
payload: the block of the layer's output, and its read-out's log-softmax, over the adjacency blocks, the seven slices of the
first scratch and the bias rows.
-/
import proofs.«132769_g22127671509052_cont_8to1_1196_24_alg».proof.Proof.KBRunD
import proofs.«132769_g22127671509052_cont_8to1_1196_24_alg».proof.Proof.KBVals
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One staging buffer of each output window, through which its contents are stated. -/
abbrev VO14 : View sig .tc .vmem S128x4 .f32 := (Memref.whole cc0_stg14_0 : Memref sig .tc .vmem S128x4 .f32).view
abbrev VO15 : View sig .tc .vmem S128x64 .f32 := (Memref.whole cc0_stg15_0 : Memref sig .tc .vmem S128x64 .f32).view

theorem cover14_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (y : S128x4.Idx) :
    ∃ pc ∈ (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).1, y ∈ pc.1.set :=
  View.cover_of_tiledL (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).1 S128x4.size (by sl_kernel_rfl) y
theorem cover15_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) (y : S128x64.Idx) :
    ∃ pc ∈ (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).2.1, y ∈ pc.1.set :=
  View.cover_of_tiledL (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).2.1 S128x64.size (by sl_kernel_rfl) y

/-- The second output window after a later point of layer 1: the block of the layer's output. -/
theorem out15_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) :
    VO15.read (Elt F) (VO15.writes (Elt F) VO15.junk (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).2.1)
      = accG i ![x0, x1, x2, x3, x4, x5, x6] (colS xs0) (rowB x9) (rowB x11) := by
  rw [View.read_writes_eq_canon _ _ _ (cover15_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0)]
  unfold runD
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2]
  rfl

/-- The first output window after a later point of layer 1: the block's log-softmax. -/
theorem out14_D (c : Dev nD) (i : grid0.Coords) (arg2 : Memref sig .tc .vmem S128x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x128 .f32) (harg9 : arg9.IsWhole) (arg10 : Memref sig .tc .vmem S128x448 .f32) (harg10 : arg10.IsWhole) (arg11 : Memref sig .tc .vmem S7x64 .f32) (harg11 : arg11.IsWhole) (arg12 : Memref sig .tc .vmem S64x448 .f32) (harg12 : arg12.IsWhole) (arg13 : Memref sig .tc .vmem S7x64 .f32) (harg13 : arg13.IsWhole) (arg14 : Memref sig .tc .vmem S64x4 .f32) (harg14 : arg14.IsWhole) (arg15 : Memref sig .tc .vmem S1x4 .f32) (harg15 : arg15.IsWhole) (arg16 : Memref sig .tc .vmem S128x4 .f32) (harg16 : arg16.IsWhole) (arg17 : Memref sig .tc .vmem S128x64 .f32) (harg17 : arg17.IsWhole) (arg18 : Memref sig .tc .vmem S4096x448 .f32) (harg18 : arg18.IsWhole) (arg19 : Memref sig .tc .vmem S4096x64 .f32) (harg19 : arg19.IsWhole) (hA : ¬condA i) (hC : ¬condC i) (h3 : ¬cond3 i) (h4 : cond4 i)
    (x0 : Vec F S128x4096 .f32) (x1 : Vec F S128x4096 .f32) (x2 : Vec F S128x4096 .f32) (x3 : Vec F S128x4096 .f32) (x4 : Vec F S128x4096 .f32) (x5 : Vec F S128x4096 .f32) (x6 : Vec F S128x4096 .f32) (x7 : Vec F S4096x128 .f32) (x8 : Vec F S128x448 .f32) (x9 : Vec F S7x64 .f32) (x10 : Vec F S64x448 .f32) (x11 : Vec F S7x64 .f32) (x12 : Vec F S64x4 .f32) (x13 : Vec F S1x4 .f32) (xs0 : Vec F S4096x448 .f32) :
    VO14.read (Elt F) (VO14.writes (Elt F) VO14.junk (runD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0).1)
      = logpG i ![x0, x1, x2, x3, x4, x5, x6] (colS xs0) (rowB x9) (rowB x11) x12 x13 := by
  rw [View.read_writes_eq_canon _ _ _ (cover14_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA hC h3 h4 x0 x1 x2 x3 x4 x5 x6 x7 x8 x9 x10 x11 x12 x13 xs0)]
  unfold runD
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x4096) hz2, View.ld_unit_zero (S := S4096x128) hz2, View.ld_unit_zero (S := S128x448) hz2, View.ld_unit_zero (S := S64x448) hz2, View.ld_unit_zero (S := S64x4) hz2, View.ld_unit_zero (S := S1x4) hz2, View.ld_unit_zero (S := S4096x64) hz2, View.ld_unit_zero (S := S4096x448) hz2, View.ld_unit_zero (S := S128x64) hz2, View.ld_unit_zero (S := S128x4) hz2]
  rfl

end Cert.Kernel.Hand

end
-- ==== Proof.KBUpd.lean ====
/-
# The second scratch after a point of layer 0 holds the first layer's output through that point's rows

At point `t` of layer 0 the body stores its block — 128 rows of the first layer's output — into the second scratch through
one rectangle of 128 × 64 entries at row offset `128 · t`. If the scratch held the first layer's output on all rows below
`128 · t` before the store, it holds it on all rows below `128 · (t + 1)` after: a row below the rectangle is not touched,
and a row inside it reads the stored block at its own place, which is how the whole first-layer output was defined.
-/
import proofs.«132769_g22127671509052_cont_8to1_1196_24_alg».proof.Proof.KBRuns
import proofs.«132769_g22127671509052_cont_8to1_1196_24_alg».proof.Proof.KBVals
import Idealize.ShloMosaic.Lib.ValueIdx
import Idealize.ShloMosaic.Lib.Writes

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-- The store's offsets at a point of layer 0: row `128 · t`, column 0. -/
theorem off1_eq : ∀ t : Fin cfg0.N, t.val < 32 → k0_off1 (grid0.coords t) = ![128 * t.val, 0] :=
  (by decide +kernel : ∀ t : Fin grid0.N, t.val < 32 → k0_off1 (grid0.coords t) = ![128 * t.val, 0])

/-- One store of layer 0 extends the rows on which the second scratch holds the first layer's output by the
    point's 128 rows. -/
theorem upd_inv (m : (ℓ : Loc nD τ sig) → Buf (Elt F) ℓ) (c : Dev nD) (t : Fin cfg0.N) (ht : t.val < 32)
    (h : Vec F S4096x64 .f32) (hprev : ∀ y : S4096x64.Idx, (y 0).val < 128 * t.val → h y = H1val m c y)
    (inb : ∀ a, k0_off1 (grid0.coords t) a + S128x64.size a ≤ S4096x64.size a) (hw : scH.IsWhole)
    (y : S4096x64.Idx) (hy : (y 0).val < 128 * (t.val + 1)) :
    scH.view.read (Elt F) (scH.view.writes (Elt F) (hw.unread h)
        [⟨Rect.unit (s := S4096x64) (k0_off1 (grid0.coords t)) S128x64.size inb, accAt m c t (S1val m c)⟩]) y
      = H1val m c y := by
  have hoff := off1_eq t ht
  have hoff0 : k0_off1 (grid0.coords t) 0 = 128 * t.val := by rw [hoff]; rfl
  have hoff1 : k0_off1 (grid0.coords t) 1 = 0 := by rw [hoff]; rfl
  by_cases hlt : (y 0).val < 128 * t.val
  · rw [View.read_writes_apply_of_forall_not_mem, Memref.IsWhole.read_unread]
    · exact hprev y hlt
    · intro p hp
      rw [List.mem_singleton] at hp
      subst hp
      show y ∉ (Rect.unit (s := S4096x64) (k0_off1 (grid0.coords t)) S128x64.size inb).set
      rw [Rect.mem_set_unit]
      intro hall
      have h0 := (hall 0).1
      rw [hoff0] at h0
      exact absurd hlt (Nat.not_lt.mpr h0)
  · have hge : 128 * t.val ≤ (y 0).val := Nat.le_of_not_lt hlt
    have hy1 : (y 1).val < 64 := (y 1).isLt
    obtain ⟨x, hyx, hx0, hx1⟩ : ∃ x : S128x64.Idx,
        y = (Rect.unit (s := S4096x64) (k0_off1 (grid0.coords t)) S128x64.size inb).emb x
          ∧ (x 0).val = (y 0).val - 128 * t.val ∧ (x 1).val = (y 1).val := by
      refine ⟨ix2 (⟨(y 0).val - 128 * t.val, by omega⟩ : Fin 128) (⟨(y 1).val, hy1⟩ : Fin 64), ?_, rfl, rfl⟩
      funext a
      apply Fin.ext
      rw [Rect.emb_apply, Rect.off_unit, Rect.stride_unit]
      match a with
      | ⟨0, _⟩ =>
        show (y 0).val = k0_off1 (grid0.coords t) 0 + 1 * ((y 0).val - 128 * t.val)
        rw [hoff0]
        omega
      | ⟨1, _⟩ =>
        show (y 1).val = k0_off1 (grid0.coords t) 1 + 1 * (y 1).val
        rw [hoff1]
        omega
    have hp : ptOfRow (y 0) = t := Fin.ext (by show (y 0).val / 128 = t.val; omega)
    have hx : ix2 (inBlk (y 0)) (y 1) = x := by
      funext a
      apply Fin.ext
      match a with
      | ⟨0, _⟩ => show (y 0).val % 128 = (x 0).val; omega
      | ⟨1, _⟩ => show (y 1).val = (x 1).val; omega
    have key : H1val m c y = accAt m c t (S1val m c) x := by
      show accAt m c (ptOfRow (y 0)) (S1val m c) (ix2 (inBlk (y 0)) (y 1)) = _
      rw [hp]
      exact congrArg (accAt m c t (S1val m c)) hx
    rw [key, hyx]
    exact View.read_writes_cons_emb _ _ _ _ _ _

/-- Contents that agree with the first layer's output on every row below `128 · 32` are the first layer's output. -/
theorem full_of_inv (m : (ℓ : Loc nD τ sig) → Buf (Elt F) ℓ) (c : Dev nD) (h : Vec F S4096x64 .f32)
    (hall : ∀ y : S4096x64.Idx, (y 0).val < 128 * 32 → h y = H1val m c y) : h = H1val m c :=
  funext fun y => hall y (by have h0 : (y 0).val < 4096 := (y 0).isLt; omega)

end Cert.Kernel.Hand

end
-- ==== Proof.KBBody.lean ====
/-
# The kernel body at every grid point: the proof data and the body obligation

The proof data names what every window's staging buffer holds after the body at each point: an input its block; an output
window, at a point of layer 1, the block of the second layer's output and of its read-out's log-softmax (through layer 0 the
output windows rest and are not consulted). Between points the region's invariant holds the two scratch buffers at contents
`s`, `h` with: through layer 0 after its first point, `s` = features · weights and the rows of `h` below 128 · (points done)
are the first layer's output; through layer 1 after its first point, `s` = (first layer's output) · weights.
-/
import proofs.«132769_g22127671509052_cont_8to1_1196_24_alg».proof.Proof.KBValA
import proofs.«132769_g22127671509052_cont_8to1_1196_24_alg».proof.Proof.KBValB
import proofs.«132769_g22127671509052_cont_8to1_1196_24_alg».proof.Proof.KBValC
import proofs.«132769_g22127671509052_cont_8to1_1196_24_alg».proof.Proof.KBValD
import proofs.«132769_g22127671509052_cont_8to1_1196_24_alg».proof.Proof.KBUpd

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at a point, as the pipeline passes it, and its wholeness. -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x4096 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x448 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S7x64 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S64x448 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S7x64 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S64x4 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x4 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x4 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S128x64 .f32 := win0_15.stage (cfg0.slots t 15)
abbrev hs15 (t : Fin cfg0.N) : (ms15 t).IsWhole := hstage0_15 ((cfg0.slots t 15).cast nbuf0_15)

theorem N_64 : cfg0.N = 64 := N_0

/-- What the two scratch buffers hold before point `n` (after point `n - 1`). -/
def Inv (c : Dev nD) (n : ℕ) (s : Vec F S4096x448 .f32) (h : Vec F S4096x64 .f32) : Prop :=
  (1 ≤ n → n ≤ 32 → s = S1val m c ∧ ∀ y : S4096x64.Idx, (y 0).val < 128 * n → h y = H1val m c y)
    ∧ (33 ≤ n → s = S2val m c)

/-- The region's invariant before point `n`: the two scratch buffers at contents the relation above describes, and the
    generator register at some state. -/
def PhiS (c : Dev nD) (n : ℕ) : sProp 𝕄 :=
  iprop(∃ s h, ⌜Inv m c n s h⌝ ∗ owns (c : Thread nD τ) scS fullShare s ∗ owns (c : Thread nD τ) scH fullShare h ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => O14 m c t
    | ⟨15, _⟩ => O15 m c t
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = O14 m c t := by dsimp only [dats]
theorem after15 (c : Dev nD) (t : Fin cfg0.N) : (dats m 0 c).after 15 t = O15 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem tFirst_of (t : Fin cfg0.N) (h : t.val = 0) : t = tFirst := Fin.ext h
theorem tSecond_of (t : Fin cfg0.N) (h : t.val = 32) : t = tSecond := Fin.ext h

set_option maxHeartbeats 8000000 in
/-- The body at any point: the closed forms say which of the four branches' combinations the point is in; the matching
    whole-body run applies; what its stores leave is read back by the value lemmas, which re-establishes the scratch
    relation at the next point and gives the output windows their named contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) from rfl, show (dats m 0 c).Φ t.castSucc = PhiS m c t.val from by dsimp only [dats]; simp only [Fin.coe_castSucc]]
  have hN : t.val < 64 := lt_of_lt_of_eq t.isLt N_64
  rw [show (dats m 0 c).leavesExact 0 t = owns (c : Thread nD τ) (ms0 t) fullShare ((dats m 0 c).after 0 t) from by
    unfold Dat.leavesExact; rw [live_in 0 (by decide) t], after0]
  rw [show (dats m 0 c).leavesExact 1 t = owns (c : Thread nD τ) (ms1 t) fullShare ((dats m 0 c).after 1 t) from by
    unfold Dat.leavesExact; rw [live_in 1 (by decide) t], after1]
  rw [show (dats m 0 c).leavesExact 2 t = owns (c : Thread nD τ) (ms2 t) fullShare ((dats m 0 c).after 2 t) from by
    unfold Dat.leavesExact; rw [live_in 2 (by decide) t], after2]
  rw [show (dats m 0 c).leavesExact 3 t = owns (c : Thread nD τ) (ms3 t) fullShare ((dats m 0 c).after 3 t) from by
    unfold Dat.leavesExact; rw [live_in 3 (by decide) t], after3]
  rw [show (dats m 0 c).leavesExact 4 t = owns (c : Thread nD τ) (ms4 t) fullShare ((dats m 0 c).after 4 t) from by
    unfold Dat.leavesExact; rw [live_in 4 (by decide) t], after4]
  rw [show (dats m 0 c).leavesExact 5 t = owns (c : Thread nD τ) (ms5 t) fullShare ((dats m 0 c).after 5 t) from by
    unfold Dat.leavesExact; rw [live_in 5 (by decide) t], after5]
  rw [show (dats m 0 c).leavesExact 6 t = owns (c : Thread nD τ) (ms6 t) fullShare ((dats m 0 c).after 6 t) from by
    unfold Dat.leavesExact; rw [live_in 6 (by decide) t], after6]
  rw [show (dats m 0 c).leavesExact 7 t = owns (c : Thread nD τ) (ms7 t) fullShare ((dats m 0 c).after 7 t) from by
    unfold Dat.leavesExact; rw [live_in 7 (by decide) t], after7]
  rw [show (dats m 0 c).leavesExact 8 t = owns (c : Thread nD τ) (ms8 t) fullShare ((dats m 0 c).after 8 t) from by
    unfold Dat.leavesExact; rw [live_in 8 (by decide) t], after8]
  rw [show (dats m 0 c).leavesExact 9 t = owns (c : Thread nD τ) (ms9 t) fullShare ((dats m 0 c).after 9 t) from by
    unfold Dat.leavesExact; rw [live_in 9 (by decide) t], after9]
  rw [show (dats m 0 c).leavesExact 10 t = owns (c : Thread nD τ) (ms10 t) fullShare ((dats m 0 c).after 10 t) from by
    unfold Dat.leavesExact; rw [live_in 10 (by decide) t], after10]
  rw [show (dats m 0 c).leavesExact 11 t = owns (c : Thread nD τ) (ms11 t) fullShare ((dats m 0 c).after 11 t) from by
    unfold Dat.leavesExact; rw [live_in 11 (by decide) t], after11]
  rw [show (dats m 0 c).leavesExact 12 t = owns (c : Thread nD τ) (ms12 t) fullShare ((dats m 0 c).after 12 t) from by
    unfold Dat.leavesExact; rw [live_in 12 (by decide) t], after12]
  rw [show (dats m 0 c).leavesExact 13 t = owns (c : Thread nD τ) (ms13 t) fullShare ((dats m 0 c).after 13 t) from by
    unfold Dat.leavesExact; rw [live_in 13 (by decide) t], after13]
  by_cases h32 : t.val < 32
  · rw [Dat.leavesExact_idle (dats m 0 c) 14 t (idle14 t h32) (noFlush14 t h32),
      Dat.leavesExact_idle (dats m 0 c) 15 t (idle15 t h32) (noFlush15 t h32)]
    unfold PhiS
    by_cases hz : t.val = 0
    · iintro ⟨⟨%s, %h, -, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexists _; iexact HS
      isplitl [HH]; · iexact HH
      iintro ⟨H0, H1, H2, H3, H4, H5, H6, H7, H8, H9, H10, H11, H12, H13, H14, H15, ⟨%es, HS⟩, HH⟩
      isplitl [HS HH Hg]
      · iexists _, _
        isplitr
        swap
        · isplitl [HS]
          · unfold owns; iexists _; isplitr
            swap; · iexact HS
            ipureintro; rfl
          isplitl [HH]
          · unfold owns; iexists _; isplitr
            swap; · iexact HH
            ipureintro; rfl
          iexact Hg
        · ipureintro
          refine ⟨fun _ _ => ⟨?_, fun y hy => ?_⟩, fun h33 => by omega⟩
          · rw [View.read_writes_of_cover _ _ scS.view scS.view.junk _ (scover_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h), sS_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h]
            obtain rfl := tFirst_of t hz
            rfl
          · rw [pieces_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) ((hcondA t).mpr hz) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h]
            have e := upd_inv m c t h32 h (fun y hy => by rw [hz] at hy; omega) (k0_off1_inb (grid0.coords t) ((hcond3 t).mpr h32)) (Memref.isWhole_whole _) y hy
            rw [← e]
            have hs : k0_pay4 (iblk m c 7 t) (iblk m c 8 t) = S1val m c := by obtain rfl := tFirst_of t hz; rfl
            rw [hs]
            rfl
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · iintro ⟨⟨%s, %h, %hinv, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      obtain ⟨hs, hh⟩ := hinv.1 (by omega) (by omega)
      subst hs
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => hz ((hcondA t).mp h)) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S1val m c) h).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS]; · iexact HS
      isplitl [HH]; · iexact HH
      iintro ⟨H0, H1, H2, H3, H4, H5, H6, H7, H8, H9, H10, H11, H12, H13, H14, H15, HS, HH⟩
      isplitl [HS HH Hg]
      · iexists _, _
        isplitr
        swap
        · isplitl [HS]; · iexact HS
          isplitl [HH]
          · unfold owns; iexists _; isplitr
            swap; · iexact HH
            ipureintro; rfl
          iexact Hg
        · ipureintro
          refine ⟨fun _ _ => ⟨rfl, fun y hy => ?_⟩, fun h33 => by omega⟩
          rw [pieces_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => hz ((hcondA t).mp h)) (fun h => by have := (hcondC t).mp h; omega) ((hcond3 t).mpr h32) (fun h => by have := (hcond4 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S1val m c) h]
          exact upd_inv m c t h32 h hh (k0_off1_inb (grid0.coords t) ((hcond3 t).mpr h32)) (Memref.isWhole_whole _) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · rw [show (dats m 0 c).leavesExact 14 t = owns (c : Thread nD τ) (ms14 t) fullShare ((dats m 0 c).after 14 t) from by
      unfold Dat.leavesExact; rw [live14 t (by omega)], after14]
    rw [show (dats m 0 c).leavesExact 15 t = owns (c : Thread nD τ) (ms15 t) fullShare ((dats m 0 c).after 15 t) from by
      unfold Dat.leavesExact; rw [live15 t (by omega)], after15]
    unfold PhiS
    by_cases h0 : t.val = 32
    · iintro ⟨⟨%s, %h, %hinv, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      obtain ⟨-, hh⟩ := hinv.1 (by omega) (by omega)
      obtain rfl : h = H1val m c := full_of_inv m c h (fun y hy => hh y (by rw [h0]; exact hy))
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS]; · iexists _; iexact HS
      isplitl [HH]; · iexact HH
      iintro ⟨H0, H1, H2, H3, H4, H5, H6, H7, H8, H9, H10, H11, H12, H13, ⟨%e14, H14⟩, ⟨%e15, H15⟩, ⟨%es, HS⟩, HH⟩
      have hS2 : k0_pay5 (H1val m c) (iblk m c 10 t) = S2val m c := by obtain rfl := tSecond_of t h0; rfl
      isplitl [HS HH Hg]
      · iexists _, _
        isplitr
        swap
        · isplitl [HS]
          · unfold owns; iexists _; isplitr
            swap; · iexact HS
            ipureintro; rfl
          isplitl [HH]; · iexact HH
          iexact Hg
        · ipureintro
          refine ⟨fun _ h32' => by omega, fun _ => ?_⟩
          rw [View.read_writes_of_cover _ _ scS.view scS.view.junk _ (scover_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)), sS_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)]
          exact hS2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        refine (View.read_writes_of_cover _ _ VO14c VO14c.junk _ (cover14_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c))).trans ((out14_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)).trans ?_)
        rw [hS2]; rfl
      unfold owns; iexists _; isplitr
      swap; · iexact H15
      ipureintro
      refine (View.read_writes_of_cover _ _ VO15c VO15c.junk _ (cover15_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c))).trans ((out15_C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) ((hcondC t).mpr h0) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (H1val m c)).trans ?_)
      rw [hS2]; rfl
    · iintro ⟨⟨%s, %h, %hinv, HS, HH, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      obtain rfl : s = S2val m c := hinv.2 (by omega)
      iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS]; · iexact HS
      isplitl [HH]; · iexists _; iexact HH
      iintro ⟨H0, H1, H2, H3, H4, H5, H6, H7, H8, H9, H10, H11, H12, H13, ⟨%e14, H14⟩, ⟨%e15, H15⟩, HS, ⟨%dh, HH⟩⟩
      isplitl [HS HH Hg]
      · iexists _, _
        isplitr
        swap
        · isplitl [HS]; · iexact HS
          isplitl [HH]; · iexact HH
          iexact Hg
        · ipureintro
          exact ⟨fun _ h32' => by omega, fun _ => rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro
        exact (View.read_writes_of_cover _ _ VO14 VO14.junk _ (cover14_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))).trans (out14_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))
      unfold owns; iexists _; isplitr
      swap; · iexact H15
      ipureintro
      exact (View.read_writes_of_cover _ _ VO15 VO15.junk _ (cover15_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))).trans (out15_D c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) scS (Memref.isWhole_whole _) scH (Memref.isWhole_whole _) (fun h => by have := (hcondA t).mp h; omega) (fun h => h0 ((hcondC t).mp h)) (fun h => h32 ((hcond3 t).mp h)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (S2val m c))

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%s, HS⟩, ⟨%h, HH⟩⟩, Hg⟩
  iexists s, h
  isplitr
  · ipureintro; exact ⟨fun h1 => by omega, fun h33 => by omega⟩
  isplitl [HS]; · iexact HS
  isplitl [HH]; · iexact HH
  iexact Hg

/-- After the last point the invariant gives the class's back: the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨%s, %h, -, HS, HH, Hg⟩
  isplitr [Hg]
  · isplitl [HS]
    · iexists _; iexact HS
    iexists _; iexact HH
  iexact Hg

set_option backward.isDefEq.respectTransparency.types false in
/-- At the compiled mesh, from any memory with zero counters: every weakly fair execution of @main terminates, nothing
    faulting, every array of the pipeline ending at what the library computes from the proof data and every other
    unscoped buffer as it was at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Hand

end
-- ==== Proof.Spec.lean ====
import Idealize.ShloMosaic.PureOps.Ideal
import Idealize.ShloMosaic.PureOps.Ideal.Laws
import Idealize.ShloMosaic.Lib.ValueIdx

/-!
# What both programs compute, index by index, on the extended reals

A two-layer graph network over seven relations, each with a dense 4096 × 4096 adjacency matrix.
One layer sends node features `h` (4096 rows) to

  `layer adj h W b (n, k) = ∑ i : Fin 7, max ((∑ p, adj i (n, p) · (∑ f, h (p, f) · W i f k)) + b i k) 0`,

the rectified graph convolution `adj i · (h · W i) + b i` summed over the relations `i`. The first layer uses
the weights `W1 i`, `b1 i`; the second uses `W2 (share i)`, `b2 (share i)`, where `share` sends relation 4
to relation 3's weights and every other relation to its own. A read-out `h2 · Wro + bro` gives four logits per
node, and the first result is their log-softmax, stated in its plain form `l c - log (∑ c', exp (l c'))`
(for finite logits the max-subtracting forms the two programs use are this one). The second result is `h2`.
-/

noncomputable section

namespace Cert.Spec

open Idealize.ShloMosaic Idealize.ShloMosaic.ValueIdx

/-- A matrix, a rank-3 array and a vector of extended reals over literal extents. -/
abbrev Mat (a b : Nat) := (⟨2, ![a, b]⟩ : Shape).Idx → EReal
abbrev Ten (a b c : Nat) := (⟨3, ![a, b, c]⟩ : Shape).Idx → EReal
abbrev Vec1 (a : Nat) := (⟨1, ![a]⟩ : Shape).Idx → EReal

/-- The fourteen argument arrays: node features, the seven adjacency matrices, both layers' weights and
    biases per relation, and the read-out. -/
structure Args where
  x : Mat 4096 128
  adj : Fin 7 → Mat 4096 4096
  W1 : Ten 7 128 64
  b1 : Mat 7 64
  W2 : Ten 7 64 64
  b2 : Mat 7 64
  Wro : Mat 64 4
  bro : Vec1 4

/-- Every entry of every argument is a real number. -/
structure Args.AllReal (a : Args) : Prop where
  x : ∀ j, ∃ r : ℝ, a.x j = (r : EReal)
  adj : ∀ i j, ∃ r : ℝ, a.adj i j = (r : EReal)
  W1 : ∀ j, ∃ r : ℝ, a.W1 j = (r : EReal)
  b1 : ∀ j, ∃ r : ℝ, a.b1 j = (r : EReal)
  W2 : ∀ j, ∃ r : ℝ, a.W2 j = (r : EReal)
  b2 : ∀ j, ∃ r : ℝ, a.b2 j = (r : EReal)
  Wro : ∀ j, ∃ r : ℝ, a.Wro j = (r : EReal)
  bro : ∀ j, ∃ r : ℝ, a.bro j = (r : EReal)

/-- The argument record from the fourteen arrays in the programs' argument order: features, the seven
    adjacency matrices, first-layer weights and biases, second-layer weights and biases, the read-out. -/
def mkArgs (x0 : Mat 4096 128) (x1 x2 x3 x4 x5 x6 x7 : Mat 4096 4096) (x8 : Ten 7 128 64) (x9 : Mat 7 64)
    (x10 : Ten 7 64 64) (x11 : Mat 7 64) (x12 : Mat 64 4) (x13 : Vec1 4) : Args :=
  ⟨x0, ![x1, x2, x3, x4, x5, x6, x7], x8, x9, x10, x11, x12, x13⟩

/-- Which relation's second-layer weights relation `i` uses: relation 4 shares relation 3's. -/
def share : Fin 7 → Fin 7 := ![0, 1, 2, 3, 3, 5, 6]

/-- One layer at node `n`, output feature `k`: over the seven relations, the rectified
    `(adj i · (h · W i)) (n, k) + b i k`, summed. -/
def layer {K : Nat} (adj : Fin 7 → Mat 4096 4096) (h : Mat 4096 K) (W : Fin 7 → Fin K → Fin 64 → EReal)
    (b : Fin 7 → Fin 64 → EReal) (n : Fin 4096) (k : Fin 64) : EReal :=
  ∑ i : Fin 7, max ((∑ p : Fin 4096, adj i (ix2 n p) * (∑ f : Fin K, h (ix2 p f) * W i f k)) + b i k) 0

/-- The first layer's output. -/
def h1 (a : Args) : Mat 4096 64 := fun j =>
  layer a.adj a.x (fun i f k => a.W1 (ix3 i f k)) (fun i k => a.b1 (ix2 i k)) (j 0) (j 1)

/-- The second layer's output: the second result. -/
def h2 (a : Args) : Mat 4096 64 := fun j =>
  layer a.adj (h1 a) (fun i f k => a.W2 (ix3 (share i) f k)) (fun i k => a.b2 (ix2 (share i) k)) (j 0) (j 1)

/-- The read-out's logit of node `n`, class `c`. -/
def logit (a : Args) (n : Fin 4096) (c : Fin 4) : EReal :=
  (∑ k : Fin 64, h2 a (ix2 n k) * a.Wro (ix2 k c)) + a.bro (ix1 c)

/-- The first result: the log-softmax of each node's four logits, in its plain form. -/
def logp (a : Args) : Mat 4096 4 := fun j =>
  logit a (j 0) (j 1) - Ideal.log (∑ c : Fin 4, Ideal.exp (logit a (j 0) c))

end Cert.Spec

end
-- ==== Proof.BridgeBlk.lean ====
import proofs.«132769_g22127671509052_cont_8to1_1196_24_alg».proof.Proof.KIVals
import proofs.«132769_g22127671509052_cont_8to1_1196_24_alg».proof.Proof.Spec

/-!
# The kernel's blocks, slices and bias rows read at an index

The grid has 2 × 32 points; point `t` works on rows `128 · (t mod 32) … 128 · (t mod 32) + 127`. Each of the seven
adjacency windows hands the body a [128, 4096] block: those rows of its matrix, all columns. The other seven input
windows stage their arrays whole, so their block at every point is the array itself. An element of a block sits in its
array, on each axis, at (block index) × (block size) + (coordinate inside the block).

The body reads the first scratch [4096, 448] in seven slices of 64 columns, slice `r` being columns
`64 r … 64 r + 63`, and a [7, 64] bias array in its seven rows.
-/

set_option maxRecDepth 16384

noncomputable section

namespace Cert.BridgeSide

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (c : Dev nD)

/-- The specification's argument record read off core `c`'s memory. -/
abbrev kArgs : Cert.Spec.Args :=
  Cert.Spec.mkArgs
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

/-! ## The adjacency windows -/

/-- The seven adjacency windows' index maps over the grid: block row `t mod 32`, block column 0. -/
theorem idxAdj : ∀ t : Fin cfg0.N,
    (win0_0.index t (0 : Fin 2) = t.val % 32 ∧ win0_0.index t (1 : Fin 2) = 0)
    ∧ (win0_1.index t (0 : Fin 2) = t.val % 32 ∧ win0_1.index t (1 : Fin 2) = 0)
    ∧ (win0_2.index t (0 : Fin 2) = t.val % 32 ∧ win0_2.index t (1 : Fin 2) = 0)
    ∧ (win0_3.index t (0 : Fin 2) = t.val % 32 ∧ win0_3.index t (1 : Fin 2) = 0)
    ∧ (win0_4.index t (0 : Fin 2) = t.val % 32 ∧ win0_4.index t (1 : Fin 2) = 0)
    ∧ (win0_5.index t (0 : Fin 2) = t.val % 32 ∧ win0_5.index t (1 : Fin 2) = 0)
    ∧ (win0_6.index t (0 : Fin 2) = t.val % 32 ∧ win0_6.index t (1 : Fin 2) = 0) :=
  (by decide +kernel : ∀ t : Fin grid0.N, _)

/-- Window 0's block at point `t` holds rows `128 · (t mod 32) …` of relation 0's adjacency matrix. -/
theorem blk0_apply (t : Fin cfg0.N) (q : Fin 128) (p : Fin 4096) (hq : 128 * (t.val % 32) + q.val < 4096) :
    (iblk m c 0 t : S128x4096.Idx → EReal) (ix2 q p)
      = (m ((c : Thread nD τ).loc main_arg1) : S4096x4096.Idx → EReal) (ix2 ⟨128 * (t.val % 32) + q.val, hq⟩ p) := by
  show V m c main_arg1 (((cfg0.win 0).blk t).view.emb (ix2 q p)) = _
  rw [V_main_arg1]
  refine congrArg _ (funext fun a => Fin.ext ?_)
  obtain ⟨e0, e1⟩ := (idxAdj t).1
  match a with
  | ⟨0, _⟩ => show win0_0.index t (0 : Fin 2) * 128 + 1 * q.val = 128 * (t.val % 32) + q.val; omega
  | ⟨1, _⟩ => show win0_0.index t (1 : Fin 2) * 4096 + 1 * p.val = p.val; omega

/-- Window 1's block at point `t` holds rows `128 · (t mod 32) …` of relation 1's adjacency matrix. -/
theorem blk1_apply (t : Fin cfg0.N) (q : Fin 128) (p : Fin 4096) (hq : 128 * (t.val % 32) + q.val < 4096) :
    (iblk m c 1 t : S128x4096.Idx → EReal) (ix2 q p)
      = (m ((c : Thread nD τ).loc main_arg2) : S4096x4096.Idx → EReal) (ix2 ⟨128 * (t.val % 32) + q.val, hq⟩ p) := by
  show V m c main_arg2 (((cfg0.win 1).blk t).view.emb (ix2 q p)) = _
  rw [V_main_arg2]
  refine congrArg _ (funext fun a => Fin.ext ?_)
  obtain ⟨e0, e1⟩ := (idxAdj t).2.1
  match a with
  | ⟨0, _⟩ => show win0_1.index t (0 : Fin 2) * 128 + 1 * q.val = 128 * (t.val % 32) + q.val; omega
  | ⟨1, _⟩ => show win0_1.index t (1 : Fin 2) * 4096 + 1 * p.val = p.val; omega

/-- Window 2's block at point `t` holds rows `128 · (t mod 32) …` of relation 2's adjacency matrix. -/
theorem blk2_apply (t : Fin cfg0.N) (q : Fin 128) (p : Fin 4096) (hq : 128 * (t.val % 32) + q.val < 4096) :
    (iblk m c 2 t : S128x4096.Idx → EReal) (ix2 q p)
      = (m ((c : Thread nD τ).loc main_arg3) : S4096x4096.Idx → EReal) (ix2 ⟨128 * (t.val % 32) + q.val, hq⟩ p) := by
  show V m c main_arg3 (((cfg0.win 2).blk t).view.emb (ix2 q p)) = _
  rw [V_main_arg3]
  refine congrArg _ (funext fun a => Fin.ext ?_)
  obtain ⟨e0, e1⟩ := (idxAdj t).2.2.1
  match a with
  | ⟨0, _⟩ => show win0_2.index t (0 : Fin 2) * 128 + 1 * q.val = 128 * (t.val % 32) + q.val; omega
  | ⟨1, _⟩ => show win0_2.index t (1 : Fin 2) * 4096 + 1 * p.val = p.val; omega

/-- Window 3's block at point `t` holds rows `128 · (t mod 32) …` of relation 3's adjacency matrix. -/
theorem blk3_apply (t : Fin cfg0.N) (q : Fin 128) (p : Fin 4096) (hq : 128 * (t.val % 32) + q.val < 4096) :
    (iblk m c 3 t : S128x4096.Idx → EReal) (ix2 q p)
      = (m ((c : Thread nD τ).loc main_arg4) : S4096x4096.Idx → EReal) (ix2 ⟨128 * (t.val % 32) + q.val, hq⟩ p) := by
  show V m c main_arg4 (((cfg0.win 3).blk t).view.emb (ix2 q p)) = _
  rw [V_main_arg4]
  refine congrArg _ (funext fun a => Fin.ext ?_)
  obtain ⟨e0, e1⟩ := (idxAdj t).2.2.2.1
  match a with
  | ⟨0, _⟩ => show win0_3.index t (0 : Fin 2) * 128 + 1 * q.val = 128 * (t.val % 32) + q.val; omega
  | ⟨1, _⟩ => show win0_3.index t (1 : Fin 2) * 4096 + 1 * p.val = p.val; omega

/-- Window 4's block at point `t` holds rows `128 · (t mod 32) …` of relation 4's adjacency matrix. -/
theorem blk4_apply (t : Fin cfg0.N) (q : Fin 128) (p : Fin 4096) (hq : 128 * (t.val % 32) + q.val < 4096) :
    (iblk m c 4 t : S128x4096.Idx → EReal) (ix2 q p)
      = (m ((c : Thread nD τ).loc main_arg5) : S4096x4096.Idx → EReal) (ix2 ⟨128 * (t.val % 32) + q.val, hq⟩ p) := by
  show V m c main_arg5 (((cfg0.win 4).blk t).view.emb (ix2 q p)) = _
  rw [V_main_arg5]
  refine congrArg _ (funext fun a => Fin.ext ?_)
  obtain ⟨e0, e1⟩ := (idxAdj t).2.2.2.2.1
  match a with
  | ⟨0, _⟩ => show win0_4.index t (0 : Fin 2) * 128 + 1 * q.val = 128 * (t.val % 32) + q.val; omega
  | ⟨1, _⟩ => show win0_4.index t (1 : Fin 2) * 4096 + 1 * p.val = p.val; omega

/-- Window 5's block at point `t` holds rows `128 · (t mod 32) …` of relation 5's adjacency matrix. -/
theorem blk5_apply (t : Fin cfg0.N) (q : Fin 128) (p : Fin 4096) (hq : 128 * (t.val % 32) + q.val < 4096) :
    (iblk m c 5 t : S128x4096.Idx → EReal) (ix2 q p)
      = (m ((c : Thread nD τ).loc main_arg6) : S4096x4096.Idx → EReal) (ix2 ⟨128 * (t.val % 32) + q.val, hq⟩ p) := by
  show V m c main_arg6 (((cfg0.win 5).blk t).view.emb (ix2 q p)) = _
  rw [V_main_arg6]
  refine congrArg _ (funext fun a => Fin.ext ?_)
  obtain ⟨e0, e1⟩ := (idxAdj t).2.2.2.2.2.1
  match a with
  | ⟨0, _⟩ => show win0_5.index t (0 : Fin 2) * 128 + 1 * q.val = 128 * (t.val % 32) + q.val; omega
  | ⟨1, _⟩ => show win0_5.index t (1 : Fin 2) * 4096 + 1 * p.val = p.val; omega

/-- Window 6's block at point `t` holds rows `128 · (t mod 32) …` of relation 6's adjacency matrix. -/
theorem blk6_apply (t : Fin cfg0.N) (q : Fin 128) (p : Fin 4096) (hq : 128 * (t.val % 32) + q.val < 4096) :
    (iblk m c 6 t : S128x4096.Idx → EReal) (ix2 q p)
      = (m ((c : Thread nD τ).loc main_arg7) : S4096x4096.Idx → EReal) (ix2 ⟨128 * (t.val % 32) + q.val, hq⟩ p) := by
  show V m c main_arg7 (((cfg0.win 6).blk t).view.emb (ix2 q p)) = _
  rw [V_main_arg7]
  refine congrArg _ (funext fun a => Fin.ext ?_)
  obtain ⟨e0, e1⟩ := (idxAdj t).2.2.2.2.2.2
  match a with
  | ⟨0, _⟩ => show win0_6.index t (0 : Fin 2) * 128 + 1 * q.val = 128 * (t.val % 32) + q.val; omega
  | ⟨1, _⟩ => show win0_6.index t (1 : Fin 2) * 4096 + 1 * p.val = p.val; omega

/-- The seven adjacency blocks at point `t`, relation by relation, are rows `128 · (t mod 32) …` of the
    specification's adjacency matrices. -/
theorem blkA_apply (t : Fin cfg0.N) (r : Fin 7) (q : Fin 128) (p : Fin 4096) (hq : 128 * (t.val % 32) + q.val < 4096) :
    blkA m c t r (ix2 q p) = (kArgs m c).adj r (ix2 ⟨128 * (t.val % 32) + q.val, hq⟩ p) := by
  match r with
  | ⟨0, _⟩ => exact blk0_apply m c t q p hq
  | ⟨1, _⟩ => exact blk1_apply m c t q p hq
  | ⟨2, _⟩ => exact blk2_apply m c t q p hq
  | ⟨3, _⟩ => exact blk3_apply m c t q p hq
  | ⟨4, _⟩ => exact blk4_apply m c t q p hq
  | ⟨5, _⟩ => exact blk5_apply m c t q p hq
  | ⟨6, _⟩ => exact blk6_apply m c t q p hq

/-! ## The windows staged whole -/

/-- Window 7 stages the node features whole: its block at every point is the array. -/
theorem blk7_eq (t : Fin cfg0.N) :
    (iblk m c 7 t : S4096x128.Idx → EReal) = (m ((c : Thread nD τ).loc main_arg0) : S4096x128.Idx → EReal) := by
  funext y
  show V m c main_arg0 (((cfg0.win 7).blk t).view.emb y) = _
  rw [V_main_arg0]
  refine congrArg _ (funext fun a => Fin.ext ?_)
  match a with
  | ⟨0, _⟩ =>
    show win0_7.index t (0 : Fin 2) * 4096 + 1 * (y 0).val = (y 0).val
    have h0 : win0_7.index t (0 : Fin 2) = 0 := rfl
    omega
  | ⟨1, _⟩ =>
    show win0_7.index t (1 : Fin 2) * 128 + 1 * (y 1).val = (y 1).val
    have h1 : win0_7.index t (1 : Fin 2) = 0 := rfl
    omega

/-- Window 8 stages the first-layer weights laid side by side whole: its block at every point is the array. -/
theorem blk8_eq (t : Fin cfg0.N) :
    (iblk m c 8 t : S128x448.Idx → EReal) = (V m c main_v1 : S128x448.Idx → EReal) := by
  funext y
  show V m c main_v1 (((cfg0.win 8).blk t).view.emb y) = _
  show _ = V m c main_v1 y
  refine congrArg _ (funext fun a => Fin.ext ?_)
  match a with
  | ⟨0, _⟩ =>
    show win0_8.index t (0 : Fin 2) * 128 + 1 * (y 0).val = (y 0).val
    have h0 : win0_8.index t (0 : Fin 2) = 0 := rfl
    omega
  | ⟨1, _⟩ =>
    show win0_8.index t (1 : Fin 2) * 448 + 1 * (y 1).val = (y 1).val
    have h1 : win0_8.index t (1 : Fin 2) = 0 := rfl
    omega

/-- Window 9 stages the first-layer biases whole: its block at every point is the array. -/
theorem blk9_eq (t : Fin cfg0.N) :
    (iblk m c 9 t : S7x64.Idx → EReal) = (m ((c : Thread nD τ).loc main_arg9) : S7x64.Idx → EReal) := by
  funext y
  show V m c main_arg9 (((cfg0.win 9).blk t).view.emb y) = _
  rw [V_main_arg9]
  refine congrArg _ (funext fun a => Fin.ext ?_)
  match a with
  | ⟨0, _⟩ =>
    show win0_9.index t (0 : Fin 2) * 7 + 1 * (y 0).val = (y 0).val
    have h0 : win0_9.index t (0 : Fin 2) = 0 := rfl
    omega
  | ⟨1, _⟩ =>
    show win0_9.index t (1 : Fin 2) * 64 + 1 * (y 1).val = (y 1).val
    have h1 : win0_9.index t (1 : Fin 2) = 0 := rfl
    omega

/-- Window 10 stages the second-layer weights laid side by side whole: its block at every point is the array. -/
theorem blk10_eq (t : Fin cfg0.N) :
    (iblk m c 10 t : S64x448.Idx → EReal) = (V m c main_v10 : S64x448.Idx → EReal) := by
  funext y
  show V m c main_v10 (((cfg0.win 10).blk t).view.emb y) = _
  show _ = V m c main_v10 y
  refine congrArg _ (funext fun a => Fin.ext ?_)
  match a with
  | ⟨0, _⟩ =>
    show win0_10.index t (0 : Fin 2) * 64 + 1 * (y 0).val = (y 0).val
    have h0 : win0_10.index t (0 : Fin 2) = 0 := rfl
    omega
  | ⟨1, _⟩ =>
    show win0_10.index t (1 : Fin 2) * 448 + 1 * (y 1).val = (y 1).val
    have h1 : win0_10.index t (1 : Fin 2) = 0 := rfl
    omega

/-- Window 11 stages the second-layer biases whole: its block at every point is the array. -/
theorem blk11_eq (t : Fin cfg0.N) :
    (iblk m c 11 t : S7x64.Idx → EReal) = (V m c main_v17 : S7x64.Idx → EReal) := by
  funext y
  show V m c main_v17 (((cfg0.win 11).blk t).view.emb y) = _
  show _ = V m c main_v17 y
  refine congrArg _ (funext fun a => Fin.ext ?_)
  match a with
  | ⟨0, _⟩ =>
    show win0_11.index t (0 : Fin 2) * 7 + 1 * (y 0).val = (y 0).val
    have h0 : win0_11.index t (0 : Fin 2) = 0 := rfl
    omega
  | ⟨1, _⟩ =>
    show win0_11.index t (1 : Fin 2) * 64 + 1 * (y 1).val = (y 1).val
    have h1 : win0_11.index t (1 : Fin 2) = 0 := rfl
    omega

/-- Window 12 stages the read-out weights whole: its block at every point is the array. -/
theorem blk12_eq (t : Fin cfg0.N) :
    (iblk m c 12 t : S64x4.Idx → EReal) = (m ((c : Thread nD τ).loc main_arg12) : S64x4.Idx → EReal) := by
  funext y
  show V m c main_arg12 (((cfg0.win 12).blk t).view.emb y) = _
  rw [V_main_arg12]
  refine congrArg _ (funext fun a => Fin.ext ?_)
  match a with
  | ⟨0, _⟩ =>
    show win0_12.index t (0 : Fin 2) * 64 + 1 * (y 0).val = (y 0).val
    have h0 : win0_12.index t (0 : Fin 2) = 0 := rfl
    omega
  | ⟨1, _⟩ =>
    show win0_12.index t (1 : Fin 2) * 4 + 1 * (y 1).val = (y 1).val
    have h1 : win0_12.index t (1 : Fin 2) = 0 := rfl
    omega

/-- Window 13 stages the read-out bias as a row whole: its block at every point is the array. -/
theorem blk13_eq (t : Fin cfg0.N) :
    (iblk m c 13 t : S1x4.Idx → EReal) = (V m c main_v18 : S1x4.Idx → EReal) := by
  funext y
  show V m c main_v18 (((cfg0.win 13).blk t).view.emb y) = _
  show _ = V m c main_v18 y
  refine congrArg _ (funext fun a => Fin.ext ?_)
  match a with
  | ⟨0, _⟩ =>
    show win0_13.index t (0 : Fin 2) * 1 + 1 * (y 0).val = (y 0).val
    have h0 : win0_13.index t (0 : Fin 2) = 0 := rfl
    omega
  | ⟨1, _⟩ =>
    show win0_13.index t (1 : Fin 2) * 4 + 1 * (y 1).val = (y 1).val
    have h1 : win0_13.index t (1 : Fin 2) = 0 := rfl
    omega

/-! ## The scratch's column slices and a bias array's rows -/

/-- Slice `r` of the first scratch at (p, k) is the scratch at (p, 64 r + k). -/
theorem colS_apply (s : Vec Ideal S4096x448 .f32) (r : Fin 7) (p : Fin 4096) (k : Fin 64) (h : 64 * r.val + k.val < 448) :
    colS s r (ix2 p k) = s (ix2 p ⟨64 * r.val + k.val, h⟩) := by
  match r with
  | ⟨0, _⟩ =>
    show s ((Rect.unit (s := S4096x448) ![0, 0] S4096x64.size inb_S4096x448_S4096x64_0_0).idx (ix2 p k)) = _
    refine congrArg s (funext fun a => Fin.ext ?_)
    match a with
    | ⟨0, _⟩ => show 0 + 1 * p.val = p.val; omega
    | ⟨1, _⟩ => show 0 + 1 * k.val = 64 * 0 + k.val; omega
  | ⟨1, _⟩ =>
    show s ((Rect.unit (s := S4096x448) ![0, 64] S4096x64.size inb_S4096x448_S4096x64_0_64).idx (ix2 p k)) = _
    refine congrArg s (funext fun a => Fin.ext ?_)
    match a with
    | ⟨0, _⟩ => show 0 + 1 * p.val = p.val; omega
    | ⟨1, _⟩ => show 64 + 1 * k.val = 64 * 1 + k.val; omega
  | ⟨2, _⟩ =>
    show s ((Rect.unit (s := S4096x448) ![0, 128] S4096x64.size inb_S4096x448_S4096x64_0_128).idx (ix2 p k)) = _
    refine congrArg s (funext fun a => Fin.ext ?_)
    match a with
    | ⟨0, _⟩ => show 0 + 1 * p.val = p.val; omega
    | ⟨1, _⟩ => show 128 + 1 * k.val = 64 * 2 + k.val; omega
  | ⟨3, _⟩ =>
    show s ((Rect.unit (s := S4096x448) ![0, 192] S4096x64.size inb_S4096x448_S4096x64_0_192).idx (ix2 p k)) = _
    refine congrArg s (funext fun a => Fin.ext ?_)
    match a with
    | ⟨0, _⟩ => show 0 + 1 * p.val = p.val; omega
    | ⟨1, _⟩ => show 192 + 1 * k.val = 64 * 3 + k.val; omega
  | ⟨4, _⟩ =>
    show s ((Rect.unit (s := S4096x448) ![0, 256] S4096x64.size inb_S4096x448_S4096x64_0_256).idx (ix2 p k)) = _
    refine congrArg s (funext fun a => Fin.ext ?_)
    match a with
    | ⟨0, _⟩ => show 0 + 1 * p.val = p.val; omega
    | ⟨1, _⟩ => show 256 + 1 * k.val = 64 * 4 + k.val; omega
  | ⟨5, _⟩ =>
    show s ((Rect.unit (s := S4096x448) ![0, 320] S4096x64.size inb_S4096x448_S4096x64_0_320).idx (ix2 p k)) = _
    refine congrArg s (funext fun a => Fin.ext ?_)
    match a with
    | ⟨0, _⟩ => show 0 + 1 * p.val = p.val; omega
    | ⟨1, _⟩ => show 320 + 1 * k.val = 64 * 5 + k.val; omega
  | ⟨6, _⟩ =>
    show s ((Rect.unit (s := S4096x448) ![0, 384] S4096x64.size inb_S4096x448_S4096x64_0_384).idx (ix2 p k)) = _
    refine congrArg s (funext fun a => Fin.ext ?_)
    match a with
    | ⟨0, _⟩ => show 0 + 1 * p.val = p.val; omega
    | ⟨1, _⟩ => show 384 + 1 * k.val = 64 * 6 + k.val; omega

/-- Row `r` of a [7, 64] array, as a [1, 64] vector, at (0, k) is the array at (r, k). -/
theorem rowB_apply (b : Vec Ideal S7x64 .f32) (r : Fin 7) (k : Fin 64) :
    rowB b r (ix2 (0 : Fin 1) k) = b (ix2 r k) := by
  match r with
  | ⟨0, _⟩ =>
    show b ((Rect.unit (s := S7x64) ![0, 0] S1x64.size inb_S7x64_S1x64_0_0).idx (ix2 (0 : Fin 1) k)) = _
    refine congrArg b (funext fun a => Fin.ext ?_)
    match a with
    | ⟨0, _⟩ => show 0 + 1 * 0 = 0; omega
    | ⟨1, _⟩ => show 0 + 1 * k.val = k.val; omega
  | ⟨1, _⟩ =>
    show b ((Rect.unit (s := S7x64) ![1, 0] S1x64.size inb_S7x64_S1x64_1_0).idx (ix2 (0 : Fin 1) k)) = _
    refine congrArg b (funext fun a => Fin.ext ?_)
    match a with
    | ⟨0, _⟩ => show 1 + 1 * 0 = 1; omega
    | ⟨1, _⟩ => show 0 + 1 * k.val = k.val; omega
  | ⟨2, _⟩ =>
    show b ((Rect.unit (s := S7x64) ![2, 0] S1x64.size inb_S7x64_S1x64_2_0).idx (ix2 (0 : Fin 1) k)) = _
    refine congrArg b (funext fun a => Fin.ext ?_)
    match a with
    | ⟨0, _⟩ => show 2 + 1 * 0 = 2; omega
    | ⟨1, _⟩ => show 0 + 1 * k.val = k.val; omega
  | ⟨3, _⟩ =>
    show b ((Rect.unit (s := S7x64) ![3, 0] S1x64.size inb_S7x64_S1x64_3_0).idx (ix2 (0 : Fin 1) k)) = _
    refine congrArg b (funext fun a => Fin.ext ?_)
    match a with
    | ⟨0, _⟩ => show 3 + 1 * 0 = 3; omega
    | ⟨1, _⟩ => show 0 + 1 * k.val = k.val; omega
  | ⟨4, _⟩ =>
    show b ((Rect.unit (s := S7x64) ![4, 0] S1x64.size inb_S7x64_S1x64_4_0).idx (ix2 (0 : Fin 1) k)) = _
    refine congrArg b (funext fun a => Fin.ext ?_)
    match a with
    | ⟨0, _⟩ => show 4 + 1 * 0 = 4; omega
    | ⟨1, _⟩ => show 0 + 1 * k.val = k.val; omega
  | ⟨5, _⟩ =>
    show b ((Rect.unit (s := S7x64) ![5, 0] S1x64.size inb_S7x64_S1x64_5_0).idx (ix2 (0 : Fin 1) k)) = _
    refine congrArg b (funext fun a => Fin.ext ?_)
    match a with
    | ⟨0, _⟩ => show 5 + 1 * 0 = 5; omega
    | ⟨1, _⟩ => show 0 + 1 * k.val = k.val; omega
  | ⟨6, _⟩ =>
    show b ((Rect.unit (s := S7x64) ![6, 0] S1x64.size inb_S7x64_S1x64_6_0).idx (ix2 (0 : Fin 1) k)) = _
    refine congrArg b (funext fun a => Fin.ext ?_)
    match a with
    | ⟨0, _⟩ => show 6 + 1 * 0 = 6; omega
    | ⟨1, _⟩ => show 0 + 1 * k.val = k.val; omega

end Cert.BridgeSide

end
-- ==== Proof.PayDot.lean ====
import proofs.«132769_g22127671509052_cont_8to1_1196_24_alg».proof.Proof.Gen.KernelIdeal.Skeleton
import Idealize.ShloMosaic.Lib.Pipeline.Value
import Idealize.ShloMosaic.Lib.ValueIdx
import Idealize.ShloMosaic.PureOps.Ideal.Laws

/-!
# The kernel's matrix products read at an index

On the extended reals a matrix product into a zero accumulator is, at row `p` and column `j`, the plain sum
`∑ f, x (p, f) · w (f, j)` over the contracted axis. This module states that for the four products the kernel
forms (features times the concatenated first-layer weights, first-layer output times the concatenated second-layer
weights, an adjacency block times a 64-column slice, the read-out) and for the two payloads that project the
features through all seven relations' weights at once.
-/

noncomputable section

namespace Cert.KernelSide

open Cert.KernelIdeal Cert.KernelIdeal.Gen Idealize.ShloMosaic Idealize.ShloMosaic.ValueIdx

/-! ### [4096, 128] times [128, 448] -/

theorem lhs0_4096_128_448 (i : S4096x448.Idx) (q : dot_S4096x128_S128x448_S4096x448_1_0_0_1_n_n.contr.Idx) :
    (dot_S4096x128_S128x448_S4096x448_1_0_0_1_n_n.lhsIdx i q 0).val = (i 0).val := by
  unfold DotDims.lhsIdx
  rw [dif_neg (show ¬(0 : Fin S4096x128.rank) ∈ dot_S4096x128_S128x448_S4096x448_1_0_0_1_n_n.lhsBatch by decide),
    dif_pos (show (0 : Fin S4096x128.rank) ∈ dot_S4096x128_S128x448_S4096x448_1_0_0_1_n_n.lhsNonContracting by decide)]
  rfl
theorem lhs1_4096_128_448 (i : S4096x448.Idx) (q : dot_S4096x128_S128x448_S4096x448_1_0_0_1_n_n.contr.Idx) :
    (dot_S4096x128_S128x448_S4096x448_1_0_0_1_n_n.lhsIdx i q 1).val = (q ⟨0, by decide⟩).val :=
  dot_S4096x128_S128x448_S4096x448_1_0_0_1_n_n.lhsIdx_val_of_single rfl i q
theorem rhs0_4096_128_448 (i : S4096x448.Idx) (q : dot_S4096x128_S128x448_S4096x448_1_0_0_1_n_n.contr.Idx) :
    (dot_S4096x128_S128x448_S4096x448_1_0_0_1_n_n.rhsIdx i q 0).val = (q ⟨0, by decide⟩).val :=
  dot_S4096x128_S128x448_S4096x448_1_0_0_1_n_n.rhsIdx_val_of_single rfl i q
theorem rhs1_4096_128_448 (i : S4096x448.Idx) (q : dot_S4096x128_S128x448_S4096x448_1_0_0_1_n_n.contr.Idx) :
    (dot_S4096x128_S128x448_S4096x448_1_0_0_1_n_n.rhsIdx i q 1).val = (i 1).val := by
  unfold DotDims.rhsIdx
  rw [dif_neg (show ¬(1 : Fin S128x448.rank) ∈ dot_S4096x128_S128x448_S4096x448_1_0_0_1_n_n.rhsBatch by decide),
    dif_pos (show (1 : Fin S128x448.rank) ∈ dot_S4096x128_S128x448_S4096x448_1_0_0_1_n_n.rhsNonContracting by decide)]
  rfl

/-- The matrix product of a [4096, 128] block with a [128, 448] block into the zero accumulator, read at row `p`,
    column `j`: the sum over the contracted axis of the products. -/
theorem mm_4096_128_448 (x : FVec Ideal S4096x128 .f32) (w : FVec Ideal S128x448 .f32) (p : Fin 4096) (j : Fin 448) :
    matmul dot_S4096x128_S128x448_S4096x448_1_0_0_1_n_n none x w (constant S4096x448 .f32 0x00000000#32) (ix2 p j)
      = ∑ f : Fin 128, x (ix2 p f) * w (ix2 f j) := by
  simp only [matmul]
  rw [Ideal.matmul_constant_zero_apply, ← Equiv.sum_comp (ValueIdx.contrEquiv1 dot_S4096x128_S128x448_S4096x448_1_0_0_1_n_n 128 rfl rfl).symm]
  refine Finset.sum_congr rfl fun f _ => ?_
  have hf := ValueIdx.contrEquiv1_symm_val dot_S4096x128_S128x448_S4096x448_1_0_0_1_n_n 128 rfl rfl f
  have el : dot_S4096x128_S128x448_S4096x448_1_0_0_1_n_n.lhsIdx (ix2 p j) ((ValueIdx.contrEquiv1 dot_S4096x128_S128x448_S4096x448_1_0_0_1_n_n 128 rfl rfl).symm f) = ix2 p f :=
    funext fun a => Fin.ext (by
      match a with
      | ⟨0, _⟩ => exact lhs0_4096_128_448 _ _
      | ⟨1, _⟩ => exact (lhs1_4096_128_448 _ _).trans hf)
  have er : dot_S4096x128_S128x448_S4096x448_1_0_0_1_n_n.rhsIdx (ix2 p j) ((ValueIdx.contrEquiv1 dot_S4096x128_S128x448_S4096x448_1_0_0_1_n_n 128 rfl rfl).symm f) = ix2 f j :=
    funext fun a => Fin.ext (by
      match a with
      | ⟨0, _⟩ => exact (rhs0_4096_128_448 _ _).trans hf
      | ⟨1, _⟩ => exact rhs1_4096_128_448 _ _)
  rw [el, er]

/-! ### [4096, 64] times [64, 448] -/

theorem lhs0_4096_64_448 (i : S4096x448.Idx) (q : dot_S4096x64_S64x448_S4096x448_1_0_0_1_n_n.contr.Idx) :
    (dot_S4096x64_S64x448_S4096x448_1_0_0_1_n_n.lhsIdx i q 0).val = (i 0).val := by
  unfold DotDims.lhsIdx
  rw [dif_neg (show ¬(0 : Fin S4096x64.rank) ∈ dot_S4096x64_S64x448_S4096x448_1_0_0_1_n_n.lhsBatch by decide),
    dif_pos (show (0 : Fin S4096x64.rank) ∈ dot_S4096x64_S64x448_S4096x448_1_0_0_1_n_n.lhsNonContracting by decide)]
  rfl
theorem lhs1_4096_64_448 (i : S4096x448.Idx) (q : dot_S4096x64_S64x448_S4096x448_1_0_0_1_n_n.contr.Idx) :
    (dot_S4096x64_S64x448_S4096x448_1_0_0_1_n_n.lhsIdx i q 1).val = (q ⟨0, by decide⟩).val :=
  dot_S4096x64_S64x448_S4096x448_1_0_0_1_n_n.lhsIdx_val_of_single rfl i q
theorem rhs0_4096_64_448 (i : S4096x448.Idx) (q : dot_S4096x64_S64x448_S4096x448_1_0_0_1_n_n.contr.Idx) :
    (dot_S4096x64_S64x448_S4096x448_1_0_0_1_n_n.rhsIdx i q 0).val = (q ⟨0, by decide⟩).val :=
  dot_S4096x64_S64x448_S4096x448_1_0_0_1_n_n.rhsIdx_val_of_single rfl i q
theorem rhs1_4096_64_448 (i : S4096x448.Idx) (q : dot_S4096x64_S64x448_S4096x448_1_0_0_1_n_n.contr.Idx) :
    (dot_S4096x64_S64x448_S4096x448_1_0_0_1_n_n.rhsIdx i q 1).val = (i 1).val := by
  unfold DotDims.rhsIdx
  rw [dif_neg (show ¬(1 : Fin S64x448.rank) ∈ dot_S4096x64_S64x448_S4096x448_1_0_0_1_n_n.rhsBatch by decide),
    dif_pos (show (1 : Fin S64x448.rank) ∈ dot_S4096x64_S64x448_S4096x448_1_0_0_1_n_n.rhsNonContracting by decide)]
  rfl

/-- The matrix product of a [4096, 64] block with a [64, 448] block into the zero accumulator, read at row `p`,
    column `j`: the sum over the contracted axis of the products. -/
theorem mm_4096_64_448 (x : FVec Ideal S4096x64 .f32) (w : FVec Ideal S64x448 .f32) (p : Fin 4096) (j : Fin 448) :
    matmul dot_S4096x64_S64x448_S4096x448_1_0_0_1_n_n none x w (constant S4096x448 .f32 0x00000000#32) (ix2 p j)
      = ∑ f : Fin 64, x (ix2 p f) * w (ix2 f j) := by
  simp only [matmul]
  rw [Ideal.matmul_constant_zero_apply, ← Equiv.sum_comp (ValueIdx.contrEquiv1 dot_S4096x64_S64x448_S4096x448_1_0_0_1_n_n 64 rfl rfl).symm]
  refine Finset.sum_congr rfl fun f _ => ?_
  have hf := ValueIdx.contrEquiv1_symm_val dot_S4096x64_S64x448_S4096x448_1_0_0_1_n_n 64 rfl rfl f
  have el : dot_S4096x64_S64x448_S4096x448_1_0_0_1_n_n.lhsIdx (ix2 p j) ((ValueIdx.contrEquiv1 dot_S4096x64_S64x448_S4096x448_1_0_0_1_n_n 64 rfl rfl).symm f) = ix2 p f :=
    funext fun a => Fin.ext (by
      match a with
      | ⟨0, _⟩ => exact lhs0_4096_64_448 _ _
      | ⟨1, _⟩ => exact (lhs1_4096_64_448 _ _).trans hf)
  have er : dot_S4096x64_S64x448_S4096x448_1_0_0_1_n_n.rhsIdx (ix2 p j) ((ValueIdx.contrEquiv1 dot_S4096x64_S64x448_S4096x448_1_0_0_1_n_n 64 rfl rfl).symm f) = ix2 f j :=
    funext fun a => Fin.ext (by
      match a with
      | ⟨0, _⟩ => exact (rhs0_4096_64_448 _ _).trans hf
      | ⟨1, _⟩ => exact rhs1_4096_64_448 _ _)
  rw [el, er]

/-! ### [128, 4096] times [4096, 64] -/

theorem lhs0_128_4096_64 (i : S128x64.Idx) (q : dot_S128x4096_S4096x64_S128x64_1_0_0_1_n_n.contr.Idx) :
    (dot_S128x4096_S4096x64_S128x64_1_0_0_1_n_n.lhsIdx i q 0).val = (i 0).val := by
  unfold DotDims.lhsIdx
  rw [dif_neg (show ¬(0 : Fin S128x4096.rank) ∈ dot_S128x4096_S4096x64_S128x64_1_0_0_1_n_n.lhsBatch by decide),
    dif_pos (show (0 : Fin S128x4096.rank) ∈ dot_S128x4096_S4096x64_S128x64_1_0_0_1_n_n.lhsNonContracting by decide)]
  rfl
theorem lhs1_128_4096_64 (i : S128x64.Idx) (q : dot_S128x4096_S4096x64_S128x64_1_0_0_1_n_n.contr.Idx) :
    (dot_S128x4096_S4096x64_S128x64_1_0_0_1_n_n.lhsIdx i q 1).val = (q ⟨0, by decide⟩).val :=
  dot_S128x4096_S4096x64_S128x64_1_0_0_1_n_n.lhsIdx_val_of_single rfl i q
theorem rhs0_128_4096_64 (i : S128x64.Idx) (q : dot_S128x4096_S4096x64_S128x64_1_0_0_1_n_n.contr.Idx) :
    (dot_S128x4096_S4096x64_S128x64_1_0_0_1_n_n.rhsIdx i q 0).val = (q ⟨0, by decide⟩).val :=
  dot_S128x4096_S4096x64_S128x64_1_0_0_1_n_n.rhsIdx_val_of_single rfl i q
theorem rhs1_128_4096_64 (i : S128x64.Idx) (q : dot_S128x4096_S4096x64_S128x64_1_0_0_1_n_n.contr.Idx) :
    (dot_S128x4096_S4096x64_S128x64_1_0_0_1_n_n.rhsIdx i q 1).val = (i 1).val := by
  unfold DotDims.rhsIdx
  rw [dif_neg (show ¬(1 : Fin S4096x64.rank) ∈ dot_S128x4096_S4096x64_S128x64_1_0_0_1_n_n.rhsBatch by decide),
    dif_pos (show (1 : Fin S4096x64.rank) ∈ dot_S128x4096_S4096x64_S128x64_1_0_0_1_n_n.rhsNonContracting by decide)]
  rfl

/-- The matrix product of a [128, 4096] block with a [4096, 64] block into the zero accumulator, read at row `p`,
    column `j`: the sum over the contracted axis of the products. -/
theorem mm_128_4096_64 (x : FVec Ideal S128x4096 .f32) (w : FVec Ideal S4096x64 .f32) (p : Fin 128) (j : Fin 64) :
    matmul dot_S128x4096_S4096x64_S128x64_1_0_0_1_n_n none x w (constant S128x64 .f32 0x00000000#32) (ix2 p j)
      = ∑ f : Fin 4096, x (ix2 p f) * w (ix2 f j) := by
  simp only [matmul]
  rw [Ideal.matmul_constant_zero_apply, ← Equiv.sum_comp (ValueIdx.contrEquiv1 dot_S128x4096_S4096x64_S128x64_1_0_0_1_n_n 4096 rfl rfl).symm]
  refine Finset.sum_congr rfl fun f _ => ?_
  have hf := ValueIdx.contrEquiv1_symm_val dot_S128x4096_S4096x64_S128x64_1_0_0_1_n_n 4096 rfl rfl f
  have el : dot_S128x4096_S4096x64_S128x64_1_0_0_1_n_n.lhsIdx (ix2 p j) ((ValueIdx.contrEquiv1 dot_S128x4096_S4096x64_S128x64_1_0_0_1_n_n 4096 rfl rfl).symm f) = ix2 p f :=
    funext fun a => Fin.ext (by
      match a with
      | ⟨0, _⟩ => exact lhs0_128_4096_64 _ _
      | ⟨1, _⟩ => exact (lhs1_128_4096_64 _ _).trans hf)
  have er : dot_S128x4096_S4096x64_S128x64_1_0_0_1_n_n.rhsIdx (ix2 p j) ((ValueIdx.contrEquiv1 dot_S128x4096_S4096x64_S128x64_1_0_0_1_n_n 4096 rfl rfl).symm f) = ix2 f j :=
    funext fun a => Fin.ext (by
      match a with
      | ⟨0, _⟩ => exact (rhs0_128_4096_64 _ _).trans hf
      | ⟨1, _⟩ => exact rhs1_128_4096_64 _ _)
  rw [el, er]

/-! ### [128, 64] times [64, 4] -/

theorem lhs0_128_64_4 (i : S128x4.Idx) (q : dot_S128x64_S64x4_S128x4_1_0_0_1_n_n.contr.Idx) :
    (dot_S128x64_S64x4_S128x4_1_0_0_1_n_n.lhsIdx i q 0).val = (i 0).val := by
  unfold DotDims.lhsIdx
  rw [dif_neg (show ¬(0 : Fin S128x64.rank) ∈ dot_S128x64_S64x4_S128x4_1_0_0_1_n_n.lhsBatch by decide),
    dif_pos (show (0 : Fin S128x64.rank) ∈ dot_S128x64_S64x4_S128x4_1_0_0_1_n_n.lhsNonContracting by decide)]
  rfl
theorem lhs1_128_64_4 (i : S128x4.Idx) (q : dot_S128x64_S64x4_S128x4_1_0_0_1_n_n.contr.Idx) :
    (dot_S128x64_S64x4_S128x4_1_0_0_1_n_n.lhsIdx i q 1).val = (q ⟨0, by decide⟩).val :=
  dot_S128x64_S64x4_S128x4_1_0_0_1_n_n.lhsIdx_val_of_single rfl i q
theorem rhs0_128_64_4 (i : S128x4.Idx) (q : dot_S128x64_S64x4_S128x4_1_0_0_1_n_n.contr.Idx) :
    (dot_S128x64_S64x4_S128x4_1_0_0_1_n_n.rhsIdx i q 0).val = (q ⟨0, by decide⟩).val :=
  dot_S128x64_S64x4_S128x4_1_0_0_1_n_n.rhsIdx_val_of_single rfl i q
theorem rhs1_128_64_4 (i : S128x4.Idx) (q : dot_S128x64_S64x4_S128x4_1_0_0_1_n_n.contr.Idx) :
    (dot_S128x64_S64x4_S128x4_1_0_0_1_n_n.rhsIdx i q 1).val = (i 1).val := by
  unfold DotDims.rhsIdx
  rw [dif_neg (show ¬(1 : Fin S64x4.rank) ∈ dot_S128x64_S64x4_S128x4_1_0_0_1_n_n.rhsBatch by decide),
    dif_pos (show (1 : Fin S64x4.rank) ∈ dot_S128x64_S64x4_S128x4_1_0_0_1_n_n.rhsNonContracting by decide)]
  rfl

/-- The matrix product of a [128, 64] block with a [64, 4] block into the zero accumulator, read at row `p`,
    column `j`: the sum over the contracted axis of the products. -/
theorem mm_128_64_4 (x : FVec Ideal S128x64 .f32) (w : FVec Ideal S64x4 .f32) (p : Fin 128) (j : Fin 4) :
    matmul dot_S128x64_S64x4_S128x4_1_0_0_1_n_n none x w (constant S128x4 .f32 0x00000000#32) (ix2 p j)
      = ∑ f : Fin 64, x (ix2 p f) * w (ix2 f j) := by
  simp only [matmul]
  rw [Ideal.matmul_constant_zero_apply, ← Equiv.sum_comp (ValueIdx.contrEquiv1 dot_S128x64_S64x4_S128x4_1_0_0_1_n_n 64 rfl rfl).symm]
  refine Finset.sum_congr rfl fun f _ => ?_
  have hf := ValueIdx.contrEquiv1_symm_val dot_S128x64_S64x4_S128x4_1_0_0_1_n_n 64 rfl rfl f
  have el : dot_S128x64_S64x4_S128x4_1_0_0_1_n_n.lhsIdx (ix2 p j) ((ValueIdx.contrEquiv1 dot_S128x64_S64x4_S128x4_1_0_0_1_n_n 64 rfl rfl).symm f) = ix2 p f :=
    funext fun a => Fin.ext (by
      match a with
      | ⟨0, _⟩ => exact lhs0_128_64_4 _ _
      | ⟨1, _⟩ => exact (lhs1_128_64_4 _ _).trans hf)
  have er : dot_S128x64_S64x4_S128x4_1_0_0_1_n_n.rhsIdx (ix2 p j) ((ValueIdx.contrEquiv1 dot_S128x64_S64x4_S128x4_1_0_0_1_n_n 64 rfl rfl).symm f) = ix2 f j :=
    funext fun a => Fin.ext (by
      match a with
      | ⟨0, _⟩ => exact (rhs0_128_64_4 _ _).trans hf
      | ⟨1, _⟩ => exact rhs1_128_64_4 _ _)
  rw [el, er]

/-- The first projection `x · w1cat`: row `p`, column `j` is `∑ f, x (p, f) · w (f, j)`. -/
theorem pay4_apply (x : Vec Ideal S4096x128 .f32) (w : Vec Ideal S128x448 .f32) (p : Fin 4096) (j : Fin 448) :
    k0_pay4 x w (ix2 p j) = ∑ f : Fin 128, x (ix2 p f) * w (ix2 f j) := by
  unfold k0_pay4
  rw [shapeCast_self, shapeCast_self]
  exact mm_4096_128_448 x w p j

/-- The second projection `h1 · w2cat`: row `p`, column `j` is `∑ f, h (p, f) · w (f, j)`. -/
theorem pay5_apply (h : Vec Ideal S4096x64 .f32) (w : Vec Ideal S64x448 .f32) (p : Fin 4096) (j : Fin 448) :
    k0_pay5 h w (ix2 p j) = ∑ f : Fin 64, h (ix2 p f) * w (ix2 f j) := by
  unfold k0_pay5
  rw [shapeCast_self, shapeCast_self]
  exact mm_4096_64_448 h w p j

end Cert.KernelSide

end
-- ==== Proof.PayAcc.lean ====
import proofs.«132769_g22127671509052_cont_8to1_1196_24_alg».proof.Proof.PayDot
import Idealize.ShloMosaic.Lib.ValueLayout

/-!
# The kernel's accumulation over the seven relations, read at an index

For one block of 128 rows the kernel adds up, relation by relation, the rectified
`max (A r · s r + bias r, 0)`: `A r` is relation `r`'s adjacency block [128, 4096], `s r` its 64-column slice
[4096, 64] of the projected features, and `bias r` a row [1, 64] that is the first layer's when the layer
coordinate is 0 and the second layer's otherwise. Read at row `q` and column `k` this is the sum over the
seven relations of `max ((∑ p, A r (q, p) · s r (p, k)) + bias r k) 0`; the running sum starts at zero.
-/

noncomputable section

namespace Cert.KernelSide

open Cert.KernelIdeal Cert.KernelIdeal.Gen Idealize.ShloMosaic Idealize.ShloMosaic.ValueIdx

/-- One relation's contribution as the kernel forms it from the product `mm` of its adjacency block with its slice:
    the bias row picked by the flag `c`, spread over the 128 rows, added, and the result rectified against 0. -/
def rect (c : BitVec 1) (mm : FVec Ideal S128x64 .f32) (bA bB : Vec Ideal S1x64 .f32) : FVec Ideal S128x64 .f32 :=
  maximumf
    (addf mm
      (broadcastTo S128x64
        (shapeCast S1x64
          (Scalar.select c (shapeCast S64 bA shapeCasts_S1x64_S64) (shapeCast S64 bB shapeCasts_S1x64_S64))
          shapeCasts_S64_S1x64)
        broadcasts_S1x64_S128x64))
    (broadcast S128x64 (Scalar.ofBits (F := Ideal) .f32 0x00000000#32))

/-- The bias row picked by the flag and spread over the rows reads, at (q, k), the picked row's entry `k`. -/
theorem biasRow_apply (c : BitVec 1) (bA bB : Vec Ideal S1x64 .f32) (q : Fin 128) (k : Fin 64) :
    broadcastTo S128x64
        (shapeCast S1x64
          (Scalar.select c (shapeCast S64 bA shapeCasts_S1x64_S64) (shapeCast S64 bB shapeCasts_S1x64_S64))
          shapeCasts_S64_S1x64)
        broadcasts_S1x64_S128x64 (ix2 q k)
      = Scalar.select c (bA (ix2 (0 : Fin 1) k)) (bB (ix2 (0 : Fin 1) k)) := by
  rw [broadcastTo_1b_ab_apply, shapeCast_a_1a_apply]
  by_cases hc : c = 1#1
  · subst hc
    rw [select_one, select_one]
    exact shapeCast_1a_a_apply bA shapeCasts_S1x64_S64 k
  · have h0 := eq_zero_of_ne_one hc
    subst h0
    rw [select_zero, select_zero]
    exact shapeCast_1a_a_apply bB shapeCasts_S1x64_S64 k

/-- One relation's contribution at (q, k): `max (mm (q, k) + bias k) 0`. -/
theorem rect_apply (c : BitVec 1) (mm : FVec Ideal S128x64 .f32) (bA bB : Vec Ideal S1x64 .f32) (q : Fin 128) (k : Fin 64) :
    rect c mm bA bB (ix2 q k)
      = max (mm (ix2 q k) + Scalar.select c (bA (ix2 (0 : Fin 1) k)) (bB (ix2 (0 : Fin 1) k))) 0 := by
  unfold rect
  rw [maximumf_apply, addf_apply, biasRow_apply, broadcast_apply]
  show max _ (Ideal.ofBits .f32 0x00000000#32) = _
  rw [Ideal.ofBits_zero_f32]

/-- The product of an adjacency block with a slice, into the zero accumulator. -/
def prod (A : FVec Ideal S128x4096 .f32) (s : FVec Ideal S4096x64 .f32) : FVec Ideal S128x64 .f32 :=
  matmul dot_S128x4096_S4096x64_S128x64_1_0_0_1_n_n none A s (constant S128x64 .f32 0x00000000#32)

theorem prod_apply (A : FVec Ideal S128x4096 .f32) (s : FVec Ideal S4096x64 .f32) (q : Fin 128) (k : Fin 64) :
    prod A s (ix2 q k) = ∑ p : Fin 4096, A (ix2 q p) * s (ix2 p k) :=
  mm_128_4096_64 A s q k

/-- One relation's contribution from its block, slice and two candidate bias rows, at (q, k). -/
theorem rel_apply (c : BitVec 1) (A : FVec Ideal S128x4096 .f32) (s : FVec Ideal S4096x64 .f32) (bA bB : Vec Ideal S1x64 .f32)
    (q : Fin 128) (k : Fin 64) :
    rect c (prod A s) bA bB (ix2 q k)
      = max ((∑ p : Fin 4096, A (ix2 q p) * s (ix2 p k)) + Scalar.select c (bA (ix2 (0 : Fin 1) k)) (bB (ix2 (0 : Fin 1) k))) 0 := by
  rw [rect_apply, prod_apply]

/-- The accumulated block of one grid point `i`: the seven relations' contributions chained as the kernel chains them. -/
def acc (i : grid0.Coords) (A : Fin 7 → Vec Ideal S128x4096 .f32) (s : Fin 7 → Vec Ideal S4096x64 .f32)
    (bA bB : Fin 7 → Vec Ideal S1x64 .f32) : FVec Ideal S128x64 .f32 :=
  k0_pay1 (F := Ideal) (BitVec.ofNat 32 (i 0).val)
    (k0_pay11 (F := Ideal) (BitVec.ofNat 32 (i 0).val)
      (k0_pay8 (F := Ideal) (BitVec.ofNat 32 (i 0).val) (k0_pay6 (F := Ideal) i (A 0) (s 0) (bA 0) (bB 0)) (k0_pay7 (F := Ideal) (A 1) (s 1))
        (Scalar.cmpi .eq (BitVec.ofNat 32 (i 0).val) 0#32) (bA 1) (bB 1) (A 2) (s 2) (bA 2) (bB 2))
      (k0_pay9 (F := Ideal) (A 3) (s 3)) (k0_pay10 (F := Ideal) (BitVec.ofNat 32 (i 0).val) (bA 3) (bB 3))
      (A 4) (s 4) (bA 4) (bB 4) (A 5) (s 5) (bA 5) (bB 5))
    (A 6) (s 6) (bA 6) (bB 6)

/-- The chain written with the per-relation contributions: a running sum from the zero block. -/
theorem acc_eq (i : grid0.Coords) (A : Fin 7 → Vec Ideal S128x4096 .f32) (s : Fin 7 → Vec Ideal S4096x64 .f32)
    (bA bB : Fin 7 → Vec Ideal S1x64 .f32) :
    acc i A s bA bB =
      addf (addf (addf (addf (addf (addf (addf (broadcast S128x64 (Scalar.ofBits (F := Ideal) .f32 0x00000000#32))
        (rect (Scalar.cmpi .eq (BitVec.ofNat 32 (i 0).val) 0#32) (prod (A 0) (s 0)) (bA 0) (bB 0)))
        (rect (Scalar.cmpi .eq (BitVec.ofNat 32 (i 0).val) 0#32) (prod (A 1) (s 1)) (bA 1) (bB 1)))
        (rect (Scalar.cmpi .eq (BitVec.ofNat 32 (i 0).val) 0#32) (prod (A 2) (s 2)) (bA 2) (bB 2)))
        (rect (Scalar.cmpi .eq (BitVec.ofNat 32 (i 0).val) 0#32) (prod (A 3) (s 3)) (bA 3) (bB 3)))
        (rect (Scalar.cmpi .eq (BitVec.ofNat 32 (i 0).val) 0#32) (prod (A 4) (s 4)) (bA 4) (bB 4)))
        (rect (Scalar.cmpi .eq (BitVec.ofNat 32 (i 0).val) 0#32) (prod (A 5) (s 5)) (bA 5) (bB 5)))
        (rect (Scalar.cmpi .eq (BitVec.ofNat 32 (i 0).val) 0#32) (prod (A 6) (s 6)) (bA 6) (bB 6)) := rfl

/-- The accumulated block at (q, k), with the flag still unevaluated. -/
theorem acc_apply_flag (i : grid0.Coords) (A : Fin 7 → Vec Ideal S128x4096 .f32) (s : Fin 7 → Vec Ideal S4096x64 .f32)
    (bA bB : Fin 7 → Vec Ideal S1x64 .f32) (q : Fin 128) (k : Fin 64) :
    acc i A s bA bB (ix2 q k)
      = ∑ r : Fin 7, max ((∑ p : Fin 4096, A r (ix2 q p) * s r (ix2 p k))
          + Scalar.select (Scalar.cmpi .eq (BitVec.ofNat 32 (i 0).val) 0#32) (bA r (ix2 (0 : Fin 1) k)) (bB r (ix2 (0 : Fin 1) k))) 0 := by
  rw [acc_eq]
  simp only [addf_apply, broadcast_apply, rel_apply]
  show Ideal.ofBits .f32 0x00000000#32 + _ + _ + _ + _ + _ + _ + _ = _
  rw [Ideal.ofBits_zero_f32, zero_add, Fin.sum_univ_seven]

/-- First layer (layer coordinate 0): every relation uses its first bias row. -/
theorem acc_apply_layer0 (i : grid0.Coords) (hl0 : (i 0).val = 0) (A : Fin 7 → Vec Ideal S128x4096 .f32)
    (s : Fin 7 → Vec Ideal S4096x64 .f32) (bA bB : Fin 7 → Vec Ideal S1x64 .f32) (q : Fin 128) (k : Fin 64) :
    acc i A s bA bB (ix2 q k)
      = ∑ r : Fin 7, max ((∑ p : Fin 4096, A r (ix2 q p) * s r (ix2 p k)) + bA r (ix2 (0 : Fin 1) k)) 0 := by
  rw [acc_apply_flag, hl0]
  have hc : Scalar.cmpi .eq (BitVec.ofNat 32 0) 0#32 = 1#1 := by decide
  rw [hc]
  simp only [select_one]

/-- Second layer (layer coordinate 1): every relation uses its second bias row. -/
theorem acc_apply_layer1 (i : grid0.Coords) (hl1 : (i 0).val = 1) (A : Fin 7 → Vec Ideal S128x4096 .f32)
    (s : Fin 7 → Vec Ideal S4096x64 .f32) (bA bB : Fin 7 → Vec Ideal S1x64 .f32) (q : Fin 128) (k : Fin 64) :
    acc i A s bA bB (ix2 q k)
      = ∑ r : Fin 7, max ((∑ p : Fin 4096, A r (ix2 q p) * s r (ix2 p k)) + bB r (ix2 (0 : Fin 1) k)) 0 := by
  rw [acc_apply_flag, hl1]
  have hc : Scalar.cmpi .eq (BitVec.ofNat 32 1) 0#32 = 0#1 := by decide
  rw [hc]
  simp only [select_zero]

end Cert.KernelSide

end
-- ==== Proof.PayHost.lean ====
import proofs.«132769_g22127671509052_cont_8to1_1196_24_alg».proof.Proof.Gen.KernelIdeal.Frame
import proofs.«132769_g22127671509052_cont_8to1_1196_24_alg».proof.Proof.Spec
import Idealize.ShloMosaic.Lib.ValueLayout
import Idealize.ShloMosaic.Lib.Pipeline.Value
import Idealize.ShloMosaic.Lib.ValueIdx

/-!
# The arrays the host prepares before the launch, read at an index

Before the kernel is launched the host lays the weights out for it:
* the first layer's weights `W1 : [7, 128, 64]` with the relation axis moved inside and merged with the output
  axis, `w1cat (f, 64·i + k) = W1 (i, f, k)`;
* the second layer's weights gathered along the relation axis at the table `[0, 1, 2, 3, 3, 5, 6]` (relation 4 takes
  relation 3's) and laid out the same way, `w2cat (f, 64·i + k) = W2 (share i, f, k)`;
* the second layer's bias gathered at the same table, `b2g (i, k) = b2 (share i, k)`;
* the read-out bias as a one-row matrix.
A gather reads its index signed and clamps it into the axis; the table's entries are already in range, so the row
read for relation `i` is row `share i`.
-/

noncomputable section

namespace Cert.KernelSide

open Cert.KernelIdeal Cert.KernelIdeal.Gen Idealize.ShloMosaic Idealize.ShloMosaic.ValueIdx
open Idealize.ShloMosaic.TcCoe Idealize.SL.Sem Idealize.ShloMosaic.StableHlo

/-! ## The relation table as the host normalises it -/

/-- The table `[0, 1, 2, 3, 3, 5, 6]` after the host's index normalisation (an entry below zero would be wrapped by
    7; none is), as a column of start indices. -/
def tbl : IVec S7x1 32 :=
  broadcastInDim S7x1 ![0] bcast_S7_S7x1_0
    (select
      (cmpi CmpIPredicate.slt (fun i => lit0 (S7.rowMajor i)) (broadcastInDim S7 ![] bcast_S_S7 (constantI S_ 32 0#32)))
      (addi (fun i => lit0 (S7.rowMajor i)) (broadcastInDim S7 ![] bcast_S_S7 (constantI S_ 32 7#32)))
      fun i => lit0 (S7.rowMajor i))

/-- Entry `i` of the normalised table, read signed and clamped into the relation axis, is `share i`. -/
theorem tbl_apply (i : Fin 7) : min (tbl (ix2 i (0 : Fin 1))).toInt.toNat (7 - 1) = (Cert.Spec.share i).val := by
  have e : tbl (ix2 i (0 : Fin 1)) = lit0 i := by
    unfold tbl
    rw [broadcastInDim_apply _ _ _ (ix2 i (0 : Fin 1)) (ix1 i) (fun a => by
      match a with
      | ⟨0, _⟩ => rfl)]
    have hr : S7.rowMajor (ix1 i) = i := Fin.ext (Shape.rowMajor_val_one _)
    show Scalar.select _ _ (lit0 (S7.rowMajor (ix1 i))) = _
    rw [hr]
    fin_cases i <;> rfl
  rw [e]
  fin_cases i <;> rfl

/-! ## A row gather read at an index -/

/-- Rows of a [7, 64] matrix gathered at a column of start indices: row `i` of the result is the operand's row at
    the start index `idx (i, 0)`, read signed and clamped into the axis. -/
theorem gatherRows2_apply {α : Type} {w : Nat} (x : S7x64.Idx → α) (idx : IVec S7x1 w) (i : Fin 7) (k : Fin 64) :
    Host.gather gather_S7x64_S7x1_S7x64_1_0_n_n_0_1_164 x idx (ix2 i k)
      = x (ix2 (⟨min (idx (ix2 i (0 : Fin 1))).toInt.toNat (7 - 1), by omega⟩ : Fin 7) k) := by
  unfold Host.gather
  congr 1
  funext a
  refine Fin.ext ?_
  match a with
  | ⟨0, _⟩ =>
    show gather_S7x64_S7x1_S7x64_1_0_n_n_0_1_164.start (ix2 i k) idx 0 + gather_S7x64_S7x1_S7x64_1_0_n_n_0_1_164.batchCoord (ix2 i k) 0 + gather_S7x64_S7x1_S7x64_1_0_n_n_0_1_164.offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S7x64.rank) ∈ gather_S7x64_S7x1_S7x64_1_0_n_n_0_1_164.startIndexMap from List.mem_singleton.mpr rfl)]
    have hsi : gather_S7x64_S7x1_S7x64_1_0_n_n_0_1_164.siIdx (ix2 i k) ⟨List.idxOf (0 : Fin S7x64.rank) gather_S7x64_S7x1_S7x64_1_0_n_n_0_1_164.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S7x64_S7x1_S7x64_1_0_n_n_0_1_164.start (ix2 i k) idx 1 + gather_S7x64_S7x1_S7x64_1_0_n_n_0_1_164.batchCoord (ix2 i k) 1 + gather_S7x64_S7x1_S7x64_1_0_n_n_0_1_164.offCoord (ix2 i k) 1 = k.val
    rw [GatherDims.batchCoord_eq_zero _ _ _ List.not_mem_nil]
    unfold GatherDims.start
    rw [dif_neg (show ¬(1 : Fin S7x64.rank) ∈ gather_S7x64_S7x1_S7x64_1_0_n_n_0_1_164.startIndexMap by decide)]
    unfold GatherDims.offCoord
    rw [dif_pos (show (1 : Fin S7x64.rank) ∈ gather_S7x64_S7x1_S7x64_1_0_n_n_0_1_164.sKept by decide)]
    have key : ∀ p : Fin S7x64.rank, p = 1 → ((ix2 i k : S7x64.Idx) p).val = k.val := fun p h => by subst h; rfl
    simp only [Nat.zero_add]
    exact key _ (by decide)

/-- Slabs of a [7, 64, 64] array gathered at a column of start indices: slab `i` of the result is the operand's
    slab at the start index `idx (i, 0)`, read signed and clamped into the axis. -/
theorem gatherRows3_apply {α : Type} {w : Nat} (x : S7x64x64.Idx → α) (idx : IVec S7x1 w) (i : Fin 7) (f k : Fin 64) :
    Host.gather gather_S7x64x64_S7x1_S7x64x64_12_0_n_n_0_1_16464 x idx (ix3 i f k)
      = x (ix3 (⟨min (idx (ix2 i (0 : Fin 1))).toInt.toNat (7 - 1), by omega⟩ : Fin 7) f k) := by
  unfold Host.gather
  congr 1
  funext a
  refine Fin.ext ?_
  match a with
  | ⟨0, _⟩ =>
    show gather_S7x64x64_S7x1_S7x64x64_12_0_n_n_0_1_16464.start (ix3 i f k) idx 0 + gather_S7x64x64_S7x1_S7x64x64_12_0_n_n_0_1_16464.batchCoord (ix3 i f k) 0 + gather_S7x64x64_S7x1_S7x64x64_12_0_n_n_0_1_16464.offCoord (ix3 i f k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S7x64x64.rank) ∈ gather_S7x64x64_S7x1_S7x64x64_12_0_n_n_0_1_16464.startIndexMap from List.mem_singleton.mpr rfl)]
    have hsi : gather_S7x64x64_S7x1_S7x64x64_12_0_n_n_0_1_16464.siIdx (ix3 i f k) ⟨List.idxOf (0 : Fin S7x64x64.rank) gather_S7x64x64_S7x1_S7x64x64_12_0_n_n_0_1_16464.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S7x64x64_S7x1_S7x64x64_12_0_n_n_0_1_16464.start (ix3 i f k) idx 1 + gather_S7x64x64_S7x1_S7x64x64_12_0_n_n_0_1_16464.batchCoord (ix3 i f k) 1 + gather_S7x64x64_S7x1_S7x64x64_12_0_n_n_0_1_16464.offCoord (ix3 i f k) 1 = f.val
    rw [GatherDims.batchCoord_eq_zero _ _ _ List.not_mem_nil]
    unfold GatherDims.start
    rw [dif_neg (show ¬(1 : Fin S7x64x64.rank) ∈ gather_S7x64x64_S7x1_S7x64x64_12_0_n_n_0_1_16464.startIndexMap by decide)]
    unfold GatherDims.offCoord
    rw [dif_pos (show (1 : Fin S7x64x64.rank) ∈ gather_S7x64x64_S7x1_S7x64x64_12_0_n_n_0_1_16464.sKept by decide)]
    have key : ∀ p : Fin S7x64x64.rank, p = 1 → ((ix3 i f k : S7x64x64.Idx) p).val = f.val := fun p h => by subst h; rfl
    simp only [Nat.zero_add]
    exact key _ (by decide)
  | ⟨2, _⟩ =>
    show gather_S7x64x64_S7x1_S7x64x64_12_0_n_n_0_1_16464.start (ix3 i f k) idx 2 + gather_S7x64x64_S7x1_S7x64x64_12_0_n_n_0_1_16464.batchCoord (ix3 i f k) 2 + gather_S7x64x64_S7x1_S7x64x64_12_0_n_n_0_1_16464.offCoord (ix3 i f k) 2 = k.val
    rw [GatherDims.batchCoord_eq_zero _ _ _ List.not_mem_nil]
    unfold GatherDims.start
    rw [dif_neg (show ¬(2 : Fin S7x64x64.rank) ∈ gather_S7x64x64_S7x1_S7x64x64_12_0_n_n_0_1_16464.startIndexMap by decide)]
    unfold GatherDims.offCoord
    rw [dif_pos (show (2 : Fin S7x64x64.rank) ∈ gather_S7x64x64_S7x1_S7x64x64_12_0_n_n_0_1_16464.sKept by decide)]
    have key : ∀ p : Fin S7x64x64.rank, p = 2 → ((ix3 i f k : S7x64x64.Idx) p).val = k.val := fun p h => by subst h; rfl
    simp only [Nat.zero_add]
    exact key _ (by decide)

/-- A [7, 64, 64] array with its first two axes exchanged and the last two merged reads, at (f, 64·i + k), the
    entry (i, f, k). Likewise for [7, 128, 64]. -/
theorem relayout64_apply {α : Type} (y : S7x64x64.Idx → α) (f : Fin 64) (i : Fin 7) (k : Fin 64) (j : Fin 448)
    (hj : j.val = 64 * i.val + k.val) :
    shapeCast S64x448 (transpose S64x7x64 [1, 0, 2] y transposes_S7x64x64_S64x7x64_1_0_2) shapeCasts_S64x7x64_S64x448 (ix2 f j)
      = y (ix3 i f k) := by
  rw [shapeCast_apply _ shapeCasts_S64x7x64_S64x448 (ix2 f j) (ix3 f i k) (by
    rw [Shape.rowMajor_val_three, Shape.rowMajor_val_two]
    show (f.val * 7 + i.val) * 64 + k.val = f.val * 448 + j.val
    omega)]
  exact transpose_apply [1, 0, 2] y transposes_S7x64x64_S64x7x64_1_0_2 (ix3 f i k) (ix3 i f k) (fun b => by
    match b with
    | ⟨0, _⟩ => rfl
    | ⟨1, _⟩ => rfl
    | ⟨2, _⟩ => rfl)

theorem relayout128_apply {α : Type} (y : S7x128x64.Idx → α) (f : Fin 128) (i : Fin 7) (k : Fin 64) (j : Fin 448)
    (hj : j.val = 64 * i.val + k.val) :
    shapeCast S128x448 (transpose S128x7x64 [1, 0, 2] y transposes_S7x128x64_S128x7x64_1_0_2) shapeCasts_S128x7x64_S128x448 (ix2 f j)
      = y (ix3 i f k) := by
  rw [shapeCast_apply _ shapeCasts_S128x7x64_S128x448 (ix2 f j) (ix3 f i k) (by
    rw [Shape.rowMajor_val_three, Shape.rowMajor_val_two]
    show (f.val * 7 + i.val) * 64 + k.val = f.val * 448 + j.val
    omega)]
  exact transpose_apply [1, 0, 2] y transposes_S7x128x64_S128x7x64_1_0_2 (ix3 f i k) (ix3 i f k) (fun b => by
    match b with
    | ⟨0, _⟩ => rfl
    | ⟨1, _⟩ => rfl
    | ⟨2, _⟩ => rfl)

/-! ## The four prepared arrays -/

variable (m : (ℓ : Loc nD τ sig) → Buf (Elt Ideal) ℓ) (c : Dev nD)

/-- The concatenated first-layer weights: `w1cat (f, 64·i + k) = W1 (i, f, k)`. -/
theorem V_main_v1_apply (f : Fin 128) (i : Fin 7) (k : Fin 64) (j : Fin 448) (hj : j.val = 64 * i.val + k.val) :
    (V m c main_v1 : S128x448.Idx → EReal) (ix2 f j)
      = (m ((c : Thread nD τ).loc main_arg8) : S7x128x64.Idx → EReal) (ix3 i f k) := by
  have e : (V m c main_v1 : S128x448.Idx → EReal)
      = shapeCast S128x448 (transpose S128x7x64 [1, 0, 2] (m ((c : Thread nD τ).loc main_arg8) : S7x128x64.Idx → EReal)
          transposes_S7x128x64_S128x7x64_1_0_2) shapeCasts_S128x7x64_S128x448 := by
    dsimp only [Gen.V, Gen.hostOps0]; after_results; rfl
  rw [e]
  exact relayout128_apply _ f i k j hj

/-- The concatenated second-layer weights: `w2cat (f, 64·i + k) = W2 (share i, f, k)`. -/
theorem V_main_v10_apply (f : Fin 64) (i : Fin 7) (k : Fin 64) (j : Fin 448) (hj : j.val = 64 * i.val + k.val) :
    (V m c main_v10 : S64x448.Idx → EReal) (ix2 f j)
      = (m ((c : Thread nD τ).loc main_arg10) : S7x64x64.Idx → EReal) (ix3 (Cert.Spec.share i) f k) := by
  have e : (V m c main_v10 : S64x448.Idx → EReal)
      = shapeCast S64x448 (transpose S64x7x64 [1, 0, 2]
          (Host.gather gather_S7x64x64_S7x1_S7x64x64_12_0_n_n_0_1_16464 (m ((c : Thread nD τ).loc main_arg10) : S7x64x64.Idx → EReal) tbl)
          transposes_S7x64x64_S64x7x64_1_0_2) shapeCasts_S64x7x64_S64x448 := by
    dsimp only [Gen.V, Gen.hostOps0]; after_results_simp; rfl
  rw [e, relayout64_apply _ f i k j hj, gatherRows3_apply]
  exact congrArg (fun r => (m ((c : Thread nD τ).loc main_arg10) : S7x64x64.Idx → EReal) (ix3 r f k)) (Fin.ext (tbl_apply i))

/-- The gathered second-layer bias: `b2g (i, k) = b2 (share i, k)`. -/
theorem V_main_v17_apply (i : Fin 7) (k : Fin 64) :
    (V m c main_v17 : S7x64.Idx → EReal) (ix2 i k)
      = (m ((c : Thread nD τ).loc main_arg11) : S7x64.Idx → EReal) (ix2 (Cert.Spec.share i) k) := by
  have e : (V m c main_v17 : S7x64.Idx → EReal)
      = Host.gather gather_S7x64_S7x1_S7x64_1_0_n_n_0_1_164 (m ((c : Thread nD τ).loc main_arg11) : S7x64.Idx → EReal) tbl := by
    dsimp only [Gen.V, Gen.hostOps0]; after_results_simp; rfl
  rw [e, gatherRows2_apply]
  exact congrArg (fun r => (m ((c : Thread nD τ).loc main_arg11) : S7x64.Idx → EReal) (ix2 r k)) (Fin.ext (tbl_apply i))

/-- The read-out bias as a one-row matrix: `(0, c') ↦ bro c'`. -/
theorem V_main_v18_apply (c' : Fin 4) :
    (V m c main_v18 : S1x4.Idx → EReal) (ix2 (0 : Fin 1) c')
      = (m ((c : Thread nD τ).loc main_arg13) : S4.Idx → EReal) (ix1 c') := by
  have e : (V m c main_v18 : S1x4.Idx → EReal)
      = shapeCast S1x4 (m ((c : Thread nD τ).loc main_arg13) : S4.Idx → EReal) shapeCasts_S4_S1x4 := by
    dsimp only [Gen.V, Gen.hostOps0]; after_results; rfl
  rw [e]
  exact shapeCast_a_1a_apply _ shapeCasts_S4_S1x4 (0 : Fin 1) c'

end Cert.KernelSide

end
-- ==== Proof.BridgeLayers.lean ====
import proofs.«132769_g22127671509052_cont_8to1_1196_24_alg».proof.Proof.BridgeBlk
import proofs.«132769_g22127671509052_cont_8to1_1196_24_alg».proof.Proof.PayAcc
import proofs.«132769_g22127671509052_cont_8to1_1196_24_alg».proof.Proof.PayHost

/-!
# The kernel's two layers are the specification's

A block of a layer's output, at row `q` of the block and output feature `k`, is the sum over the seven relations of
`max ((∑ p, A r (q, p) · s r (p, k)) + bias r k) 0`, where `A r` is relation `r`'s adjacency block, `s r` the `r`-th
64-column slice of the first scratch and the bias is the first layer's at a point of layer 0, the second layer's at a
point of layer 1. Point `t` holds rows `128 · (t mod 32) …`, so row `n` of the whole array is row `n mod 128` of the
block of point `n / 128` (layer 0) or `32 + n / 128` (layer 1), and `128 · (n / 128) + n mod 128 = n`.

Through layer 0 the scratch holds `features · W1` with the seven relations' weights side by side, so its slice `r` at
`(p, k)` is `∑ f, x (p, f) · W1 (r, f, k)`: the block is the specification's first layer. Through layer 1 it holds
`(first layer's output) · W2` with relation 4 reading relation 3's weights: the block is the specification's second layer.
-/

set_option maxRecDepth 16384

noncomputable section

namespace Cert.BridgeSide

open Cert.KernelIdeal Cert.KernelIdeal.Gen Cert.KernelIdeal.Hand Cert.KernelSide
open Idealize.ShloMosaic Idealize.ShloMosaic.ValueIdx Idealize.ShloMosaic.TcCoe Idealize.SL.Sem

variable (m : (ℓ : Loc nD τ sig) → Buf (Elt Ideal) ℓ) (c : Dev nD)

/-- The accumulation chain of the explicit values is the one read at an index. -/
theorem accG_eq_acc (i : grid0.Coords) (A : Fin 7 → Vec Ideal S128x4096 .f32) (s : Fin 7 → Vec Ideal S4096x64 .f32)
    (bA bB : Fin 7 → Vec Ideal S1x64 .f32) : accG (F := Ideal) i A s bA bB = acc i A s bA bB := rfl

/-- A block of layer 0 over scratch contents `s`, at (q, k): the first-layer biases. -/
theorem accAt_layer0 (t : Fin cfg0.N) (ht : t.val < 32) (s : Vec Ideal S4096x448 .f32) (q : Fin 128) (k : Fin 64)
    (hq : 128 * (t.val % 32) + q.val < 4096) :
    accAt m c t s (ix2 q k)
      = ∑ r : Fin 7, max ((∑ p : Fin 4096, (kArgs m c).adj r (ix2 ⟨128 * (t.val % 32) + q.val, hq⟩ p) * colS s r (ix2 p k))
          + (kArgs m c).b1 (ix2 r k)) 0 := by
  unfold accAt
  rw [accG_eq_acc, acc_apply_layer0 _ (layer_lo t ht)]
  refine Finset.sum_congr rfl fun r _ => ?_
  rw [rowB_apply, blk9_eq]
  refine congrArg (fun z => max (z + _) 0) (Finset.sum_congr rfl fun p _ => ?_)
  rw [blkA_apply m c t r q p hq]

/-- A block of layer 1 over scratch contents `s`, at (q, k): the second-layer biases, relation 4 reading relation 3's. -/
theorem accAt_layer1 (t : Fin cfg0.N) (ht : 32 ≤ t.val) (s : Vec Ideal S4096x448 .f32) (q : Fin 128) (k : Fin 64)
    (hq : 128 * (t.val % 32) + q.val < 4096) :
    accAt m c t s (ix2 q k)
      = ∑ r : Fin 7, max ((∑ p : Fin 4096, (kArgs m c).adj r (ix2 ⟨128 * (t.val % 32) + q.val, hq⟩ p) * colS s r (ix2 p k))
          + (kArgs m c).b2 (ix2 (Cert.Spec.share r) k)) 0 := by
  unfold accAt
  rw [accG_eq_acc, acc_apply_layer1 _ (layer_hi t ht)]
  refine Finset.sum_congr rfl fun r _ => ?_
  rw [rowB_apply, blk11_eq, V_main_v17_apply]
  refine congrArg (fun z => max (z + _) 0) (Finset.sum_congr rfl fun p _ => ?_)
  rw [blkA_apply m c t r q p hq]

/-- The first scratch through layer 0, slice `r` at (p, k): `∑ f, x (p, f) · W1 (r, f, k)`. -/
theorem colS_S1val (r : Fin 7) (p : Fin 4096) (k : Fin 64) :
    colS (S1val m c) r (ix2 p k) = ∑ f : Fin 128, (kArgs m c).x (ix2 p f) * (kArgs m c).W1 (ix3 r f k) := by
  have h : 64 * r.val + k.val < 448 := by have := r.isLt; have := k.isLt; omega
  rw [colS_apply _ r p k h]
  unfold S1val
  rw [pay4_apply, blk7_eq, blk8_eq]
  refine Finset.sum_congr rfl fun f _ => ?_
  rw [V_main_v1_apply m c f r k ⟨64 * r.val + k.val, h⟩ rfl]
  rfl

/-- The row of the whole array that row `n mod 128` of point `n / 128`'s block is. -/
theorem row_lo (n : Fin 4096) (hq : 128 * ((ptOfRow n).val % 32) + (inBlk n).val < 4096) :
    (⟨128 * ((ptOfRow n).val % 32) + (inBlk n).val, hq⟩ : Fin 4096) = n :=
  Fin.ext (by show 128 * ((n.val / 128) % 32) + n.val % 128 = n.val; have := n.isLt; omega)

theorem row_hi (n : Fin 4096) (hq : 128 * ((ptOfRow2 n).val % 32) + (inBlk n).val < 4096) :
    (⟨128 * ((ptOfRow2 n).val % 32) + (inBlk n).val, hq⟩ : Fin 4096) = n :=
  Fin.ext (by show 128 * ((32 + n.val / 128) % 32) + n.val % 128 = n.val; have := n.isLt; omega)

/-- The kernel's first layer, whole, is the specification's. -/
theorem H1val_eq : H1val (F := Ideal) m c = Cert.Spec.h1 (kArgs m c) := by
  funext y
  obtain ⟨n, k, rfl⟩ : ∃ (n : Fin 4096) (k : Fin 64), y = ix2 n k := ⟨y 0, y 1, eq_ix2 y⟩
  have hq : 128 * ((ptOfRow n).val % 32) + (inBlk n).val < 4096 := by
    show 128 * ((n.val / 128) % 32) + n.val % 128 < 4096; have := n.isLt; omega
  show accAt m c (ptOfRow n) (S1val m c) (ix2 (inBlk n) k)
    = ∑ i : Fin 7, max ((∑ p : Fin 4096, (kArgs m c).adj i (ix2 n p)
        * (∑ f : Fin 128, (kArgs m c).x (ix2 p f) * (kArgs m c).W1 (ix3 i f k))) + (kArgs m c).b1 (ix2 i k)) 0
  rw [accAt_layer0 m c (ptOfRow n) (by show n.val / 128 < 32; have := n.isLt; omega) _ (inBlk n) k hq, row_lo n hq]
  refine Finset.sum_congr rfl fun r _ => ?_
  refine congrArg (fun z => max (z + _) 0) (Finset.sum_congr rfl fun p _ => ?_)
  rw [colS_S1val]

/-- The first scratch through layer 1, slice `r` at (p, k): `∑ f, h1 (p, f) · W2 (share r, f, k)`. -/
theorem colS_S2val (r : Fin 7) (p : Fin 4096) (k : Fin 64) :
    colS (S2val m c) r (ix2 p k)
      = ∑ f : Fin 64, Cert.Spec.h1 (kArgs m c) (ix2 p f) * (kArgs m c).W2 (ix3 (Cert.Spec.share r) f k) := by
  have h : 64 * r.val + k.val < 448 := by have := r.isLt; have := k.isLt; omega
  rw [colS_apply _ r p k h]
  unfold S2val
  rw [pay5_apply, H1val_eq, blk10_eq]
  refine Finset.sum_congr rfl fun f _ => ?_
  rw [V_main_v10_apply m c f r k ⟨64 * r.val + k.val, h⟩ rfl]
  rfl

/-- What a point of layer 1 stores into the second output window, at row `n mod 128` of the point `32 + n / 128`:
    the specification's second layer at row `n`. -/
theorem O15_apply (n : Fin 4096) (k : Fin 64) :
    O15 m c (ptOfRow2 n) (ix2 (inBlk n) k) = Cert.Spec.h2 (kArgs m c) (ix2 n k) := by
  have hq : 128 * ((ptOfRow2 n).val % 32) + (inBlk n).val < 4096 := by
    show 128 * ((32 + n.val / 128) % 32) + n.val % 128 < 4096; have := n.isLt; omega
  show accAt m c (ptOfRow2 n) (S2val m c) (ix2 (inBlk n) k)
    = ∑ i : Fin 7, max ((∑ p : Fin 4096, (kArgs m c).adj i (ix2 n p)
        * (∑ f : Fin 64, Cert.Spec.h1 (kArgs m c) (ix2 p f) * (kArgs m c).W2 (ix3 (Cert.Spec.share i) f k)))
        + (kArgs m c).b2 (ix2 (Cert.Spec.share i) k)) 0
  rw [accAt_layer1 m c (ptOfRow2 n) (by show 32 ≤ 32 + n.val / 128; omega) _ (inBlk n) k hq, row_hi n hq]
  refine Finset.sum_congr rfl fun r _ => ?_
  refine congrArg (fun z => max (z + _) 0) (Finset.sum_congr rfl fun p _ => ?_)
  rw [colS_S2val]

/-- The kernel's second result, whole, is the specification's second layer. -/
theorem KH2_eq : KH2 (F := Ideal) m c = Cert.Spec.h2 (kArgs m c) := by
  funext y
  obtain ⟨n, k, rfl⟩ : ∃ (n : Fin 4096) (k : Fin 64), y = ix2 n k := ⟨y 0, y 1, eq_ix2 y⟩
  exact O15_apply m c n k

end Cert.BridgeSide

end
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.LibSoftmaxShift.lean ====
/-
  Softmax on the extended reals does not see a finite shift.  For finite entries a₀ … aₙ₋₁ and a finite m,
  exp(aᵢ − m) / Σₖ exp(aₖ − m) = exp(aᵢ) / Σₖ exp(aₖ): the factor exp(−m) is a positive real and cancels.  One
  program subtracts the row maximum before exponentiating and the other does not; the maximum of finitely many
  finite entries (a fold of max from −∞) is finite, so the two agree.  None of this holds at an infinite entry,
  which is why the entries are assumed finite.
-/
import Idealize.ShloMosaic.PureOps.Ideal
import Idealize.ShloMosaic.PureOps.Ideal.Laws

noncomputable section

namespace Idealize.ShloMosaic.SoftmaxShift

open Idealize.ShloMosaic

/-- An extended real is finite when it is neither infinity. -/
def Fin' (x : EReal) : Prop := x ≠ ⊥ ∧ x ≠ ⊤

theorem Fin'.coe (r : ℝ) : Fin' (r : EReal) := ⟨EReal.coe_ne_bot r, EReal.coe_ne_top r⟩

theorem Fin'.exists_real {x : EReal} (h : Fin' x) : ∃ r : ℝ, x = (r : EReal) :=
  ⟨x.toReal, (EReal.coe_toReal h.2 h.1).symm⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The −∞ word of the 32-bit format denotes the bottom of the extended reals. -/
theorem ofBits_neg_inf_f32 : Ideal.ofBits .f32 0xFF800000#32 = ⊥ := by
  simp [Ideal.ofBits, Ideal.ieee]

/-- Shift invariance over real entries. -/
theorem softmax_shift_real {n : ℕ} (hn : 0 < n) (a : Fin n → ℝ) (m : ℝ) (i : Fin n) :
    Ideal.div (Ideal.exp ((a i : EReal) - (m : EReal))) (∑ k : Fin n, Ideal.exp ((a k : EReal) - (m : EReal)))
      = Ideal.div (Ideal.exp (a i : EReal)) (∑ k : Fin n, Ideal.exp (a k : EReal)) := by
  haveI : Nonempty (Fin n) := ⟨⟨0, hn⟩⟩
  have hpos1 : 0 < ∑ k : Fin n, Real.exp (a k - m) :=
    Finset.sum_pos (fun k _ => Real.exp_pos _) Finset.univ_nonempty
  have hpos2 : 0 < ∑ k : Fin n, Real.exp (a k) :=
    Finset.sum_pos (fun k _ => Real.exp_pos _) Finset.univ_nonempty
  simp only [← EReal.coe_sub, Ideal.exp_coe, ← coe_sum]
  rw [Ideal.div_coe hpos1.ne', Ideal.div_coe hpos2.ne', ← EReal.coe_mul, ← EReal.coe_mul]
  congr 1
  have hsum : ∑ k : Fin n, Real.exp (a k - m) = (∑ k : Fin n, Real.exp (a k)) / Real.exp m := by
    rw [Finset.sum_div]; exact Finset.sum_congr rfl fun k _ => Real.exp_sub _ _
  rw [hsum, Real.exp_sub]
  have hm : Real.exp m ≠ 0 := (Real.exp_pos m).ne'
  field_simp

/-- Shift invariance over finite extended-real entries and a finite shift. -/
theorem softmax_shift {n : ℕ} (hn : 0 < n) (a : Fin n → EReal) (m : EReal) (ha : ∀ k, Fin' (a k)) (hm : Fin' m)
    (i : Fin n) :
    Ideal.div (Ideal.exp (a i - m)) (∑ k : Fin n, Ideal.exp (a k - m))
      = Ideal.div (Ideal.exp (a i)) (∑ k : Fin n, Ideal.exp (a k)) := by
  obtain ⟨mr, rfl⟩ := hm.exists_real
  have hb : ∃ b : Fin n → ℝ, ∀ k, a k = (b k : EReal) :=
    ⟨fun k => (a k).toReal, fun k => (EReal.coe_toReal (ha k).2 (ha k).1).symm⟩
  obtain ⟨b, hb⟩ := hb
  simp only [hb]
  exact softmax_shift_real hn b mr i

/-- The maximum of finitely many (at least one) finite entries, taken as a fold of max from −∞, is finite. -/
theorem fold_max_finite {n : ℕ} (hn : 0 < n) (a : Fin n → EReal) (ha : ∀ k, Fin' (a k)) :
    Fin' ((Finset.univ : Finset (Fin n)).fold max ⊥ a) := by
  constructor
  · rw [← bot_lt_iff_ne_bot, Finset.lt_fold_max]
    exact Or.inr ⟨⟨0, hn⟩, Finset.mem_univ _, bot_lt_iff_ne_bot.mpr (ha _).1⟩
  · rw [← lt_top_iff_ne_top, Finset.fold_max_lt]
    exact ⟨bot_lt_top, fun k _ => lt_top_iff_ne_top.mpr (ha k).2⟩

/-- The softmax that subtracts the row maximum (a fold of max from −∞, capped below by −∞ once more, its sum started
    at zero) is the plain softmax, at finite entries. -/
theorem softmax_max_shift {n : ℕ} (hn : 0 < n) (a : Fin n → EReal) (ha : ∀ k, Fin' (a k)) (i : Fin n) :
    Ideal.div (Ideal.exp (a i - max ⊥ ((Finset.univ : Finset (Fin n)).fold max ⊥ a)))
        (0 + ∑ k : Fin n, Ideal.exp (a k - max ⊥ ((Finset.univ : Finset (Fin n)).fold max ⊥ a)))
      = Ideal.div (Ideal.exp (a i)) (∑ k : Fin n, Ideal.exp (a k)) := by
  rw [zero_add, max_eq_right bot_le]
  exact softmax_shift hn a _ ha (fold_max_finite hn a ha) i

end Idealize.ShloMosaic.SoftmaxShift

end
-- ==== Proof.RealLaws.lean ====
import Idealize.ShloMosaic.PureOps.Ideal
import Idealize.ShloMosaic.PureOps.Ideal.Laws
import proofs.«132769_g22127671509052_cont_8to1_1196_24_alg».proof.Proof.LibSoftmaxShift

/-!
# The log-softmax does not see a finite shift; a maximum of reals is a real

For real logits `l` over a nonempty finite set of classes and a real shift `m`,

  `∑ c, exp (l c - m) = (∑ c, exp (l c)) / exp m`, a positive real, so
  `log (∑ c, exp (l c - m)) = log (∑ c, exp (l c)) - m`.

Hence both max-subtracting arrangements of the log-softmax,

  `l c - (log (∑ c', exp (l c' - m)) + m)`   and   `(l c - m) - log (∑ c', exp (l c' - m))`,

are the plain `l c - log (∑ c', exp (l c'))`. Everything is stated on the extended reals at real entries, where
`exp` of a real is the real exponential and `log` of a positive real the real logarithm.

The shift the programs use is the row maximum, a fold of `max` from `-∞` over the row: over at least one real
entry it is a real.
-/

noncomputable section

namespace Cert.RealSide

open Idealize.ShloMosaic Idealize.ShloMosaic.SoftmaxShift

section Laws

variable {ι : Type*} [Fintype ι] [Nonempty ι]

/-- A sum of exponentials over a nonempty finite set is positive. -/
theorem sum_exp_pos (l : ι → ℝ) : 0 < ∑ c, Real.exp (l c) :=
  Finset.sum_pos (fun _ _ => Real.exp_pos _) Finset.univ_nonempty

/-- The logarithm of the sum of exponentials of real entries is the real one. -/
theorem log_sum_exp (l : ι → ℝ) :
    Ideal.log (∑ c, Ideal.exp (l c : EReal)) = ((Real.log (∑ c, Real.exp (l c)) : ℝ) : EReal) := by
  simp only [Ideal.exp_coe, ← coe_sum]
  rw [Ideal.log_coe, if_neg (not_le.mpr (sum_exp_pos l))]

/-- Shifting every entry by `m` shifts the logarithm of the sum of exponentials by `m`. -/
theorem log_sum_exp_shift (l : ι → ℝ) (m : ℝ) :
    Ideal.log (∑ c, Ideal.exp ((l c : EReal) - (m : EReal)))
      = ((Real.log (∑ c, Real.exp (l c)) - m : ℝ) : EReal) := by
  simp only [← EReal.coe_sub]
  rw [log_sum_exp (fun c => l c - m)]
  congr 1
  have hsum : ∑ c, Real.exp (l c - m) = (∑ c, Real.exp (l c)) / Real.exp m := by
    rw [Finset.sum_div]; exact Finset.sum_congr rfl fun k _ => Real.exp_sub _ _
  rw [hsum, Real.log_div (sum_exp_pos l).ne' (Real.exp_pos m).ne', Real.log_exp]

/-- The arrangement `l c - (log (∑ exp (l - m)) + m)` is the plain log-softmax. -/
theorem lsm_sub_add_gen (l : ι → ℝ) (m : ℝ) (c : ι) :
    ((l c : EReal) - (Ideal.log (∑ c', Ideal.exp ((l c' : EReal) - (m : EReal))) + (m : EReal)))
      = (l c : EReal) - Ideal.log (∑ c', Ideal.exp (l c' : EReal)) := by
  rw [log_sum_exp_shift, log_sum_exp, ← EReal.coe_add, sub_add_cancel]

/-- The arrangement `(l c - m) - log (∑ exp (l - m))` is the plain log-softmax. -/
theorem lsm_sub_sub_gen (l : ι → ℝ) (m : ℝ) (c : ι) :
    (((l c : EReal) - (m : EReal)) - Ideal.log (∑ c', Ideal.exp ((l c' : EReal) - (m : EReal))))
      = (l c : EReal) - Ideal.log (∑ c', Ideal.exp (l c' : EReal)) := by
  rw [log_sum_exp_shift, log_sum_exp, ← EReal.coe_sub, ← EReal.coe_sub, ← EReal.coe_sub]
  congr 1
  ring

end Laws

/-- Four classes: `l c - (log (∑ exp (l - m)) + m) = l c - log (∑ exp l)`. -/
theorem lsm_sub_add (l : Fin 4 → ℝ) (m : ℝ) (c : Fin 4) :
    ((l c : EReal) - (Ideal.log (∑ c' : Fin 4, Ideal.exp ((l c' : EReal) - (m : EReal))) + (m : EReal)))
      = (l c : EReal) - Ideal.log (∑ c' : Fin 4, Ideal.exp (l c' : EReal)) :=
  lsm_sub_add_gen l m c

/-- Four classes: `(l c - m) - log (∑ exp (l - m)) = l c - log (∑ exp l)`. -/
theorem lsm_sub_sub (l : Fin 4 → ℝ) (m : ℝ) (c : Fin 4) :
    (((l c : EReal) - (m : EReal)) - Ideal.log (∑ c' : Fin 4, Ideal.exp ((l c' : EReal) - (m : EReal))))
      = (l c : EReal) - Ideal.log (∑ c' : Fin 4, Ideal.exp (l c' : EReal)) :=
  lsm_sub_sub_gen l m c

/-! ## A maximum of reals, started from `-∞`, is a real -/

/-- Capping below by `-∞` changes nothing. -/
theorem max_bot_eq (x : EReal) : max ⊥ x = x := max_eq_right bot_le

/-- The fold of `max` from `-∞` over at least one real entry is a real. -/
theorem fold_max_real {n : ℕ} (hn : 0 < n) (a : Fin n → EReal) (ha : ∀ k, ∃ r : ℝ, a k = (r : EReal)) :
    ∃ r : ℝ, (Finset.univ : Finset (Fin n)).fold max ⊥ a = (r : EReal) :=
  (fold_max_finite hn a fun k => by obtain ⟨r, hr⟩ := ha k; rw [hr]; exact Fin'.coe r).exists_real

/-- The same fold started from the `-∞` word of the 32-bit format. -/
theorem fold_max_real_word {n : ℕ} (hn : 0 < n) (a : Fin n → EReal) (ha : ∀ k, ∃ r : ℝ, a k = (r : EReal)) :
    ∃ r : ℝ, (Finset.univ : Finset (Fin n)).fold max (Ideal.ofBits .f32 0xFF800000#32) a = (r : EReal) := by
  rw [ofBits_neg_inf_f32]; exact fold_max_real hn a ha

/-- The fold capped below by `-∞` once more. -/
theorem max_bot_fold_max_real {n : ℕ} (hn : 0 < n) (a : Fin n → EReal) (ha : ∀ k, ∃ r : ℝ, a k = (r : EReal)) :
    ∃ r : ℝ, max ⊥ ((Finset.univ : Finset (Fin n)).fold max ⊥ a) = (r : EReal) := by
  rw [max_bot_eq]; exact fold_max_real hn a ha

theorem max_bot_fold_max_real_word {n : ℕ} (hn : 0 < n) (a : Fin n → EReal) (ha : ∀ k, ∃ r : ℝ, a k = (r : EReal)) :
    ∃ r : ℝ, max (Ideal.ofBits .f32 0xFF800000#32)
      ((Finset.univ : Finset (Fin n)).fold max (Ideal.ofBits .f32 0xFF800000#32) a) = (r : EReal) := by
  rw [ofBits_neg_inf_f32]; exact max_bot_fold_max_real hn a ha

/-- The maximum of two reals, on the extended reals, is their maximum as reals. -/
theorem max_coe (a b : ℝ) : max (a : EReal) (b : EReal) = ((max a b : ℝ) : EReal) :=
  (EReal.coe_strictMono.monotone.map_max).symm

/-- The left fold over four real entries written out. -/
theorem max4_real (a0 a1 a2 a3 : ℝ) :
    ∃ r : ℝ, max (max (max (max ⊥ (a0 : EReal)) (a1 : EReal)) (a2 : EReal)) (a3 : EReal) = (r : EReal) :=
  ⟨max (max (max a0 a1) a2) a3, by rw [max_bot_eq, max_coe, max_coe, max_coe]⟩

/-- The written-out left fold capped below by `-∞` once more. -/
theorem max_bot_max4_real (a0 a1 a2 a3 : ℝ) :
    ∃ r : ℝ, max ⊥ (max (max (max (max ⊥ (a0 : EReal)) (a1 : EReal)) (a2 : EReal)) (a3 : EReal)) = (r : EReal) := by
  rw [max_bot_eq]; exact max4_real a0 a1 a2 a3

end Cert.RealSide

end
-- ==== Proof.PayReadout.lean ====
import proofs.«132769_g22127671509052_cont_8to1_1196_24_alg».proof.Proof.PayDot
import proofs.«132769_g22127671509052_cont_8to1_1196_24_alg».proof.Proof.LibRowOps
import proofs.«132769_g22127671509052_cont_8to1_1196_24_alg».proof.Proof.LibSoftmaxShift
import proofs.«132769_g22127671509052_cont_8to1_1196_24_alg».proof.Proof.RealLaws
import Idealize.ShloMosaic.Lib.ValueLayout

/-!
# The kernel's read-out, read at an index

From the accumulated second-layer block `a : [128, 64]` the kernel forms four logits per row,
`l (q, c) = (∑ k, a (q, k) · Wro (k, c)) + bro c`, and their log-softmax in the max-subtracting arrangement
`l (q, c) − (log (∑ c', exp (l (q, c') − M q)) + M q)`, where `M q` is the row maximum taken as a fold of `max` from −∞.
When the row's four logits are real numbers the maximum is a real number and the arrangement is the plain
`l (q, c) − log (∑ c', exp (l (q, c')))`.
-/

noncomputable section

namespace Cert.KernelSide

open Cert.KernelIdeal Cert.KernelIdeal.Gen Idealize.ShloMosaic Idealize.ShloMosaic.ValueIdx
open Cert.Lib.RowOps

/-- The four logits of each row: the block times the read-out weights, plus the read-out bias row. -/
def logits (a : FVec Ideal S128x64 .f32) (wro : FVec Ideal S64x4 .f32) (bro : FVec Ideal S1x4 .f32) : FVec Ideal S128x4 .f32 :=
  addf (matmul dot_S128x64_S64x4_S128x4_1_0_0_1_n_n none a wro (constant S128x4 .f32 0x00000000#32))
    (broadcastTo S128x4 (shapeCast S1x4 bro shapeCasts_S1x4_S1x4) broadcasts_S1x4_S128x4)

/-- The row maxima as a column. -/
def rowMaxCol (l : FVec Ideal S128x4 .f32) : FVec Ideal S128x1 .f32 :=
  shapeCast S128x1 (multiReduction .maximumf [1] S128 l 0xFF800000#32 reduces_S128x4_S128 (.inl rfl) rfl) shapeCasts_S128_S128x1

/-- The log-softmax of each row in the kernel's arrangement: `l − (log (∑ exp (l − max)) + max)`. -/
def lsm (l : FVec Ideal S128x4 .f32) : FVec Ideal S128x4 .f32 :=
  subf l
    (broadcastTo S128x4
      (addf
        (log (shapeCast S128x1
          (multiReduction .add [1] S128 (exp (subf l (broadcastTo S128x4 (rowMaxCol l) broadcasts_S128x1_S128x4)))
            0x00000000#32 reduces_S128x4_S128 (.inl rfl) rfl)
          shapeCasts_S128_S128x1))
        (rowMaxCol l))
      broadcasts_S128x1_S128x4)

/-- The read-out of a block: the log-softmax of its logits. -/
def readout (a : FVec Ideal S128x64 .f32) (wro : Vec Ideal S64x4 .f32) (bro : Vec Ideal S1x4 .f32) : FVec Ideal S128x4 .f32 :=
  lsm (logits a wro bro)

/-- The kernel's read-out payload is the read-out of its accumulated block. -/
theorem pay3_eq (arg0 : BitVec 32) (v100 : FVec Ideal S128x64 .f32) (v101 : Vec Ideal S128x4096 .f32)
    (v102 : Vec Ideal S4096x64 .f32) (v105 v107 : Vec Ideal S1x64 .f32) (v123 : Vec Ideal S64x4 .f32) (v125 : Vec Ideal S1x4 .f32) :
    k0_pay3 (F := Ideal) arg0 v100 v101 v102 v105 v107 v123 v125
      = readout (k0_pay1 (F := Ideal) arg0 v100 v101 v102 v105 v107) v123 v125 := rfl

/-- The logit of row `q`, class `c`. -/
theorem logits_apply (a : FVec Ideal S128x64 .f32) (wro : FVec Ideal S64x4 .f32) (bro : FVec Ideal S1x4 .f32)
    (q : Fin 128) (c : Fin 4) :
    logits a wro bro (ix2 q c) = (∑ k : Fin 64, a (ix2 q k) * wro (ix2 k c)) + bro (ix2 (0 : Fin 1) c) := by
  unfold logits
  rw [addf_apply, mm_128_64_4, broadcastTo_1b_ab_apply, shapeCast_self]

/-- The maximum of row `q`: the fold of `max` over the row's four entries, from −∞. -/
def rowMax (l : FVec Ideal S128x4 .f32) (q : Fin 128) : EReal :=
  (Finset.univ : Finset (Fin 4)).fold max (Ideal.ofBits .f32 0xFF800000#32) (fun c' => l (ix2 q c'))

theorem rowMaxCol_apply (l : FVec Ideal S128x4 .f32) (q : Fin 128) (u : Fin 1) :
    rowMaxCol l (ix2 q u) = rowMax l q := by
  unfold rowMaxCol rowMax
  rw [vec_col]
  exact vec_rowMax l reduces_S128x4_S128 (.inl rfl) rfl q

theorem log_apply {s : Shape} {φ : FTy} (x : FVec Ideal s φ) (i : s.Idx) : log x i = Ideal.log (x i) := rfl

/-- The kernel's arrangement of the log-softmax at row `q`, class `c`. -/
theorem lsm_apply (l : FVec Ideal S128x4 .f32) (q : Fin 128) (c : Fin 4) :
    lsm l (ix2 q c)
      = l (ix2 q c) - (Ideal.log (∑ c' : Fin 4, Ideal.exp (l (ix2 q c') - rowMax l q)) + rowMax l q) := by
  unfold lsm
  rw [subf_apply, vec_colBroadcast, addf_apply, log_apply, vec_col, rowMaxCol_apply]
  rw [vec_rowSum _ reduces_S128x4_S128 (.inl rfl) rfl q]
  refine congrArg (fun t => l (ix2 q c) - (Ideal.log t + rowMax l q)) (Finset.sum_congr rfl fun c' _ => ?_)
  rw [exp_apply, subf_apply, vec_colBroadcast, rowMaxCol_apply]

/-- The read-out at row `q`, class `c`, with `l` the logits and `M` the row maximum. -/
theorem readout_apply (a : FVec Ideal S128x64 .f32) (wro : Vec Ideal S64x4 .f32) (bro : Vec Ideal S1x4 .f32)
    (q : Fin 128) (c : Fin 4) :
    readout a wro bro (ix2 q c)
      = logits a wro bro (ix2 q c)
        - (Ideal.log (∑ c' : Fin 4, Ideal.exp (logits a wro bro (ix2 q c') - rowMax (logits a wro bro) q))
            + rowMax (logits a wro bro) q) :=
  lsm_apply (logits a wro bro) q c

/-- At a row whose four logits are real numbers, the read-out is the plain log-softmax of the logits. -/
theorem readout_apply_real (a : FVec Ideal S128x64 .f32) (wro : Vec Ideal S64x4 .f32) (bro : Vec Ideal S1x4 .f32)
    (q : Fin 128) (c : Fin 4) (hl : ∀ c' : Fin 4, ∃ r : ℝ, logits a wro bro (ix2 q c') = (r : EReal)) :
    readout a wro bro (ix2 q c)
      = logits a wro bro (ix2 q c) - Ideal.log (∑ c' : Fin 4, Ideal.exp (logits a wro bro (ix2 q c'))) := by
  rw [readout_apply]
  obtain ⟨mr, hm⟩ := Cert.RealSide.fold_max_real_word (n := 4) (by decide)
    (fun c' => logits a wro bro (ix2 q c')) hl
  have hM : rowMax (logits a wro bro) q = (mr : EReal) := hm
  choose lr hlr using hl
  rw [hM]
  simp only [hlr]
  exact Cert.RealSide.lsm_sub_add lr mr c

end Cert.KernelSide

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.RealSpec.lean ====
import proofs.«132769_g22127671509052_cont_8to1_1196_24_alg».proof.Proof.Spec
import proofs.«132769_g22127671509052_cont_8to1_1196_24_alg».proof.Proof.LibFinite

/-!
# At real arguments every layer output and every logit is a real

A layer's entry is a sum over the seven relations of `max (s + b) 0`, where `s` is a finite sum of products of
finite sums of products of entries: sums, products and maxima of reals are reals, so at real adjacency, feature,
weight and bias entries it is a real. The first layer reads the arguments, the second reads the first layer's
output, the read-out reads the second's.
-/

noncomputable section

namespace Cert.RealSide

open Idealize.ShloMosaic Idealize.ShloMosaic.ValueIdx Cert.Finite Cert.Spec

/-- One layer at real adjacency, feature, weight and bias entries is a real. -/
theorem layer_real {K : Nat} (adj : Fin 7 → Mat 4096 4096) (h : Mat 4096 K) (W : Fin 7 → Fin K → Fin 64 → EReal)
    (b : Fin 7 → Fin 64 → EReal) (hadj : ∀ i j, IsReal (adj i j)) (hh : ∀ j, IsReal (h j))
    (hW : ∀ i f k, IsReal (W i f k)) (hb : ∀ i k, IsReal (b i k)) (n : Fin 4096) (k : Fin 64) :
    IsReal (layer adj h W b n k) := by
  unfold layer
  exact isReal_sum _ _ fun i _ =>
    ((isReal_sum _ _ fun p _ => (hadj i _).mul (isReal_sum _ _ fun f _ => (hh _).mul (hW i f k))).add (hb i k)).max
      isReal_zero

variable (a : Args) (ha : a.AllReal)
include ha

/-- The first layer's output is real. -/
theorem h1_real (j : (⟨2, ![4096, 64]⟩ : Shape).Idx) : ∃ r : ℝ, h1 a j = (r : EReal) :=
  layer_real a.adj a.x _ _ ha.adj ha.x (fun _ _ _ => ha.W1 _) (fun _ _ => ha.b1 _) (j 0) (j 1)

/-- The second layer's output is real. -/
theorem h2_real (j : (⟨2, ![4096, 64]⟩ : Shape).Idx) : ∃ r : ℝ, h2 a j = (r : EReal) :=
  layer_real a.adj (h1 a) _ _ ha.adj (h1_real a ha) (fun _ _ _ => ha.W2 _) (fun _ _ => ha.b2 _) (j 0) (j 1)

/-- Every logit is real. -/
theorem logit_real (n : Fin 4096) (c : Fin 4) : ∃ r : ℝ, logit a n c = (r : EReal) := by
  unfold logit
  exact (isReal_sum _ _ fun k _ => IsReal.mul (h2_real a ha _) (ha.Wro _)).add (ha.bro _)

/-- The logits of one node as real numbers. -/
theorem logit_real_row (n : Fin 4096) : ∃ l : Fin 4 → ℝ, ∀ c, logit a n c = (l c : EReal) :=
  ⟨fun c => (logit_real a ha n c).choose, fun c => (logit_real a ha n c).choose_spec⟩

end Cert.RealSide

end
-- ==== Proof.BridgeLogp.lean ====
import proofs.«132769_g22127671509052_cont_8to1_1196_24_alg».proof.Proof.BridgeLayers
import proofs.«132769_g22127671509052_cont_8to1_1196_24_alg».proof.Proof.PayReadout
import proofs.«132769_g22127671509052_cont_8to1_1196_24_alg».proof.Proof.RealSpec

/-!
# The kernel's first result is the specification's log-softmax

At a point of layer 1 the body reads out its block of the second layer's output: four logits per row,
`(∑ k, h2 (n, k) · Wro (k, c)) + bro c`, the specification's logits of node `n`, and then their log-softmax in the
max-subtracting arrangement. At real arguments the logits are real numbers, the row maximum is a real number, and
the arrangement is the plain `l c - log (∑ c', exp (l c'))` of the specification.
-/

set_option maxRecDepth 16384

noncomputable section

namespace Cert.BridgeSide

open Cert.KernelIdeal Cert.KernelIdeal.Gen Cert.KernelIdeal.Hand Cert.KernelSide
open Idealize.ShloMosaic Idealize.ShloMosaic.ValueIdx Idealize.ShloMosaic.TcCoe Idealize.SL.Sem

variable (m : (ℓ : Loc nD τ sig) → Buf (Elt Ideal) ℓ) (c : Dev nD)

/-- What a point of layer 1 stores into the first output window is the read-out of what it stores into the second. -/
theorem O14_eq_readout (t : Fin cfg0.N) :
    O14 (F := Ideal) m c t = readout (O15 (F := Ideal) m c t) (iblk m c 12 t) (iblk m c 13 t) := rfl

/-- The block's logits at row `n mod 128` of point `32 + n / 128` are the specification's logits of node `n`. -/
theorem logits_O15 (n : Fin 4096) (c' : Fin 4) :
    logits (O15 (F := Ideal) m c (ptOfRow2 n)) (iblk m c 12 (ptOfRow2 n)) (iblk m c 13 (ptOfRow2 n)) (ix2 (inBlk n) c')
      = Cert.Spec.logit (kArgs m c) n c' := by
  rw [logits_apply, blk12_eq, blk13_eq, V_main_v18_apply]
  show _ = (∑ k : Fin 64, Cert.Spec.h2 (kArgs m c) (ix2 n k) * (kArgs m c).Wro (ix2 k c')) + (kArgs m c).bro (ix1 c')
  refine congrArg (· + _) (Finset.sum_congr rfl fun k _ => ?_)
  rw [O15_apply]
  rfl

/-- The kernel's first result, whole, is the specification's log-softmax, at real arguments. -/
theorem KLogp_eq (ha : (kArgs m c).AllReal) : KLogp (F := Ideal) m c = Cert.Spec.logp (kArgs m c) := by
  funext y
  obtain ⟨n, cc, rfl⟩ : ∃ (n : Fin 4096) (cc : Fin 4), y = ix2 n cc := ⟨y 0, y 1, eq_ix2 y⟩
  show O14 m c (ptOfRow2 n) (ix2 (inBlk n) cc)
    = Cert.Spec.logit (kArgs m c) n cc - Ideal.log (∑ c' : Fin 4, Ideal.exp (Cert.Spec.logit (kArgs m c) n c'))
  rw [O14_eq_readout, readout_apply_real _ _ _ _ _ (fun c' => by
    rw [logits_O15]; exact Cert.RealSide.logit_real _ ha n c')]
  simp only [logits_O15]

end Cert.BridgeSide

end
-- ==== Proof.RealPre.lean ====
import proofs.«132769_g22127671509052_cont_8to1_1196_24_alg».proof.Pre_finite_inputs
import proofs.«132769_g22127671509052_cont_8to1_1196_24_alg».proof.Proof.Spec
import Idealize.ShloMosaic.Lib.ReduceAll
import Idealize.ShloMosaic.Lib.ValueIdx

/-!
# The precondition says every argument entry is a real

The precondition and-s, over the fourteen argument arrays, `all (|x| < +∞)`. On the extended reals
`|x| = max x (-x)` is `+∞` exactly at the two infinities, so `|x| < +∞` says `x` is a real. An `and` of bits
is 1 only if both are; an `and`-reduction over all axes that is 1 met a 1 at every index.
-/

noncomputable section

namespace Cert.RealSide

open Idealize.ShloMosaic Idealize.ShloMosaic.ValueIdx Cert.Pre_finite_inputs

/-- The rank-zero shape has one index. -/
instance subsingleton_scalarIdx : Subsingleton S_.Idx := ⟨fun a b => funext fun d => d.elim0⟩

/-- The `+∞` word of the 32-bit format denotes the top of the extended reals. -/
theorem ofBits_pos_inf_f32 : Ideal.ofBits .f32 0x7F800000#32 = ⊤ := by
  simp [Ideal.ofBits, Ideal.ieee]

/-- `|x| < +∞` holds only at a real `x`. -/
theorem real_of_abs_lt_inf (x : EReal)
    (h : Ideal.cmp .olt (max x (-x)) (Ideal.ofBits .f32 0x7F800000#32) = 1#1) : ∃ r : ℝ, x = (r : EReal) := by
  rw [ofBits_pos_inf_f32] at h
  induction x using EReal.rec with
  | bot => simp [Ideal.cmp] at h
  | top => simp [Ideal.cmp] at h
  | coe r => exact ⟨r, rfl⟩

/-- One array: if `all (|x| < +∞)` is 1 then every entry of `x` is a real. -/
theorem allReal_of_all {s : Shape} {axes : List (Fin s.rank)} (x : FVec Ideal s .f32) (dims : Fin S_.rank → Fin s.rank)
    (bc : S_.BroadcastsInDim s dims) (hr : s.ReducesTo axes S_) (hu : 0 < S_.numel)
    (e : Host.reduce IntOp.andi
          (cmpf .olt (Host.absf x) (broadcastInDim s dims bc (constant (F := Ideal) S_ .f32 0x7F800000#32)))
          (constantI S_ 1 1#1) hr hu ix0 = 1#1)
    (i : s.Idx) : ∃ r : ℝ, x i = (r : EReal) :=
  real_of_abs_lt_inf (x i) (Host.reduce_andi_all _ _ hr hu ix0 e i)

variable [Facts]

/-- The printed precondition at the extended reals, being all ones, makes the fourteen arrays, read as the
    specification's argument record, real at every entry. -/
theorem allReal_of_fn (x0 : FVec Ideal S4096x128 .f32) (x1 x2 x3 x4 x5 x6 x7 : FVec Ideal S4096x4096 .f32)
    (x8 : FVec Ideal S7x128x64 .f32) (x9 : FVec Ideal S7x64 .f32) (x10 : FVec Ideal S7x64x64 .f32)
    (x11 : FVec Ideal S7x64 .f32) (x12 : FVec Ideal S64x4 .f32) (x13 : FVec Ideal S4 .f32)
    (h : Cert.Pre_finite_inputs.fn (F := Ideal) x0 x1 x2 x3 x4 x5 x6 x7 x8 x9 x10 x11 x12 x13 = fun _ => 1#1) :
    (Cert.Spec.mkArgs x0 x1 x2 x3 x4 x5 x6 x7 x8 x9 x10 x11 x12 x13).AllReal := by
  have h0 := congrFun h ix0
  dsimp only [fn, fn_part1, fn_part2, fn_part3, fn_part4, andi] at h0
  simp only [IntOp.andi_eq_one] at h0
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := h0
  exact
    { x := allReal_of_all x0 _ _ _ _ e0
      adj := fun i => by
        match i with
        | ⟨0, _⟩ => exact allReal_of_all x1 _ _ _ _ e1
        | ⟨1, _⟩ => exact allReal_of_all x2 _ _ _ _ e2
        | ⟨2, _⟩ => exact allReal_of_all x3 _ _ _ _ e3
        | ⟨3, _⟩ => exact allReal_of_all x4 _ _ _ _ e4
        | ⟨4, _⟩ => exact allReal_of_all x5 _ _ _ _ e5
        | ⟨5, _⟩ => exact allReal_of_all x6 _ _ _ _ e6
        | ⟨6, _⟩ => exact allReal_of_all x7 _ _ _ _ e7
      W1 := allReal_of_all x8 _ _ _ _ e8
      b1 := allReal_of_all x9 _ _ _ _ e9
      W2 := allReal_of_all x10 _ _ _ _ e10
      b2 := allReal_of_all x11 _ _ _ _ e11
      Wro := allReal_of_all x12 _ _ _ _ e12
      bro := allReal_of_all x13 _ _ _ _ e13 }

end Cert.RealSide

end
-- ==== Proof.RefStack.lean ====
import proofs.«132769_g22127671509052_cont_8to1_1196_24_alg».proof.Proof.Gen.ReferenceIdeal
import Idealize.ShloMosaic.Lib.Pipeline.Value
import Idealize.ShloMosaic.Lib.ValueIdx
import Idealize.ShloMosaic.PureOps.Ideal.Laws

/-!
# A stack of seven matrices summed along the stacking axis

The host program lays seven `4096 × 64` matrices side by side along a new leading axis (each broadcast to
`1 × 4096 × 64`, then concatenated to `7 × 4096 × 64`) and adds along that axis starting from zero.
Read at an index `(n, k)` the result is `∑ r : Fin 7, q r (n, k)`.
-/

noncomputable section

namespace Cert.RefSide

open Cert.ReferenceIdeal Cert.ReferenceIdeal.Gen Idealize.ShloMosaic Idealize.ShloMosaic.ValueIdx

/-- The concatenation of seven unit-thick slabs, read at an index: slab `j 0` at `(0, j 1, j 2)`. -/
theorem stack7_apply {α : Type} (q : Fin 7 → (S1x4096x64.Idx → α)) (j : S7x4096x64.Idx) :
    concatenate S7x4096x64 0 [⟨S1x4096x64, q 0⟩, ⟨S1x4096x64, q 1⟩, ⟨S1x4096x64, q 2⟩, ⟨S1x4096x64, q 3⟩,
        ⟨S1x4096x64, q 4⟩, ⟨S1x4096x64, q 5⟩, ⟨S1x4096x64, q 6⟩]
      concatenates_S1x4096x64_S1x4096x64_S1x4096x64_S1x4096x64_S1x4096x64_S1x4096x64_S1x4096x64_S7x4096x64_d0 j
      = q (j 0) (ix3 (0 : Fin 1) (j 1) (j 2)) :=
  concatenate_ofFn_unit_apply (t := S7x4096x64) (s₁ := S1x4096x64) (0 : Fin 3) q
    concatenates_S1x4096x64_S1x4096x64_S1x4096x64_S1x4096x64_S1x4096x64_S1x4096x64_S1x4096x64_S7x4096x64_d0
    rfl rfl j (j 0) rfl (ix3 (0 : Fin 1) (j 1) (j 2))
    (fun b hb => by
      match b with
      | ⟨0, _⟩ => exact absurd rfl hb
      | ⟨1, _⟩ => rfl
      | ⟨2, _⟩ => rfl)

end Cert.RefSide

end
-- ==== Proof.RefLayer1.lean ====
import proofs.«132769_g22127671509052_cont_8to1_1196_24_alg».proof.Proof.RefReadP
import proofs.«132769_g22127671509052_cont_8to1_1196_24_alg».proof.Proof.RefStack
import proofs.«132769_g22127671509052_cont_8to1_1196_24_alg».proof.Proof.Spec

/-!
# The first layer of the host program is the specification's first layer

Each of the seven relations is read off the host program's stages at an index: the slice of the weights and of the
bias for relation `r`, the two matrix products `adj r · (x · W r)`, the bias added along the rows, the maximum with
zero, and the unit leading axis under which the seven results are stacked. The sum of the stack along that axis,
started at zero, is the sum over the relations.
-/

noncomputable section

namespace Cert.RefSide

open Cert.ReferenceIdeal Cert.ReferenceIdeal.Gen Cert.ReferenceIdeal.ReadP Idealize.ShloMosaic Idealize.ShloMosaic.ValueIdx

/-- Relation 0 of the first layer as the host program stacks it, read at node `n`, feature `k`. -/
theorem rel1_0 (x0 : (⟨S4096x128, .f32⟩ : BufTy).Contents (Elt Ideal)) (x1 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v70 (F := Ideal) x0 x1 x8 x9 (ix3 (0 : Fin 1) n k)
      = max ((∑ p : Fin 4096, x1 (ix2 n p) * ∑ f : Fin 128, x0 (ix2 p f) * x8 (ix3 (0 : Fin 7) f k))
          + x9 (ix2 (0 : Fin 7) k)) 0 := by
  rw [val_main_v70_apply, val_main_v9_apply, val_main_v8_apply, val_main_v5_apply, val_main_v7_apply, val_main_v6_apply, val_main_v3_apply,
    val_main_v2_apply, val_main_call0_v0_apply, val_main_call0_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v4_apply]
    refine congrArg₂ (· * ·) (congrArg x1 ?_) (Finset.sum_congr rfl fun f _ => ?_)
    · exact funext fun a => Fin.ext (by match a with | ⟨0, _⟩ => rfl | ⟨1, _⟩ => rfl)
    · rw [val_main_v1_apply, val_main_v0_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 1 of the first layer as the host program stacks it, read at node `n`, feature `k`. -/
theorem rel1_1 (x0 : (⟨S4096x128, .f32⟩ : BufTy).Contents (Elt Ideal)) (x2 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v71 (F := Ideal) x0 x2 x8 x9 (ix3 (0 : Fin 1) n k)
      = max ((∑ p : Fin 4096, x2 (ix2 n p) * ∑ f : Fin 128, x0 (ix2 p f) * x8 (ix3 (1 : Fin 7) f k))
          + x9 (ix2 (1 : Fin 7) k)) 0 := by
  rw [val_main_v71_apply, val_main_v19_apply, val_main_v18_apply, val_main_v15_apply, val_main_v17_apply, val_main_v16_apply, val_main_v13_apply,
    val_main_v12_apply, val_main_call1_v0_apply, val_main_call1_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v14_apply]
    refine congrArg₂ (· * ·) (congrArg x2 ?_) (Finset.sum_congr rfl fun f _ => ?_)
    · exact funext fun a => Fin.ext (by match a with | ⟨0, _⟩ => rfl | ⟨1, _⟩ => rfl)
    · rw [val_main_v11_apply, val_main_v10_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 2 of the first layer as the host program stacks it, read at node `n`, feature `k`. -/
theorem rel1_2 (x0 : (⟨S4096x128, .f32⟩ : BufTy).Contents (Elt Ideal)) (x3 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v72 (F := Ideal) x0 x3 x8 x9 (ix3 (0 : Fin 1) n k)
      = max ((∑ p : Fin 4096, x3 (ix2 n p) * ∑ f : Fin 128, x0 (ix2 p f) * x8 (ix3 (2 : Fin 7) f k))
          + x9 (ix2 (2 : Fin 7) k)) 0 := by
  rw [val_main_v72_apply, val_main_v29_apply, val_main_v28_apply, val_main_v25_apply, val_main_v27_apply, val_main_v26_apply, val_main_v23_apply,
    val_main_v22_apply, val_main_call2_v0_apply, val_main_call2_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v24_apply]
    refine congrArg₂ (· * ·) (congrArg x3 ?_) (Finset.sum_congr rfl fun f _ => ?_)
    · exact funext fun a => Fin.ext (by match a with | ⟨0, _⟩ => rfl | ⟨1, _⟩ => rfl)
    · rw [val_main_v21_apply, val_main_v20_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 3 of the first layer as the host program stacks it, read at node `n`, feature `k`. -/
theorem rel1_3 (x0 : (⟨S4096x128, .f32⟩ : BufTy).Contents (Elt Ideal)) (x4 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v73 (F := Ideal) x0 x4 x8 x9 (ix3 (0 : Fin 1) n k)
      = max ((∑ p : Fin 4096, x4 (ix2 n p) * ∑ f : Fin 128, x0 (ix2 p f) * x8 (ix3 (3 : Fin 7) f k))
          + x9 (ix2 (3 : Fin 7) k)) 0 := by
  rw [val_main_v73_apply, val_main_v39_apply, val_main_v38_apply, val_main_v35_apply, val_main_v37_apply, val_main_v36_apply, val_main_v33_apply,
    val_main_v32_apply, val_main_call3_v0_apply, val_main_call3_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v34_apply]
    refine congrArg₂ (· * ·) (congrArg x4 ?_) (Finset.sum_congr rfl fun f _ => ?_)
    · exact funext fun a => Fin.ext (by match a with | ⟨0, _⟩ => rfl | ⟨1, _⟩ => rfl)
    · rw [val_main_v31_apply, val_main_v30_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 4 of the first layer as the host program stacks it, read at node `n`, feature `k`. -/
theorem rel1_4 (x0 : (⟨S4096x128, .f32⟩ : BufTy).Contents (Elt Ideal)) (x5 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v74 (F := Ideal) x0 x5 x8 x9 (ix3 (0 : Fin 1) n k)
      = max ((∑ p : Fin 4096, x5 (ix2 n p) * ∑ f : Fin 128, x0 (ix2 p f) * x8 (ix3 (4 : Fin 7) f k))
          + x9 (ix2 (4 : Fin 7) k)) 0 := by
  rw [val_main_v74_apply, val_main_v49_apply, val_main_v48_apply, val_main_v45_apply, val_main_v47_apply, val_main_v46_apply, val_main_v43_apply,
    val_main_v42_apply, val_main_call4_v0_apply, val_main_call4_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v44_apply]
    refine congrArg₂ (· * ·) (congrArg x5 ?_) (Finset.sum_congr rfl fun f _ => ?_)
    · exact funext fun a => Fin.ext (by match a with | ⟨0, _⟩ => rfl | ⟨1, _⟩ => rfl)
    · rw [val_main_v41_apply, val_main_v40_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 5 of the first layer as the host program stacks it, read at node `n`, feature `k`. -/
theorem rel1_5 (x0 : (⟨S4096x128, .f32⟩ : BufTy).Contents (Elt Ideal)) (x6 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v75 (F := Ideal) x0 x6 x8 x9 (ix3 (0 : Fin 1) n k)
      = max ((∑ p : Fin 4096, x6 (ix2 n p) * ∑ f : Fin 128, x0 (ix2 p f) * x8 (ix3 (5 : Fin 7) f k))
          + x9 (ix2 (5 : Fin 7) k)) 0 := by
  rw [val_main_v75_apply, val_main_v59_apply, val_main_v58_apply, val_main_v55_apply, val_main_v57_apply, val_main_v56_apply, val_main_v53_apply,
    val_main_v52_apply, val_main_call5_v0_apply, val_main_call5_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v54_apply]
    refine congrArg₂ (· * ·) (congrArg x6 ?_) (Finset.sum_congr rfl fun f _ => ?_)
    · exact funext fun a => Fin.ext (by match a with | ⟨0, _⟩ => rfl | ⟨1, _⟩ => rfl)
    · rw [val_main_v51_apply, val_main_v50_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 6 of the first layer as the host program stacks it, read at node `n`, feature `k`. -/
theorem rel1_6 (x0 : (⟨S4096x128, .f32⟩ : BufTy).Contents (Elt Ideal)) (x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) :
    val_main_v76 (F := Ideal) x0 x7 x8 x9 (ix3 (0 : Fin 1) n k)
      = max ((∑ p : Fin 4096, x7 (ix2 n p) * ∑ f : Fin 128, x0 (ix2 p f) * x8 (ix3 (6 : Fin 7) f k))
          + x9 (ix2 (6 : Fin 7) k)) 0 := by
  rw [val_main_v76_apply, val_main_v69_apply, val_main_v68_apply, val_main_v65_apply, val_main_v67_apply, val_main_v66_apply, val_main_v63_apply,
    val_main_v62_apply, val_main_call6_v0_apply, val_main_call6_cst_apply, Ideal.ofBits_def, Ideal.ofBits_zero_f32,
    Ideal.maximumf_def, Ideal.addf_def]
  refine congrArg₂ max (congrArg₂ (· + ·) (Finset.sum_congr rfl fun p _ => ?_) (congrArg x9 ?_)) rfl
  · rw [val_main_v64_apply]
    refine congrArg₂ (· * ·) (congrArg x7 ?_) (Finset.sum_congr rfl fun f _ => ?_)
    · exact funext fun a => Fin.ext (by match a with | ⟨0, _⟩ => rfl | ⟨1, _⟩ => rfl)
    · rw [val_main_v61_apply, val_main_v60_apply]
      refine congrArg₂ (· * ·) (congrArg x0 ?_) (congrArg x8 ?_)
      · exact funext fun a => Fin.ext (by match a with | ⟨0, _⟩ => rfl | ⟨1, _⟩ => rfl)
      · refine funext fun a => Fin.ext ?_
        have hf : f.val < 128 := f.isLt
        have hk : k.val < 64 := k.isLt
        match a with
        | ⟨0, _⟩ => rfl
        | ⟨1, _⟩ => show (f.val * 64 + k.val) / 64 % 128 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- The stack of the seven relations' results, read at relation `r`, node `n`, feature `k`: the specification's
    summand for relation `r`. -/
theorem stack1_apply (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (n : Fin 4096) (k : Fin 64) (r : Fin 7) :
    val_main_v77 (F := Ideal) x0 x1 x2 x3 x4 x5 x6 x7 x8 x9 (ix3 r n k)
      = max ((∑ p : Fin 4096, (![x1, x2, x3, x4, x5, x6, x7] : Fin 7 → S4096x4096.Idx → EReal) r (ix2 n p)
              * ∑ f : Fin 128, x0 (ix2 p f) * x8 (ix3 r f k)) + x9 (ix2 r k)) 0 := by
  unfold val_main_v77
  refine (stack7_apply ![val_main_v70 (F := Ideal) x0 x1 x8 x9, val_main_v71 (F := Ideal) x0 x2 x8 x9,
    val_main_v72 (F := Ideal) x0 x3 x8 x9, val_main_v73 (F := Ideal) x0 x4 x8 x9, val_main_v74 (F := Ideal) x0 x5 x8 x9,
    val_main_v75 (F := Ideal) x0 x6 x8 x9, val_main_v76 (F := Ideal) x0 x7 x8 x9] (ix3 r n k)).trans ?_
  match r with
  | ⟨0, _⟩ => exact rel1_0 x0 x1 x8 x9 n k
  | ⟨1, _⟩ => exact rel1_1 x0 x2 x8 x9 n k
  | ⟨2, _⟩ => exact rel1_2 x0 x3 x8 x9 n k
  | ⟨3, _⟩ => exact rel1_3 x0 x4 x8 x9 n k
  | ⟨4, _⟩ => exact rel1_4 x0 x5 x8 x9 n k
  | ⟨5, _⟩ => exact rel1_5 x0 x6 x8 x9 n k
  | ⟨6, _⟩ => exact rel1_6 x0 x7 x8 x9 n k

/-- The host program's first layer is the specification's. -/
theorem ref_h1 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal)) :
    val_main_v78 (F := Ideal) x0 x1 x2 x3 x4 x5 x6 x7 x8 x9
      = Cert.Spec.h1 (Cert.Spec.mkArgs x0 x1 x2 x3 x4 x5 x6 x7 x8 x9 x10 x11 x12 x13) := by
  funext j
  obtain ⟨n, k, rfl⟩ : ∃ (n : Fin 4096) (k : Fin 64), j = ix2 n k := ⟨j 0, j 1, eq_ix2 j⟩
  rw [val_main_v78_apply, val_main_cst_apply, Ideal.ofBits_def, Ideal.ofBits_zero_f32, zero_add]
  show _ = Cert.Spec.layer _ _ _ _ n k
  unfold Cert.Spec.layer
  refine Finset.sum_congr rfl fun r _ => ?_
  have e : idx_main_v78 (ix2 n k) r = ix3 r n k :=
    funext fun a => Fin.ext (by match a with | ⟨0, _⟩ => rfl | ⟨1, _⟩ => rfl | ⟨2, _⟩ => rfl)
  rw [e]
  exact stack1_apply x0 x1 x2 x3 x4 x5 x6 x7 x8 x9 n k r

end Cert.RefSide

end
-- ==== Proof.RefLayer2.lean ====
import proofs.«132769_g22127671509052_cont_8to1_1196_24_alg».proof.Proof.RefLayer1

/-!
# The second layer of the host program is the specification's second layer

The same reading as for the first layer, over the first layer's output `h1` with 64 input features; the host program
slices the second layer's weights and biases at relations 0, 1, 2, 3, 3, 5, 6: relation 4 uses relation 3's.
-/

noncomputable section

namespace Cert.RefSide

open Cert.ReferenceIdeal Cert.ReferenceIdeal.Gen Cert.ReferenceIdeal.ReadP Idealize.ShloMosaic Idealize.ShloMosaic.ValueIdx

/-- Relation 0 of the second layer as the host program stacks it (it slices the weights and the bias at 0), read
    at node `n`, feature `k`. -/
theorem rel2_0 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v149 (F := Ideal) x0 x1 x2 x3 x4 x5 x6 x7 x8 x9 x10 x11 (ix3 (0 : Fin 1) n k)
      = max ((∑ p : Fin 4096, x1 (ix2 n p)
              * ∑ f : Fin 64, val_main_v78 (F := Ideal) x0 x1 x2 x3 x4 x5 x6 x7 x8 x9 (ix2 p f) * x10 (ix3 (0 : Fin 7) f k))
          + x11 (ix2 (0 : Fin 7) k)) 0 := by
  rw [val_main_v149_apply, val_main_v88_apply, val_main_v87_apply, val_main_v84_apply, val_main_v86_apply, val_main_v85_apply, val_main_v82_apply,
    val_main_v81_apply, val_main_call7_v0_apply, val_main_call7_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v83_apply]
    refine congrArg₂ (· * ·) (congrArg x1 ?_) (Finset.sum_congr rfl fun f _ => ?_)
    · exact funext fun a => Fin.ext (by match a with | ⟨0, _⟩ => rfl | ⟨1, _⟩ => rfl)
    · rw [val_main_v80_apply, val_main_v79_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 1 of the second layer as the host program stacks it (it slices the weights and the bias at 1), read
    at node `n`, feature `k`. -/
theorem rel2_1 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v150 (F := Ideal) x0 x1 x2 x3 x4 x5 x6 x7 x8 x9 x10 x11 (ix3 (0 : Fin 1) n k)
      = max ((∑ p : Fin 4096, x2 (ix2 n p)
              * ∑ f : Fin 64, val_main_v78 (F := Ideal) x0 x1 x2 x3 x4 x5 x6 x7 x8 x9 (ix2 p f) * x10 (ix3 (1 : Fin 7) f k))
          + x11 (ix2 (1 : Fin 7) k)) 0 := by
  rw [val_main_v150_apply, val_main_v98_apply, val_main_v97_apply, val_main_v94_apply, val_main_v96_apply, val_main_v95_apply, val_main_v92_apply,
    val_main_v91_apply, val_main_call8_v0_apply, val_main_call8_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v93_apply]
    refine congrArg₂ (· * ·) (congrArg x2 ?_) (Finset.sum_congr rfl fun f _ => ?_)
    · exact funext fun a => Fin.ext (by match a with | ⟨0, _⟩ => rfl | ⟨1, _⟩ => rfl)
    · rw [val_main_v90_apply, val_main_v89_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 2 of the second layer as the host program stacks it (it slices the weights and the bias at 2), read
    at node `n`, feature `k`. -/
theorem rel2_2 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v151 (F := Ideal) x0 x1 x2 x3 x4 x5 x6 x7 x8 x9 x10 x11 (ix3 (0 : Fin 1) n k)
      = max ((∑ p : Fin 4096, x3 (ix2 n p)
              * ∑ f : Fin 64, val_main_v78 (F := Ideal) x0 x1 x2 x3 x4 x5 x6 x7 x8 x9 (ix2 p f) * x10 (ix3 (2 : Fin 7) f k))
          + x11 (ix2 (2 : Fin 7) k)) 0 := by
  rw [val_main_v151_apply, val_main_v108_apply, val_main_v107_apply, val_main_v104_apply, val_main_v106_apply, val_main_v105_apply, val_main_v102_apply,
    val_main_v101_apply, val_main_call9_v0_apply, val_main_call9_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v103_apply]
    refine congrArg₂ (· * ·) (congrArg x3 ?_) (Finset.sum_congr rfl fun f _ => ?_)
    · exact funext fun a => Fin.ext (by match a with | ⟨0, _⟩ => rfl | ⟨1, _⟩ => rfl)
    · rw [val_main_v100_apply, val_main_v99_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 3 of the second layer as the host program stacks it (it slices the weights and the bias at 3), read
    at node `n`, feature `k`. -/
theorem rel2_3 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v152 (F := Ideal) x0 x1 x2 x3 x4 x5 x6 x7 x8 x9 x10 x11 (ix3 (0 : Fin 1) n k)
      = max ((∑ p : Fin 4096, x4 (ix2 n p)
              * ∑ f : Fin 64, val_main_v78 (F := Ideal) x0 x1 x2 x3 x4 x5 x6 x7 x8 x9 (ix2 p f) * x10 (ix3 (3 : Fin 7) f k))
          + x11 (ix2 (3 : Fin 7) k)) 0 := by
  rw [val_main_v152_apply, val_main_v118_apply, val_main_v117_apply, val_main_v114_apply, val_main_v116_apply, val_main_v115_apply, val_main_v112_apply,
    val_main_v111_apply, val_main_call10_v0_apply, val_main_call10_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v113_apply]
    refine congrArg₂ (· * ·) (congrArg x4 ?_) (Finset.sum_congr rfl fun f _ => ?_)
    · exact funext fun a => Fin.ext (by match a with | ⟨0, _⟩ => rfl | ⟨1, _⟩ => rfl)
    · rw [val_main_v110_apply, val_main_v109_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 4 of the second layer as the host program stacks it (it slices the weights and the bias at 3), read
    at node `n`, feature `k`. -/
theorem rel2_4 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v153 (F := Ideal) x0 x1 x2 x3 x4 x5 x6 x7 x8 x9 x10 x11 (ix3 (0 : Fin 1) n k)
      = max ((∑ p : Fin 4096, x5 (ix2 n p)
              * ∑ f : Fin 64, val_main_v78 (F := Ideal) x0 x1 x2 x3 x4 x5 x6 x7 x8 x9 (ix2 p f) * x10 (ix3 (3 : Fin 7) f k))
          + x11 (ix2 (3 : Fin 7) k)) 0 := by
  rw [val_main_v153_apply, val_main_v128_apply, val_main_v127_apply, val_main_v124_apply, val_main_v126_apply, val_main_v125_apply, val_main_v122_apply,
    val_main_v121_apply, val_main_call11_v0_apply, val_main_call11_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v123_apply]
    refine congrArg₂ (· * ·) (congrArg x5 ?_) (Finset.sum_congr rfl fun f _ => ?_)
    · exact funext fun a => Fin.ext (by match a with | ⟨0, _⟩ => rfl | ⟨1, _⟩ => rfl)
    · rw [val_main_v120_apply, val_main_v119_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 5 of the second layer as the host program stacks it (it slices the weights and the bias at 5), read
    at node `n`, feature `k`. -/
theorem rel2_5 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v154 (F := Ideal) x0 x1 x2 x3 x4 x5 x6 x7 x8 x9 x10 x11 (ix3 (0 : Fin 1) n k)
      = max ((∑ p : Fin 4096, x6 (ix2 n p)
              * ∑ f : Fin 64, val_main_v78 (F := Ideal) x0 x1 x2 x3 x4 x5 x6 x7 x8 x9 (ix2 p f) * x10 (ix3 (5 : Fin 7) f k))
          + x11 (ix2 (5 : Fin 7) k)) 0 := by
  rw [val_main_v154_apply, val_main_v138_apply, val_main_v137_apply, val_main_v134_apply, val_main_v136_apply, val_main_v135_apply, val_main_v132_apply,
    val_main_v131_apply, val_main_call12_v0_apply, val_main_call12_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v133_apply]
    refine congrArg₂ (· * ·) (congrArg x6 ?_) (Finset.sum_congr rfl fun f _ => ?_)
    · exact funext fun a => Fin.ext (by match a with | ⟨0, _⟩ => rfl | ⟨1, _⟩ => rfl)
    · rw [val_main_v130_apply, val_main_v129_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- Relation 6 of the second layer as the host program stacks it (it slices the weights and the bias at 6), read
    at node `n`, feature `k`. -/
theorem rel2_6 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) :
    val_main_v155 (F := Ideal) x0 x1 x2 x3 x4 x5 x6 x7 x8 x9 x10 x11 (ix3 (0 : Fin 1) n k)
      = max ((∑ p : Fin 4096, x7 (ix2 n p)
              * ∑ f : Fin 64, val_main_v78 (F := Ideal) x0 x1 x2 x3 x4 x5 x6 x7 x8 x9 (ix2 p f) * x10 (ix3 (6 : Fin 7) f k))
          + x11 (ix2 (6 : Fin 7) k)) 0 := by
  rw [val_main_v155_apply, val_main_v148_apply, val_main_v147_apply, val_main_v144_apply, val_main_v146_apply, val_main_v145_apply, val_main_v142_apply,
    val_main_v141_apply, val_main_call13_v0_apply, val_main_call13_cst_apply, Ideal.ofBits_def, Ideal.ofBits_zero_f32,
    Ideal.maximumf_def, Ideal.addf_def]
  refine congrArg₂ max (congrArg₂ (· + ·) (Finset.sum_congr rfl fun p _ => ?_) (congrArg x11 ?_)) rfl
  · rw [val_main_v143_apply]
    refine congrArg₂ (· * ·) (congrArg x7 ?_) (Finset.sum_congr rfl fun f _ => ?_)
    · exact funext fun a => Fin.ext (by match a with | ⟨0, _⟩ => rfl | ⟨1, _⟩ => rfl)
    · rw [val_main_v140_apply, val_main_v139_apply]
      refine congrArg₂ (· * ·) (congrArg (val_main_v78 (F := Ideal) x0 x1 x2 x3 x4 x5 x6 x7 x8 x9) ?_) (congrArg x10 ?_)
      · exact funext fun a => Fin.ext (by match a with | ⟨0, _⟩ => rfl | ⟨1, _⟩ => rfl)
      · refine funext fun a => Fin.ext ?_
        have hf : f.val < 64 := f.isLt
        have hk : k.val < 64 := k.isLt
        match a with
        | ⟨0, _⟩ => rfl
        | ⟨1, _⟩ => show (f.val * 64 + k.val) / 64 % 64 = f.val; omega
        | ⟨2, _⟩ => show (f.val * 64 + k.val) % 64 = k.val; omega
  · refine funext fun a => Fin.ext ?_
    have hk : k.val < 64 := k.isLt
    match a with
    | ⟨0, _⟩ => rfl
    | ⟨1, _⟩ => show k.val % 64 = k.val; omega

/-- The stack of the seven relations' results in the second layer, read at relation `r`, node `n`, feature `k`. -/
theorem stack2_apply (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal)) (n : Fin 4096) (k : Fin 64) (r : Fin 7) :
    val_main_v156 (F := Ideal) x0 x1 x2 x3 x4 x5 x6 x7 x8 x9 x10 x11 (ix3 r n k)
      = max ((∑ p : Fin 4096, (![x1, x2, x3, x4, x5, x6, x7] : Fin 7 → S4096x4096.Idx → EReal) r (ix2 n p)
              * ∑ f : Fin 64, val_main_v78 (F := Ideal) x0 x1 x2 x3 x4 x5 x6 x7 x8 x9 (ix2 p f) * x10 (ix3 (Cert.Spec.share r) f k))
          + x11 (ix2 (Cert.Spec.share r) k)) 0 := by
  unfold val_main_v156
  refine (stack7_apply ![val_main_v149 (F := Ideal) x0 x1 x2 x3 x4 x5 x6 x7 x8 x9 x10 x11, val_main_v150 (F := Ideal) x0 x1 x2 x3 x4 x5 x6 x7 x8 x9 x10 x11,
    val_main_v151 (F := Ideal) x0 x1 x2 x3 x4 x5 x6 x7 x8 x9 x10 x11, val_main_v152 (F := Ideal) x0 x1 x2 x3 x4 x5 x6 x7 x8 x9 x10 x11,
    val_main_v153 (F := Ideal) x0 x1 x2 x3 x4 x5 x6 x7 x8 x9 x10 x11, val_main_v154 (F := Ideal) x0 x1 x2 x3 x4 x5 x6 x7 x8 x9 x10 x11,
    val_main_v155 (F := Ideal) x0 x1 x2 x3 x4 x5 x6 x7 x8 x9 x10 x11] (ix3 r n k)).trans ?_
  match r with
  | ⟨0, _⟩ => exact rel2_0 x0 x1 x2 x3 x4 x5 x6 x7 x8 x9 x10 x11 n k
  | ⟨1, _⟩ => exact rel2_1 x0 x1 x2 x3 x4 x5 x6 x7 x8 x9 x10 x11 n k
  | ⟨2, _⟩ => exact rel2_2 x0 x1 x2 x3 x4 x5 x6 x7 x8 x9 x10 x11 n k
  | ⟨3, _⟩ => exact rel2_3 x0 x1 x2 x3 x4 x5 x6 x7 x8 x9 x10 x11 n k
  | ⟨4, _⟩ => exact rel2_4 x0 x1 x2 x3 x4 x5 x6 x7 x8 x9 x10 x11 n k
  | ⟨5, _⟩ => exact rel2_5 x0 x1 x2 x3 x4 x5 x6 x7 x8 x9 x10 x11 n k
  | ⟨6, _⟩ => exact rel2_6 x0 x1 x2 x3 x4 x5 x6 x7 x8 x9 x10 x11 n k

/-- The host program's second layer — its second result — is the specification's. -/
theorem ref_h2 (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal)) :
    val_main_v157 (F := Ideal) x0 x1 x2 x3 x4 x5 x6 x7 x8 x9 x10 x11
      = Cert.Spec.h2 (Cert.Spec.mkArgs x0 x1 x2 x3 x4 x5 x6 x7 x8 x9 x10 x11 x12 x13) := by
  funext j
  obtain ⟨n, k, rfl⟩ : ∃ (n : Fin 4096) (k : Fin 64), j = ix2 n k := ⟨j 0, j 1, eq_ix2 j⟩
  rw [val_main_v157_apply, val_main_cst_0_apply, Ideal.ofBits_def, Ideal.ofBits_zero_f32, zero_add]
  show _ = Cert.Spec.layer _ _ _ _ n k
  unfold Cert.Spec.layer
  rw [← ref_h1 x0 x1 x2 x3 x4 x5 x6 x7 x8 x9 x10 x11 x12 x13]
  refine Finset.sum_congr rfl fun r _ => ?_
  have e : idx_main_v157 (ix2 n k) r = ix3 r n k :=
    funext fun a => Fin.ext (by match a with | ⟨0, _⟩ => rfl | ⟨1, _⟩ => rfl | ⟨2, _⟩ => rfl)
  rw [e]
  exact stack2_apply x0 x1 x2 x3 x4 x5 x6 x7 x8 x9 x10 x11 n k r

end Cert.RefSide

end
-- ==== Proof.RefSoftmax.lean ====
import Idealize.ShloMosaic.PureOps.Ideal
import Idealize.ShloMosaic.PureOps.Ideal.Laws
import proofs.«132769_g22127671509052_cont_8to1_1196_24_alg».proof.Proof.LibSoftmaxShift

/-!
# The log-softmax does not see a finite shift

For real entries `l₀ … lₙ₋₁` and a real `m`,
`(l c − m) − log (∑ₖ exp (lₖ − m)) = l c − log (∑ₖ exp lₖ)`:
the sum on the left is the one on the right divided by `exp m`, a positive real, so its logarithm is smaller by `m`.
The host program shifts by `max (−∞) (the fold of max over the row from −∞)`, which is real when the entries are,
and starts its sum at zero. On the extended reals none of this holds at an infinite entry; the entries are assumed real.
-/

noncomputable section

namespace Cert.RefSide

open Idealize.ShloMosaic Idealize.ShloMosaic.SoftmaxShift

/-- Shift invariance of the log-softmax over real entries. -/
theorem logsoftmax_shift_real {n : ℕ} (hn : 0 < n) (b : Fin n → ℝ) (m : ℝ) (c : Fin n) :
    ((b c : EReal) - (m : EReal)) - Ideal.log (∑ k : Fin n, Ideal.exp ((b k : EReal) - (m : EReal)))
      = (b c : EReal) - Ideal.log (∑ k : Fin n, Ideal.exp (b k : EReal)) := by
  haveI : Nonempty (Fin n) := ⟨⟨0, hn⟩⟩
  have hpos1 : 0 < ∑ k : Fin n, Real.exp (b k - m) :=
    Finset.sum_pos (fun k _ => Real.exp_pos _) Finset.univ_nonempty
  have hpos2 : 0 < ∑ k : Fin n, Real.exp (b k) :=
    Finset.sum_pos (fun k _ => Real.exp_pos _) Finset.univ_nonempty
  simp only [← EReal.coe_sub, Ideal.exp_coe, ← coe_sum]
  rw [Ideal.log_coe, Ideal.log_coe, if_neg (not_le.mpr hpos1), if_neg (not_le.mpr hpos2), ← EReal.coe_sub,
    ← EReal.coe_sub]
  congr 1
  have hsum : ∑ k : Fin n, Real.exp (b k - m) = (∑ k : Fin n, Real.exp (b k)) / Real.exp m := by
    rw [Finset.sum_div]; exact Finset.sum_congr rfl fun k _ => Real.exp_sub _ _
  rw [hsum, Real.log_div hpos2.ne' (Real.exp_pos m).ne', Real.log_exp]
  ring

/-- The log-softmax that subtracts the row maximum (a fold of max from −∞, capped below by −∞ once more, its sum
    started at zero) is the plain log-softmax, at real entries. -/
theorem logsoftmax_max_shift {n : ℕ} (hn : 0 < n) (l : Fin n → EReal) (hl : ∀ k, ∃ r : ℝ, l k = (r : EReal))
    (c : Fin n) :
    (l c - max ⊥ ((Finset.univ : Finset (Fin n)).fold max ⊥ l))
        - Ideal.log (0 + ∑ k : Fin n, Ideal.exp (l k - max ⊥ ((Finset.univ : Finset (Fin n)).fold max ⊥ l)))
      = l c - Ideal.log (∑ k : Fin n, Ideal.exp (l k)) := by
  have ha : ∀ k, Fin' (l k) := fun k => by obtain ⟨r, hr⟩ := hl k; rw [hr]; exact Fin'.coe r
  obtain ⟨m, hm⟩ := (fold_max_finite hn l ha).exists_real
  rw [zero_add, max_eq_right bot_le, hm]
  choose b hb using hl
  simp only [hb]
  exact logsoftmax_shift_real hn b m c

end Cert.RefSide

end
-- ==== Proof.RefLogp.lean ====
import proofs.«132769_g22127671509052_cont_8to1_1196_24_alg».proof.Proof.RefLayer2
import proofs.«132769_g22127671509052_cont_8to1_1196_24_alg».proof.Proof.RefSoftmax

/-!
# The host program's first result is the specification's log-softmax

The read-out `h2 · Wro + bro` gives the logits. The host program's log-softmax subtracts from each logit the row's
maximum — the fold of max over the four classes from −∞, capped below by −∞ once more — and then the logarithm of the
sum, started at zero, of the exponentials of the shifted logits. At real logits this is the plain log-softmax.
-/

noncomputable section

namespace Cert.RefSide

open Cert.ReferenceIdeal Cert.ReferenceIdeal.Gen Cert.ReferenceIdeal.ReadP Idealize.ShloMosaic Idealize.ShloMosaic.ValueIdx
open Idealize.ShloMosaic.SoftmaxShift (ofBits_neg_inf_f32)

/-- In a matrix reduced along its rows, row `c` with column `k` put back is the entry (c, k). -/
theorem rowLift {n m : Nat} (h : (⟨2, ![n, m]⟩ : Shape).Reduces [1] ⟨1, ![n]⟩) (c : Fin n) (k : Fin m) :
    h.lift (ix1 c) k = ix2 c k := by
  funext a; apply Fin.ext; fin_cases a <;> rfl

/-- The host's maximum along the rows of a matrix, at row `c`: the fold of max over the row from the initial value. -/
theorem host_rowMax {n m : Nat} (x : FVec Ideal ⟨2, ![n, m]⟩ .f32) (init : (⟨0, ![]⟩ : Shape).Idx → Ideal .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (c : Fin n) :
    Host.reduce FloatOps.maximumf x init h' hu (ix1 c)
      = (Finset.univ : Finset (Fin m)).fold max (init (Shape.Idx.first hu)) (fun k => x (ix2 c k)) := by
  rw [Host.reduce_eq_fold_single FloatOps.maximumf x init h' h hu]
  exact congrArg (fun f => Finset.fold max (init (Shape.Idx.first hu)) f (Finset.univ : Finset (Fin m)))
    (funext fun k => congrArg x (rowLift h c k))

/-- The read-out stage at node `n`, class `c` is the specification's logit. -/
theorem logit_read (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal)) (n : Fin 4096) (c : Fin 4) :
    val_main_v161 (F := Ideal) x0 x1 x2 x3 x4 x5 x6 x7 x8 x9 x10 x11 x12 x13 (ix2 n c) = Cert.Spec.logit (Cert.Spec.mkArgs x0 x1 x2 x3 x4 x5 x6 x7 x8 x9 x10 x11 x12 x13) n c := by
  rw [val_main_v161_apply, val_main_v158_apply, val_main_v160_apply, val_main_v159_apply, Ideal.addf_def,
    ref_h2 x0 x1 x2 x3 x4 x5 x6 x7 x8 x9 x10 x11 x12 x13]
  unfold Cert.Spec.logit
  refine congrArg₂ (· + ·) (Finset.sum_congr rfl fun k _ => congrArg₂ (· * ·) (congrArg _ ?_) (congrArg x12 ?_))
    (congrArg x13 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The shift the host program subtracts in row `n` (the same in every column `c`). -/
theorem shift_read (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal)) (n : Fin 4096) (c : Fin 4) :
    val_main_call14_v4 (F := Ideal) x0 x1 x2 x3 x4 x5 x6 x7 x8 x9 x10 x11 x12 x13 (ix2 n c)
      = max ⊥ ((Finset.univ : Finset (Fin 4)).fold max ⊥
          (fun c' => val_main_v161 (F := Ideal) x0 x1 x2 x3 x4 x5 x6 x7 x8 x9 x10 x11 x12 x13 (ix2 n c'))) := by
  rw [val_main_call14_v4_apply, val_main_call14_v3_apply, val_main_call14_v2_apply, val_main_call14_v1_apply,
    val_main_call14_cst_0_apply, Ideal.ofBits_def, ofBits_neg_inf_f32, Ideal.maximumf_def]
  have e : idx_main_call14_v3 (idx_main_call14_v4 (ix2 n c)) = ix1 n :=
    funext fun a => Fin.ext (by match a with | ⟨0, _⟩ => rfl)
  rw [e]
  unfold val_main_call14_v0
  refine congrArg (max ⊥) ?_
  refine (host_rowMax (val_main_v161 (F := Ideal) x0 x1 x2 x3 x4 x5 x6 x7 x8 x9 x10 x11 x12 x13) (val_main_call14_cst (F := Ideal))
    reducesTo_S4096x4_S4096_d1 (by decide) h_S_ n).trans ?_
  rw [val_main_call14_cst_apply, Ideal.ofBits_def, ofBits_neg_inf_f32]

/-- The shifted logit. -/
theorem shifted_read (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal)) (n : Fin 4096) (c : Fin 4) :
    val_main_call14_v5 (F := Ideal) x0 x1 x2 x3 x4 x5 x6 x7 x8 x9 x10 x11 x12 x13 (ix2 n c)
      = val_main_v161 (F := Ideal) x0 x1 x2 x3 x4 x5 x6 x7 x8 x9 x10 x11 x12 x13 (ix2 n c)
        - max ⊥ ((Finset.univ : Finset (Fin 4)).fold max ⊥
            (fun c' => val_main_v161 (F := Ideal) x0 x1 x2 x3 x4 x5 x6 x7 x8 x9 x10 x11 x12 x13 (ix2 n c'))) := by
  rw [val_main_call14_v5_apply, Ideal.subf_def, shift_read]

/-- The logarithm the host program subtracts in row `n`. -/
theorem logsum_read (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal)) (n : Fin 4096) (c : Fin 4) :
    val_main_call14_v10 (F := Ideal) x0 x1 x2 x3 x4 x5 x6 x7 x8 x9 x10 x11 x12 x13 (ix2 n c)
      = Ideal.log (0 + ∑ c' : Fin 4, Ideal.exp (val_main_call14_v5 (F := Ideal) x0 x1 x2 x3 x4 x5 x6 x7 x8 x9 x10 x11 x12 x13 (ix2 n c'))) := by
  rw [val_main_call14_v10_apply, val_main_call14_v9_apply, val_main_call14_v8_apply, val_main_call14_v7_apply,
    val_main_call14_cst_1_apply, Ideal.ofBits_def, Ideal.ofBits_zero_f32, Ideal.hostUnary_log_def]
  refine congrArg Ideal.log (congrArg (0 + ·) (Finset.sum_congr rfl fun c' _ => ?_))
  rw [val_main_call14_v6_apply, Ideal.hostUnary_exp_def]
  refine congrArg Ideal.exp (congrArg _ ?_)
  exact funext fun a => Fin.ext (by match a with | ⟨0, _⟩ => rfl | ⟨1, _⟩ => rfl)

/-- The host program's first result is the specification's log-softmax, at real logits. -/
theorem ref_logp (x0 : (⟨S4096x128, .f32⟩ : BufTy).Contents (Elt Ideal)) (x1 x2 x3 x4 x5 x6 x7 : (⟨S4096x4096, .f32⟩ : BufTy).Contents (Elt Ideal))
    (x8 : (⟨S7x128x64, .f32⟩ : BufTy).Contents (Elt Ideal)) (x9 : (⟨S7x64, .f32⟩ : BufTy).Contents (Elt Ideal)) (x10 : (⟨S7x64x64, .f32⟩ : BufTy).Contents (Elt Ideal)) (x11 : (⟨S7x64, .f32⟩ : BufTy).Contents (Elt Ideal))
    (x12 : (⟨S64x4, .f32⟩ : BufTy).Contents (Elt Ideal)) (x13 : (⟨S4, .f32⟩ : BufTy).Contents (Elt Ideal))
    (hl : ∀ n c, ∃ r : ℝ, Cert.Spec.logit (Cert.Spec.mkArgs x0 x1 x2 x3 x4 x5 x6 x7 x8 x9 x10 x11 x12 x13) n c = (r : EReal)) :
    val_main_v162 (F := Ideal) x0 x1 x2 x3 x4 x5 x6 x7 x8 x9 x10 x11 x12 x13 = Cert.Spec.logp (Cert.Spec.mkArgs x0 x1 x2 x3 x4 x5 x6 x7 x8 x9 x10 x11 x12 x13) := by
  funext j
  obtain ⟨n, c, rfl⟩ : ∃ (n : Fin 4096) (c : Fin 4), j = ix2 n c := ⟨j 0, j 1, eq_ix2 j⟩
  rw [val_main_v162_apply, Ideal.subf_def, logsum_read]
  simp only [shifted_read, logit_read]
  show _ = Cert.Spec.logit _ n c - Ideal.log (∑ c' : Fin 4, Ideal.exp (Cert.Spec.logit _ n c'))
  exact logsoftmax_max_shift (by decide) (fun c' => Cert.Spec.logit (Cert.Spec.mkArgs x0 x1 x2 x3 x4 x5 x6 x7 x8 x9 x10 x11 x12 x13) n c') (hl n) c

end Cert.RefSide

end
-- ==== Proof.RefResult.lean ====
import proofs.«132769_g22127671509052_cont_8to1_1196_24_alg».proof.Proof.RefLogp
import proofs.«132769_g22127671509052_cont_8to1_1196_24_alg».proof.Proof.RefRunP
import proofs.«132769_g22127671509052_cont_8to1_1196_24_alg».proof.Defs
import proofs.«132769_g22127671509052_cont_8to1_1196_24_alg».proof.Proof.Gen.Pre_finite_inputs

/-!
# The host program's run ends with the specification's two results

The generated run states each result as the operations' composed term of the arguments; that term is the last stage,
and the stages were read as the specification's `logp` and `h2` of the fourteen argument arrays.
-/

noncomputable section

namespace Cert.RefSide

open Cert.ReferenceIdeal Cert.ReferenceIdeal.Gen Cert.ReferenceIdeal.ReadP Idealize.ShloMosaic Idealize.ShloMosaic.TcCoe Idealize.SL.Sem Idealize.ShloMosaic.StableHlo

/-- The specification's argument record read off a memory of the host program, on device `c`. -/
def refArgs (m' : (ℓ : Loc nD τ sig) → Buf (Elt Ideal) ℓ) (c : Dev nD) : Cert.Spec.Args :=
  Cert.Spec.mkArgs (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13))

/-- Every weakly fair execution of the host program terminates with the specification's log-softmax and second layer
    as its two results, the arguments unchanged — at real logits. -/
theorem ref_run (m' : (ℓ : Loc nD τ sig) → Buf (Elt Ideal) ℓ) (ρ' : Dev nD → PrngReg)
    (hl : ∀ (c : Dev nD) (n : Fin 4096) (k : Fin 4), ∃ r : ℝ, Cert.Spec.logit (refArgs m' c) n k = (r : EReal)) :
    θ_run (defs (F := Ideal)) (onTc (τ := τ) (main (F := Ideal))) ⟨m', fun _ => 0, ρ'⟩ (fun r => ∀ c : Dev nD,
      r.2.mem ((c.tc : Thread nD τ).loc main_v162) = Cert.Spec.logp (refArgs m' c)
      ∧ r.2.mem ((c.tc : Thread nD τ).loc main_v157) = Cert.Spec.h2 (refArgs m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run _ _ _).mono (fun _ h c =>
    ⟨((h c).1.trans (val_main_v162_eq m' c)).trans (ref_logp _ _ _ _ _ _ _ _ _ _ _ _ _ _ (hl c)),
      ((h c).2.1.trans (val_main_v157_eq m' c)).trans
        (ref_h2 _ _ _ _ _ _ _ _ _ _ _ _ (m' ((c.tc : Thread nD τ).loc main_arg12)) (m' ((c.tc : Thread nD τ).loc main_arg13))),
      (h c).2.2⟩) (Cert.ReferenceIdeal.ValueP.run (F := Ideal) m' ρ')

/-- The host program's frame: its run with the two results dropped. -/
theorem frame_ri : Cert.frame_ReferenceIdeal :=
  fun m ρ _ => (θ_run (Cert.ReferenceIdeal.defs (F := Ideal)) _ _).mono (fun _ h c => (h c).2.2)
    (Cert.ReferenceIdeal.ValueP.run (F := Ideal) m ρ)

end Cert.RefSide

end
-- ==== Proof.Assemble.lean ====
import proofs.«132769_g22127671509052_cont_8to1_1196_24_alg».proof.Defs
import proofs.«132769_g22127671509052_cont_8to1_1196_24_alg».proof.Proof.Gen.Kernel
import proofs.«132769_g22127671509052_cont_8to1_1196_24_alg».proof.Proof.Gen.KernelIdeal
import proofs.«132769_g22127671509052_cont_8to1_1196_24_alg».proof.Proof.Gen.ReferenceIdeal
import proofs.«132769_g22127671509052_cont_8to1_1196_24_alg».proof.Proof.Gen.Pre_finite_inputs
import proofs.«132769_g22127671509052_cont_8to1_1196_24_alg».proof.Proof.KIBody
import proofs.«132769_g22127671509052_cont_8to1_1196_24_alg».proof.Proof.KIFinal
import proofs.«132769_g22127671509052_cont_8to1_1196_24_alg».proof.Proof.KBBody
import proofs.«132769_g22127671509052_cont_8to1_1196_24_alg».proof.Proof.BridgeLogp
import proofs.«132769_g22127671509052_cont_8to1_1196_24_alg».proof.Proof.RealPre
import proofs.«132769_g22127671509052_cont_8to1_1196_24_alg».proof.Proof.RealSpec
import proofs.«132769_g22127671509052_cont_8to1_1196_24_alg».proof.Proof.RefResult

/-!
# The five conjuncts of the claim, assembled

The kernel's run ends with its two result arrays at the whole-array functions `KLogp` and `KH2` of the arguments, and
the host program's run with the specification's `logp` and `h2` of the same arguments; under the precondition every
argument entry is real, so the logits are real, and the two pairs of results are equal: both are the specification's.
-/

set_option maxRecDepth 16384

noncomputable section

namespace Cert.Proof.Parts

open Idealize.ShloMosaic Idealize.ShloMosaic.TcCoe Idealize.SL.Sem
open Idealize.ShloMosaic.Pipeline (Dat)

section KernelSide

open Cert.KernelIdeal Cert.KernelIdeal.Gen Cert.KernelIdeal.Hand

variable {F : FTy → Type} [FloatOps F]

set_option backward.isDefEq.respectTransparency.types false in
/-- Every weakly fair execution of the kernel's program terminates with the two result arrays at `KLogp` and `KH2`
    and the fourteen arguments unchanged. -/
theorem kernel_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v19_0) = KLogp m c
      ∧ r.2.mem ((c.tc : Thread nD τ).loc main_v19_1) = KH2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 14).trans (final14 m c), ((h c).1 15).trans (final15 m c),
      ((h c).1 7).trans (((dats m 0 c).arrAt_in 7 rfl _).trans ((A_eq m c 7).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).1 9).trans (((dats m 0 c).arrAt_in 9 rfl _).trans ((A_eq m c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 12).trans (((dats m 0 c).arrAt_in 12 rfl _).trans ((A_eq m c 12).trans (V_main_arg12 m c))),
      ((h c).2 main_arg13 (Pipeline.mem_restRefs_of main_arg13 (by decide) (by decide))).trans (V_main_arg13 m c)⟩)
    (run_main m ρ)

end KernelSide

/-- The three frames and the (empty) ledger of idealization rewrites. -/
theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.RefSide.frame_ri
theorem preserves : Cert.preserves_Kernel_KernelIdeal := trivial

open Cert.BridgeSide Cert.RefSide in
/-- The two idealized programs, run from memories that agree on the arguments, end with equal results. -/
theorem algebraic : Cert.algebraic_KernelIdeal_ReferenceIdeal := by
  intro m ρ m' ρ' hpre hagree
  have hreal : ∀ c, (kArgs m c).AllReal := fun c =>
    Cert.RealSide.allReal_of_fn _ _ _ _ _ _ _ _ _ _ _ _ _ _ (hpre c)
  have hargs : ∀ c, refArgs m' c = kArgs m c := fun c => by
    obtain ⟨e0, e1, e2, e3, e4, e5, e6, e7, e8, e9, e10, e11, e12, e13⟩ := hagree c
    unfold refArgs
    rw [e0, e1, e2, e3, e4, e5, e6, e7, e8, e9, e10, e11, e12, e13]
  refine ⟨fun c => Cert.KernelIdeal.Hand.KLogp m c, fun c => Cert.KernelIdeal.Hand.KH2 m c, kernel_run m ρ, ?_⟩
  refine (θ_run _ _ _).mono (fun _ h c => ⟨?_, ?_, (h c).2.2⟩)
    (ref_run m' ρ' fun c n k => by rw [hargs c]; exact Cert.RealSide.logit_real _ (hreal c) n k)
  · rw [(h c).1, hargs c]; exact (KLogp_eq m c (hreal c)).symm
  · rw [(h c).2.1, hargs c]; exact (KH2_eq m c).symm

end Cert.Proof.Parts

end
-- ==== Proof.lean ====
/- The proof of `Cert.Claim` for a two-layer graph network over seven relations with dense adjacency matrices.

   Both programs compute, per layer, `∑ i, max (adj i · (h · W i) + b i) 0` over the seven relations (the second layer using
   relation 3's weights for relation 4), then a read-out `h2 · Wro + bro` and its log-softmax; the results are the log-softmax
   and `h2` (Proof/Spec.lean states this index by index over the extended reals).

   The kernel runs a grid of 2 × 32 points: the first coordinate is the layer, the second a block of 128 rows. At the first
   point of a layer it fills a scratch buffer with `(features or first layer's output) · (the seven weight matrices side by
   side)`; at every point it multiplies the block's rows of each adjacency matrix with that relation's 64 columns of the
   scratch, adds the bias row, rectifies and sums; through layer 0 the sums go, 128 rows at a time, into a second scratch,
   through layer 1 into the second output window, and their read-out's log-softmax into the first. Proof/KIBody.lean (and
   its copy for the word-level program, Proof/KBBody.lean) runs the body at every grid point and carries the two scratch
   buffers' contents from point to point; Proof/KIFinal.lean reads the result arrays off the blocks written back; the
   Bridge modules show these are the specification's `h2` and log-softmax — the same sums in another grouping, and for the
   log-softmax the identity `l - (log ∑ exp (l - M) + M) = l - log ∑ exp l`, which holds because every logit is a real number
   when every input is (Proof/RealPre.lean, Proof/RealSpec.lean, Proof/RealLaws.lean). The reference is read one host
   operation at a time (the Ref modules) and is the same specification; its log-softmax `(l - M) - log ∑ exp (l - M)` is the
   plain one for the same reason. Proof/Assemble.lean puts the five conjuncts together. -/
import proofs.«132769_g22127671509052_cont_8to1_1196_24_alg».proof.Defs
import proofs.«132769_g22127671509052_cont_8to1_1196_24_alg».proof.Proof.Assemble
import proofs.«132769_g22127671509052_cont_8to1_1196_24_alg».proof.Proof.Gen.Kernel
import proofs.«132769_g22127671509052_cont_8to1_1196_24_alg».proof.Proof.Gen.KernelIdeal
import proofs.«132769_g22127671509052_cont_8to1_1196_24_alg».proof.Proof.Gen.ReferenceIdeal
import proofs.«132769_g22127671509052_cont_8to1_1196_24_alg».proof.Proof.Gen.Pre_finite_inputs
import Idealize.ShloMosaic.Adequacy
import Idealize.ShloMosaic.Init

noncomputable section

namespace Cert.Proof

open Idealize.ShloMosaic Idealize.SL.Sem

/-- The witnesses of the programs' stated facts, the three frames, the (empty) idealization ledger, and the equality of
    the two idealized programs' results. -/
theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
